-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x8192x256 : Shape := ⟨3, ![16, 8192, 256]⟩
abbrev S16x2048 : Shape := ⟨2, ![16, 2048]⟩
abbrev S_ : Shape := ⟨0, ![]⟩

class Facts : Prop where
  bcast_S_S16x8192x256 : S_.BroadcastsInDim S16x8192x256 (![] : Fin 0 → Fin S16x8192x256.rank)
  reducesTo_S16x8192x256_S_d0_1_2 : S16x8192x256.ReducesTo [0, 1, 2] S_
  h_S_ : 0 < S_.numel
  bcast_S_S16x2048 : S_.BroadcastsInDim S16x2048 (![] : Fin 0 → Fin S16x2048.rank)
  reducesTo_S16x2048_S_d0_1 : S16x2048.ReducesTo [0, 1] S_

variable [Facts]

def fn {F : FTy → Type} [FloatOps F] (main_arg0 : FVec F S16x8192x256 .f32) (main_arg1 : IVec S16x2048 32) : IVec S_ 1 :=
  let main_v0 : FVec F S16x8192x256 .f32 := Host.absf main_arg0
  let main_cst : FVec F S_ .f32 := constant S_ .f32 0x7F800000#32
  let main_v1 : FVec F S16x8192x256 .f32 := broadcastInDim S16x8192x256 ![] bcast_S_S16x8192x256 main_cst
  let main_v2 : IVec S16x8192x256 1 := cmpf .olt main_v0 main_v1
  let main_c : IVec S_ 1 := constantI S_ 1 1#1
  let main_v3 : IVec S_ 1 := (fun x v => Host.reduce IntOp.andi x v reducesTo_S16x8192x256_S_d0_1_2 h_S_) main_v2 main_c
  let main_c_0 : IVec S_ 32 := constantI S_ 32 0#32
  let main_v4 : IVec S16x2048 32 := broadcastInDim S16x2048 ![] bcast_S_S16x2048 main_c_0
  let main_v5 : IVec S16x2048 1 := cmpi .sge main_arg1 main_v4
  let main_c_1 : IVec S_ 32 := constantI S_ 32 8192#32
  let main_v6 : IVec S16x2048 32 := broadcastInDim S16x2048 ![] bcast_S_S16x2048 main_c_1
  let main_v7 : IVec S16x2048 1 := cmpi .slt main_arg1 main_v6
  let main_v8 : IVec S16x2048 1 := andi main_v5 main_v7
  let main_c_2 : IVec S_ 1 := constantI S_ 1 1#1
  let main_v9 : IVec S_ 1 := (fun x v => Host.reduce IntOp.andi x v reducesTo_S16x2048_S_d0_1 h_S_) main_v8 main_c_2
  let main_v10 : IVec S_ 1 := andi main_v3 main_v9
  main_v10
-- ==== Kernel.lean ====
abbrev S16x8192x256 : Shape := ⟨3, ![16, 8192, 256]⟩
abbrev S16x2048 : Shape := ⟨2, ![16, 2048]⟩
abbrev S_ : Shape := ⟨0, ![]⟩
abbrev S16x2048x256 : Shape := ⟨3, ![16, 2048, 256]⟩
abbrev S1x8x256 : Shape := ⟨3, ![1, 8, 256]⟩
abbrev S8 : Shape := ⟨1, ![8]⟩
abbrev S1x1 : Shape := ⟨2, ![1, 1]⟩
abbrev S1 : Shape := ⟨1, ![1]⟩
abbrev S1x1x256 : Shape := ⟨3, ![1, 1, 256]⟩
abbrev S256 : Shape := ⟨1, ![256]⟩

abbrev nBuf : Space → Nat
  | .hbm => 10
  | .vmem => 2
  | .smem => 1
  | _ => 0

abbrev bufTy : (tb : Table) → Fin (tcTables nBuf tb) → BufTy
  | .hbm, ⟨0, _⟩ => ⟨S16x8192x256, .f32⟩
  | .hbm, ⟨1, _⟩ => ⟨S16x2048, .i32⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S16x2048, .i32⟩
  | .hbm, ⟨6, _⟩ => ⟨S16x2048, .i32⟩
  | .hbm, ⟨7, _⟩ => ⟨S_, .i32⟩
  | .hbm, ⟨8, _⟩ => ⟨S16x2048, .i32⟩
  | .hbm, ⟨9, _⟩ => ⟨S16x2048x256, .f32⟩
  | .local _ .vmem, ⟨0, _⟩ => ⟨S1x8x256, .f32⟩
  | .local _ .vmem, ⟨1, _⟩ => ⟨S1x8x256, .f32⟩
  | .local _ .smem, ⟨0, _⟩ => ⟨S16x2048, .i32⟩
  | _, _ => ⟨S16x8192x256, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_v1 : Ref sig .tc := ⟨.hbm, 9, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_sem0_0 : DmaSem sig := 0
abbrev cc0_sem0_1 : DmaSem sig := 1

abbrev nD : Nat := 1
abbrev τ : Topo := Topo.v7x

variable {F : FTy → Type} [FloatOps F]

abbrev grid0 : Pipeline.Grid := ⟨2, ![16, 256], ![false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 2 → Nat :=
  let arg0 : BitVec 32 := BitVec.ofNat 32 (i 0).val
  let v2 : Index := Scalar.indexCast arg0
  let arg1 : BitVec 32 := BitVec.ofNat 32 (i 1).val
  let c8_i32 : BitVec 32 := 8#32
  let v0 : BitVec 32 := Scalar.muli arg1 c8_i32
  let c0_i32 : BitVec 32 := 0#32
  let v1 : BitVec 32 := Scalar.addi v0 c0_i32
  let v3 : Index := Scalar.indexCast v1
  ![v2.toNat, v3.toNat]
def k0_off2 (i : grid0.Coords) (v4 : BitVec 32) : Fin 3 → Nat :=
  let arg0 : BitVec 32 := BitVec.ofNat 32 (i 0).val
  let c0_i32_4 : BitVec 32 := 0#32
  ![arg0.toNat, v4.toNat, 0]

def k0_off3 (i : grid0.Coords) : Fin 2 → Nat :=
  let arg0 : BitVec 32 := BitVec.ofNat 32 (i 0).val
  let v13 : Index := Scalar.indexCast arg0
  let arg1 : BitVec 32 := BitVec.ofNat 32 (i 1).val
  let c8_i32_5 : BitVec 32 := 8#32
  let v11 : BitVec 32 := Scalar.muli arg1 c8_i32_5
  let c1_i32 : BitVec 32 := 1#32
  let v12 : BitVec 32 := Scalar.addi v11 c1_i32
  let v14 : Index := Scalar.indexCast v12
  ![v13.toNat, v14.toNat]
def k0_off4 (i : grid0.Coords) (v15 : BitVec 32) : Fin 3 → Nat :=
  let arg0 : BitVec 32 := BitVec.ofNat 32 (i 0).val
  let c0_i32_10 : BitVec 32 := 0#32
  ![arg0.toNat, v15.toNat, 0]

def k0_off5 (i : grid0.Coords) : Fin 2 → Nat :=
  let arg0 : BitVec 32 := BitVec.ofNat 32 (i 0).val
  let v24 : Index := Scalar.indexCast arg0
  let arg1 : BitVec 32 := BitVec.ofNat 32 (i 1).val
  let c8_i32_11 : BitVec 32 := 8#32
  let v22 : BitVec 32 := Scalar.muli arg1 c8_i32_11
  let c2_i32 : BitVec 32 := 2#32
  let v23 : BitVec 32 := Scalar.addi v22 c2_i32
  let v25 : Index := Scalar.indexCast v23
  ![v24.toNat, v25.toNat]
def k0_off6 (i : grid0.Coords) (v26 : BitVec 32) : Fin 3 → Nat :=
  let arg0 : BitVec 32 := BitVec.ofNat 32 (i 0).val
  let c0_i32_16 : BitVec 32 := 0#32
  ![arg0.toNat, v26.toNat, 0]

def k0_off7 (i : grid0.Coords) : Fin 2 → Nat :=
  let arg0 : BitVec 32 := BitVec.ofNat 32 (i 0).val
  let v35 : Index := Scalar.indexCast arg0
  let arg1 : BitVec 32 := BitVec.ofNat 32 (i 1).val
  let c8_i32_17 : BitVec 32 := 8#32
  let v33 : BitVec 32 := Scalar.muli arg1 c8_i32_17
  let c3_i32 : BitVec 32 := 3#32
  let v34 : BitVec 32 := Scalar.addi v33 c3_i32
  let v36 : Index := Scalar.indexCast v34
  ![v35.toNat, v36.toNat]
def k0_off8 (i : grid0.Coords) (v37 : BitVec 32) : Fin 3 → Nat :=
  let arg0 : BitVec 32 := BitVec.ofNat 32 (i 0).val
  let c0_i32_22 : BitVec 32 := 0#32
  ![arg0.toNat, v37.toNat, 0]

def k0_off9 (i : grid0.Coords) : Fin 2 → Nat :=
  let arg0 : BitVec 32 := BitVec.ofNat 32 (i 0).val
  let v46 : Index := Scalar.indexCast arg0
  let arg1 : BitVec 32 := BitVec.ofNat 32 (i 1).val
  let c8_i32_23 : BitVec 32 := 8#32
  let v44 : BitVec 32 := Scalar.muli arg1 c8_i32_23
  let c4_i32 : BitVec 32 := 4#32
  let v45 : BitVec 32 := Scalar.addi v44 c4_i32
  let v47 : Index := Scalar.indexCast v45
  ![v46.toNat, v47.toNat]
def k0_off10 (i : grid0.Coords) (v48 : BitVec 32) : Fin 3 → Nat :=
  let arg0 : BitVec 32 := BitVec.ofNat 32 (i 0).val
  let c0_i32_28 : BitVec 32 := 0#32
  ![arg0.toNat, v48.toNat, 0]

def k0_off11 (i : grid0.Coords) : Fin 2 → Nat :=
  let arg0 : BitVec 32 := BitVec.ofNat 32 (i 0).val
  let v57 : Index := Scalar.indexCast arg0
  let arg1 : BitVec 32 := BitVec.ofNat 32 (i 1).val
  let c8_i32_29 : BitVec 32 := 8#32
  let v55 : BitVec 32 := Scalar.muli arg1 c8_i32_29
  let c5_i32 : BitVec 32 := 5#32
  let v56 : BitVec 32 := Scalar.addi v55 c5_i32
  let v58 : Index := Scalar.indexCast v56
  ![v57.toNat, v58.toNat]
def k0_off12 (i : grid0.Coords) (v59 : BitVec 32) : Fin 3 → Nat :=
  let arg0 : BitVec 32 := BitVec.ofNat 32 (i 0).val
  let c0_i32_34 : BitVec 32 := 0#32
  ![arg0.toNat, v59.toNat, 0]

def k0_off13 (i : grid0.Coords) : Fin 2 → Nat :=
  let arg0 : BitVec 32 := BitVec.ofNat 32 (i 0).val
  let v68 : Index := Scalar.indexCast arg0
  let arg1 : BitVec 32 := BitVec.ofNat 32 (i 1).val
  let c8_i32_35 : BitVec 32 := 8#32
  let v66 : BitVec 32 := Scalar.muli arg1 c8_i32_35
  let c6_i32 : BitVec 32 := 6#32
  let v67 : BitVec 32 := Scalar.addi v66 c6_i32
  let v69 : Index := Scalar.indexCast v67
  ![v68.toNat, v69.toNat]
def k0_off14 (i : grid0.Coords) (v70 : BitVec 32) : Fin 3 → Nat :=
  let arg0 : BitVec 32 := BitVec.ofNat 32 (i 0).val
  let c0_i32_40 : BitVec 32 := 0#32
  ![arg0.toNat, v70.toNat, 0]

def k0_off15 (i : grid0.Coords) : Fin 2 → Nat :=
  let arg0 : BitVec 32 := BitVec.ofNat 32 (i 0).val
  let v79 : Index := Scalar.indexCast arg0
  let arg1 : BitVec 32 := BitVec.ofNat 32 (i 1).val
  let c8_i32_41 : BitVec 32 := 8#32
  let v77 : BitVec 32 := Scalar.muli arg1 c8_i32_41
  let c7_i32 : BitVec 32 := 7#32
  let v78 : BitVec 32 := Scalar.addi v77 c7_i32
  let v80 : Index := Scalar.indexCast v78
  ![v79.toNat, v80.toNat]
def k0_off16 (i : grid0.Coords) (v81 : BitVec 32) : Fin 3 → Nat :=
  let arg0 : BitVec 32 := BitVec.ofNat 32 (i 0).val
  let c0_i32_46 : BitVec 32 := 0#32
  ![arg0.toNat, v81.toNat, 0]

def k0_chk8 (i : grid0.Coords) (v81 : BitVec 32) : Prop :=
  (∀ a, (k0_off16 i v81) a + S1x1x256.size a ≤ S16x8192x256.size a)
instance k0_chk8.dec : ∀ (i : grid0.Coords) (v81 : BitVec 32), Decidable (k0_chk8 i v81) := fun i v81 => decidable_of_iff' _ (Iff.of_eq (k0_chk8.eq_1 i v81))
theorem k0_off16_inb : ∀ (i : grid0.Coords) (v81 : BitVec 32) (k0_hw8 : k0_chk8 i v81), ∀ a, (k0_off16 i v81) a + S1x1x256.size a ≤ S16x8192x256.size a := fun i v81 k0_hw8 => k0_hw8

def k0_off17 (i : grid0.Coords) (v4 : BitVec 32) : Fin 3 → Nat :=
  let arg0 : BitVec 32 := BitVec.ofNat 32 (i 0).val
  let c0_i32_51 : BitVec 32 := 0#32
  ![arg0.toNat, v4.toNat, 0]

def k0_chk1 (i : grid0.Coords) (v4 : BitVec 32) : Prop :=
  (∀ a, (k0_off2 i v4) a + S1x1x256.size a ≤ S16x8192x256.size a) ∧
  (∀ a, (k0_off17 i v4) a + S1x1x256.size a ≤ S16x8192x256.size a)
instance k0_chk1.dec : ∀ (i : grid0.Coords) (v4 : BitVec 32), Decidable (k0_chk1 i v4) := fun i v4 => decidable_of_iff' _ (Iff.of_eq (k0_chk1.eq_1 i v4))
theorem k0_off2_inb : ∀ (i : grid0.Coords) (v4 : BitVec 32) (k0_hw1 : k0_chk1 i v4), ∀ a, (k0_off2 i v4) a + S1x1x256.size a ≤ S16x8192x256.size a := fun i v4 k0_hw1 => k0_hw1.1
theorem k0_off17_inb : ∀ (i : grid0.Coords) (v4 : BitVec 32) (k0_hw1 : k0_chk1 i v4), ∀ a, (k0_off17 i v4) a + S1x1x256.size a ≤ S16x8192x256.size a := fun i v4 k0_hw1 => k0_hw1.2

def k0_off18 (i : grid0.Coords) (v15 : BitVec 32) : Fin 3 → Nat :=
  let arg0 : BitVec 32 := BitVec.ofNat 32 (i 0).val
  let c0_i32_56 : BitVec 32 := 0#32
  ![arg0.toNat, v15.toNat, 0]

def k0_chk2 (i : grid0.Coords) (v15 : BitVec 32) : Prop :=
  (∀ a, (k0_off4 i v15) a + S1x1x256.size a ≤ S16x8192x256.size a) ∧
  (∀ a, (k0_off18 i v15) a + S1x1x256.size a ≤ S16x8192x256.size a)
instance k0_chk2.dec : ∀ (i : grid0.Coords) (v15 : BitVec 32), Decidable (k0_chk2 i v15) := fun i v15 => decidable_of_iff' _ (Iff.of_eq (k0_chk2.eq_1 i v15))
theorem k0_off4_inb : ∀ (i : grid0.Coords) (v15 : BitVec 32) (k0_hw2 : k0_chk2 i v15), ∀ a, (k0_off4 i v15) a + S1x1x256.size a ≤ S16x8192x256.size a := fun i v15 k0_hw2 => k0_hw2.1
theorem k0_off18_inb : ∀ (i : grid0.Coords) (v15 : BitVec 32) (k0_hw2 : k0_chk2 i v15), ∀ a, (k0_off18 i v15) a + S1x1x256.size a ≤ S16x8192x256.size a := fun i v15 k0_hw2 => k0_hw2.2

def k0_off19 (i : grid0.Coords) (v26 : BitVec 32) : Fin 3 → Nat :=
  let arg0 : BitVec 32 := BitVec.ofNat 32 (i 0).val
  let c0_i32_61 : BitVec 32 := 0#32
  ![arg0.toNat, v26.toNat, 0]

def k0_chk3 (i : grid0.Coords) (v26 : BitVec 32) : Prop :=
  (∀ a, (k0_off6 i v26) a + S1x1x256.size a ≤ S16x8192x256.size a) ∧
  (∀ a, (k0_off19 i v26) a + S1x1x256.size a ≤ S16x8192x256.size a)
instance k0_chk3.dec : ∀ (i : grid0.Coords) (v26 : BitVec 32), Decidable (k0_chk3 i v26) := fun i v26 => decidable_of_iff' _ (Iff.of_eq (k0_chk3.eq_1 i v26))
theorem k0_off6_inb : ∀ (i : grid0.Coords) (v26 : BitVec 32) (k0_hw3 : k0_chk3 i v26), ∀ a, (k0_off6 i v26) a + S1x1x256.size a ≤ S16x8192x256.size a := fun i v26 k0_hw3 => k0_hw3.1
theorem k0_off19_inb : ∀ (i : grid0.Coords) (v26 : BitVec 32) (k0_hw3 : k0_chk3 i v26), ∀ a, (k0_off19 i v26) a + S1x1x256.size a ≤ S16x8192x256.size a := fun i v26 k0_hw3 => k0_hw3.2

def k0_off20 (i : grid0.Coords) (v37 : BitVec 32) : Fin 3 → Nat :=
  let arg0 : BitVec 32 := BitVec.ofNat 32 (i 0).val
  let c0_i32_66 : BitVec 32 := 0#32
  ![arg0.toNat, v37.toNat, 0]

def k0_chk4 (i : grid0.Coords) (v37 : BitVec 32) : Prop :=
  (∀ a, (k0_off8 i v37) a + S1x1x256.size a ≤ S16x8192x256.size a) ∧
  (∀ a, (k0_off20 i v37) a + S1x1x256.size a ≤ S16x8192x256.size a)
instance k0_chk4.dec : ∀ (i : grid0.Coords) (v37 : BitVec 32), Decidable (k0_chk4 i v37) := fun i v37 => decidable_of_iff' _ (Iff.of_eq (k0_chk4.eq_1 i v37))
theorem k0_off8_inb : ∀ (i : grid0.Coords) (v37 : BitVec 32) (k0_hw4 : k0_chk4 i v37), ∀ a, (k0_off8 i v37) a + S1x1x256.size a ≤ S16x8192x256.size a := fun i v37 k0_hw4 => k0_hw4.1
theorem k0_off20_inb : ∀ (i : grid0.Coords) (v37 : BitVec 32) (k0_hw4 : k0_chk4 i v37), ∀ a, (k0_off20 i v37) a + S1x1x256.size a ≤ S16x8192x256.size a := fun i v37 k0_hw4 => k0_hw4.2

def k0_off21 (i : grid0.Coords) (v48 : BitVec 32) : Fin 3 → Nat :=
  let arg0 : BitVec 32 := BitVec.ofNat 32 (i 0).val
  let c0_i32_71 : BitVec 32 := 0#32
  ![arg0.toNat, v48.toNat, 0]

def k0_chk5 (i : grid0.Coords) (v48 : BitVec 32) : Prop :=
  (∀ a, (k0_off10 i v48) a + S1x1x256.size a ≤ S16x8192x256.size a) ∧
  (∀ a, (k0_off21 i v48) a + S1x1x256.size a ≤ S16x8192x256.size a)
instance k0_chk5.dec : ∀ (i : grid0.Coords) (v48 : BitVec 32), Decidable (k0_chk5 i v48) := fun i v48 => decidable_of_iff' _ (Iff.of_eq (k0_chk5.eq_1 i v48))
theorem k0_off10_inb : ∀ (i : grid0.Coords) (v48 : BitVec 32) (k0_hw5 : k0_chk5 i v48), ∀ a, (k0_off10 i v48) a + S1x1x256.size a ≤ S16x8192x256.size a := fun i v48 k0_hw5 => k0_hw5.1
theorem k0_off21_inb : ∀ (i : grid0.Coords) (v48 : BitVec 32) (k0_hw5 : k0_chk5 i v48), ∀ a, (k0_off21 i v48) a + S1x1x256.size a ≤ S16x8192x256.size a := fun i v48 k0_hw5 => k0_hw5.2

def k0_off22 (i : grid0.Coords) (v59 : BitVec 32) : Fin 3 → Nat :=
  let arg0 : BitVec 32 := BitVec.ofNat 32 (i 0).val
  let c0_i32_76 : BitVec 32 := 0#32
  ![arg0.toNat, v59.toNat, 0]

def k0_chk6 (i : grid0.Coords) (v59 : BitVec 32) : Prop :=
  (∀ a, (k0_off12 i v59) a + S1x1x256.size a ≤ S16x8192x256.size a) ∧
  (∀ a, (k0_off22 i v59) a + S1x1x256.size a ≤ S16x8192x256.size a)
instance k0_chk6.dec : ∀ (i : grid0.Coords) (v59 : BitVec 32), Decidable (k0_chk6 i v59) := fun i v59 => decidable_of_iff' _ (Iff.of_eq (k0_chk6.eq_1 i v59))
theorem k0_off12_inb : ∀ (i : grid0.Coords) (v59 : BitVec 32) (k0_hw6 : k0_chk6 i v59), ∀ a, (k0_off12 i v59) a + S1x1x256.size a ≤ S16x8192x256.size a := fun i v59 k0_hw6 => k0_hw6.1
theorem k0_off22_inb : ∀ (i : grid0.Coords) (v59 : BitVec 32) (k0_hw6 : k0_chk6 i v59), ∀ a, (k0_off22 i v59) a + S1x1x256.size a ≤ S16x8192x256.size a := fun i v59 k0_hw6 => k0_hw6.2

def k0_off23 (i : grid0.Coords) (v70 : BitVec 32) : Fin 3 → Nat :=
  let arg0 : BitVec 32 := BitVec.ofNat 32 (i 0).val
  let c0_i32_81 : BitVec 32 := 0#32
  ![arg0.toNat, v70.toNat, 0]

def k0_chk7 (i : grid0.Coords) (v70 : BitVec 32) : Prop :=
  (∀ a, (k0_off14 i v70) a + S1x1x256.size a ≤ S16x8192x256.size a) ∧
  (∀ a, (k0_off23 i v70) a + S1x1x256.size a ≤ S16x8192x256.size a)
instance k0_chk7.dec : ∀ (i : grid0.Coords) (v70 : BitVec 32), Decidable (k0_chk7 i v70) := fun i v70 => decidable_of_iff' _ (Iff.of_eq (k0_chk7.eq_1 i v70))
theorem k0_off14_inb : ∀ (i : grid0.Coords) (v70 : BitVec 32) (k0_hw7 : k0_chk7 i v70), ∀ a, (k0_off14 i v70) a + S1x1x256.size a ≤ S16x8192x256.size a := fun i v70 k0_hw7 => k0_hw7.1
theorem k0_off23_inb : ∀ (i : grid0.Coords) (v70 : BitVec 32) (k0_hw7 : k0_chk7 i v70), ∀ a, (k0_off23 i v70) a + S1x1x256.size a ≤ S16x8192x256.size a := fun i v70 k0_hw7 => k0_hw7.2

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x8x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

class Facts₀ : Prop where
  bcast_S_S16x2048 : S_.BroadcastsInDim S16x2048 (![] : Fin 0 → Fin S16x2048.rank)
  numel1_S1x1 : S1x1.numel = 1
  inb_S8_S1_0 : ∀ a, (![0] : Fin 1 → Nat) a + S1.size a ≤ S8.size a
  squeezes_S1_S_ : S1.Squeezes S_
  inb_S1x8x256_S1x1x256_0_0_0 : ∀ a, (![0, 0, 0] : Fin 3 → Nat) a + S1x1x256.size a ≤ S1x8x256.size a
  squeezes_S1x1x256_S256 : S1x1x256.Squeezes S256
  inb_S8_S1_1 : ∀ a, (![1] : Fin 1 → Nat) a + S1.size a ≤ S8.size a
  inb_S1x8x256_S1x1x256_0_1_0 : ∀ a, (![0, 1, 0] : Fin 3 → Nat) a + S1x1x256.size a ≤ S1x8x256.size a
  inb_S8_S1_2 : ∀ a, (![2] : Fin 1 → Nat) a + S1.size a ≤ S8.size a
  inb_S1x8x256_S1x1x256_0_2_0 : ∀ a, (![0, 2, 0] : Fin 3 → Nat) a + S1x1x256.size a ≤ S1x8x256.size a
  inb_S8_S1_3 : ∀ a, (![3] : Fin 1 → Nat) a + S1.size a ≤ S8.size a
  inb_S1x8x256_S1x1x256_0_3_0 : ∀ a, (![0, 3, 0] : Fin 3 → Nat) a + S1x1x256.size a ≤ S1x8x256.size a
  inb_S8_S1_4 : ∀ a, (![4] : Fin 1 → Nat) a + S1.size a ≤ S8.size a
  inb_S1x8x256_S1x1x256_0_4_0 : ∀ a, (![0, 4, 0] : Fin 3 → Nat) a + S1x1x256.size a ≤ S1x8x256.size a
  inb_S8_S1_5 : ∀ a, (![5] : Fin 1 → Nat) a + S1.size a ≤ S8.size a
  inb_S1x8x256_S1x1x256_0_5_0 : ∀ a, (![0, 5, 0] : Fin 3 → Nat) a + S1x1x256.size a ≤ S1x8x256.size a
  inb_S8_S1_6 : ∀ a, (![6] : Fin 1 → Nat) a + S1.size a ≤ S8.size a
  inb_S1x8x256_S1x1x256_0_6_0 : ∀ a, (![0, 6, 0] : Fin 3 → Nat) a + S1x1x256.size a ≤ S1x8x256.size a
  inb_S8_S1_7 : ∀ a, (![7] : Fin 1 → Nat) a + S1.size a ≤ S8.size a
  inb_S1x8x256_S1x1x256_0_7_0 : ∀ a, (![0, 7, 0] : Fin 3 → Nat) a + S1x1x256.size a ≤ S1x8x256.size a
  hcc0_scratch0 : 2 + S8.numel ≤ 10
  hrank0 : 0 < grid0.rank
  k0_off1_inb : ∀ i : grid0.Coords, ∀ a, (k0_off1 i) a + S1x1.size a ≤ S16x2048.size a
  k0_off3_inb : ∀ i : grid0.Coords, ∀ a, (k0_off3 i) a + S1x1.size a ≤ S16x2048.size a
  k0_off5_inb : ∀ i : grid0.Coords, ∀ a, (k0_off5 i) a + S1x1.size a ≤ S16x2048.size a
  k0_off7_inb : ∀ i : grid0.Coords, ∀ a, (k0_off7 i) a + S1x1.size a ≤ S16x2048.size a
  k0_off9_inb : ∀ i : grid0.Coords, ∀ a, (k0_off9 i) a + S1x1.size a ≤ S16x2048.size a
  k0_off11_inb : ∀ i : grid0.Coords, ∀ a, (k0_off11 i) a + S1x1.size a ≤ S16x2048.size a
  k0_off13_inb : ∀ i : grid0.Coords, ∀ a, (k0_off13 i) a + S1x1.size a ≤ S16x2048.size a
  k0_off15_inb : ∀ i : grid0.Coords, ∀ a, (k0_off15 i) a + S1x1.size a ≤ S16x2048.size a
  hstage0_0 : ∀ j, (stage0_0 j).IsWhole
  nbuf0_0 : grid0.bufCount reads0_0 false = 2
  hreads0_0 : ∀ i i' : grid0.Coords, (∀ a, reads0_0 a = true → i a = i' a) → cc0_transform_1 i = cc0_transform_1 i'
  hinb0_0 : ∀ (i : grid0.Coords) a, (cc0_transform_1 i a + 1) * S1x8x256.size a ≤ S16x2048x256.size a
  hwx0_0 : ∀ i : grid0.Coords, EltTy.bits .f32 = 32 ∨ (Rect.block (s := S16x2048x256) S1x8x256.size (cc0_transform_1 i) (hinb0_0 i)).WholeWords (EltTy.packing .f32)

variable [Facts₀]

abbrev cc0_scratch0 : DmaSems sig S8 := SemArray.consecutive 2 S8 hcc0_scratch0

abbrev spec0_0 : Pipeline.WinSpec sig grid0.rank :=
  Pipeline.WinSpec.ofSpec (Memref.whole main_v1) S1x8x256.size reads0_0 true false 2 stage0_0 sem0_0 nbuf0_0 hstage0_0

abbrev spec0 : Fin 1 → Pipeline.WinSpec sig grid0.rank := fun | 0 => spec0_0 | ⟨_ + 1, h⟩ => absurd h (Nat.not_lt.2 (Nat.le_add_left _ _))
theorem hcount0 : ∀ w, grid0.bufCount (spec0 w).reads (spec0 w).sync = (spec0 w).nbuf := fun | 0 => nbuf0_0 | ⟨_ + 1, h⟩ => absurd h (Nat.not_lt.2 (Nat.le_add_left _ _))
abbrev ix0 (pf : pre0.Contents (Elt F)) : (w : Fin 1) → grid0.Coords → Fin (spec0 w).shape.rank → Nat := fun | 0 => cc0_transform_1 | ⟨_ + 1, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | ⟨_ + 1, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | ⟨_ + 1, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | ⟨_ + 1, h⟩ => absurd h (Nat.not_lt.2 (Nat.le_add_left _ _))

class Facts : Prop extends Facts₀ where
  harr0 : ∀ w, (spec0 w).arr.IsWhole

variable [Facts]
-- ==== ReferenceIdeal.lean ====
abbrev S16x8192x256 : Shape := ⟨3, ![16, 8192, 256]⟩
abbrev S16x2048 : Shape := ⟨2, ![16, 2048]⟩
abbrev S16x2048x1 : Shape := ⟨3, ![16, 2048, 1]⟩
abbrev S_ : Shape := ⟨0, ![]⟩
abbrev S1 : Shape := ⟨1, ![1]⟩
abbrev S1x1x1 : Shape := ⟨3, ![1, 1, 1]⟩
abbrev S16x2048x256 : Shape := ⟨3, ![16, 2048, 256]⟩

abbrev nBuf : Space → Nat
  | .hbm => 25
  | .vmem => 0
  | .smem => 0
  | _ => 0

abbrev bufTy : (tb : Table) → Fin (tcTables nBuf tb) → BufTy
  | .hbm, ⟨0, _⟩ => ⟨S16x8192x256, .f32⟩
  | .hbm, ⟨1, _⟩ => ⟨S16x2048, .i32⟩
  | .hbm, ⟨2, _⟩ => ⟨S16x2048x1, .i32⟩
  | .hbm, ⟨3, _⟩ => ⟨S_, .i32⟩
  | .hbm, ⟨4, _⟩ => ⟨S16x2048x1, .i32⟩
  | .hbm, ⟨5, _⟩ => ⟨S16x2048x1, .i1⟩
  | .hbm, ⟨6, _⟩ => ⟨S_, .i32⟩
  | .hbm, ⟨7, _⟩ => ⟨S16x2048x1, .i32⟩
  | .hbm, ⟨8, _⟩ => ⟨S16x2048x1, .i32⟩
  | .hbm, ⟨9, _⟩ => ⟨S16x2048x1, .i32⟩
  | .hbm, ⟨10, _⟩ => ⟨S1, .i32⟩
  | .hbm, ⟨11, _⟩ => ⟨S_, .i32⟩
  | .hbm, ⟨12, _⟩ => ⟨S16x2048x1, .i32⟩
  | .hbm, ⟨13, _⟩ => ⟨S16x2048x1, .i1⟩
  | .hbm, ⟨14, _⟩ => ⟨S1x1x1, .i32⟩
  | .hbm, ⟨15, _⟩ => ⟨S16x2048x1, .i32⟩
  | .hbm, ⟨16, _⟩ => ⟨S16x2048x1, .i1⟩
  | .hbm, ⟨17, _⟩ => ⟨S16x2048x1, .i1⟩
  | .hbm, ⟨18, _⟩ => ⟨S_, .i1⟩
  | .hbm, ⟨19, _⟩ => ⟨S16x2048, .i1⟩
  | .hbm, ⟨20, _⟩ => ⟨S16x2048x256, .f32⟩
  | .hbm, ⟨21, _⟩ => ⟨S16x2048x256, .i1⟩
  | .hbm, ⟨22, _⟩ => ⟨S_, .f32⟩
  | .hbm, ⟨23, _⟩ => ⟨S16x2048x256, .f32⟩
  | .hbm, ⟨24, _⟩ => ⟨S16x2048x256, .f32⟩
  | _, _ => ⟨S16x8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_c_1 : Ref sig .tc := ⟨.hbm, 10, rfl⟩
abbrev main_call0_c_2 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_c_3 : Ref sig .tc := ⟨.hbm, 18, rfl⟩
abbrev main_call0_v11 : Ref sig .tc := ⟨.hbm, 19, rfl⟩
abbrev main_call0_v12 : Ref sig .tc := ⟨.hbm, 20, rfl⟩
abbrev main_call0_v13 : Ref sig .tc := ⟨.hbm, 21, rfl⟩
abbrev main_call0_cst : Ref sig .tc := ⟨.hbm, 22, rfl⟩
abbrev main_call0_v14 : Ref sig .tc := ⟨.hbm, 23, rfl⟩
abbrev main_v1 : Ref sig .tc := ⟨.hbm, 24, rfl⟩

abbrev nD : Nat := 1
abbrev τ : Topo := Topo.v7x

variable {F : FTy → Type} [FloatOps F]

class Facts₀ : Prop where
  bcast_S16x2048_S16x2048x1_0_1 : S16x2048.BroadcastsInDim S16x2048x1 (![0, 1] : Fin 2 → Fin S16x2048x1.rank)
  bcast_S_S16x2048x1 : S_.BroadcastsInDim S16x2048x1 (![] : Fin 0 → Fin S16x2048x1.rank)
  bcast_S1_S1x1x1_2 : S1.BroadcastsInDim S1x1x1 (![2] : Fin 1 → Fin S1x1x1.rank)
  bcast_S1x1x1_S16x2048x1_0_1_2 : S1x1x1.BroadcastsInDim S16x2048x1 (![0, 1, 2] : Fin 3 → Fin S16x2048x1.rank)
  reducesTo_S16x2048x1_S16x2048_d2 : S16x2048x1.ReducesTo [2] S16x2048
  h_S_ : 0 < S_.numel
  bcast_S16x2048_S16x2048x256_0_1 : S16x2048.BroadcastsInDim S16x2048x256 (![0, 1] : Fin 2 → Fin S16x2048x256.rank)
  bcast_S_S16x2048x256 : S_.BroadcastsInDim S16x2048x256 (![] : Fin 0 → Fin S16x2048x256.rank)
  gather_S16x8192x256_S16x2048x1_S16x2048x256_2_1_0_0_1_2_11256_wf : GatherDims.WF S16x8192x256 S16x2048x1 S16x2048x256 [2] [1] [0] [1] [0] 2 ![1, 1, 256]

variable [Facts₀]

def gather_S16x8192x256_S16x2048x1_S16x2048x256_2_1_0_0_1_2_11256 : GatherDims S16x8192x256 S16x2048x1 S16x2048x256 where
  offsetDims := [2]
  collapsedSliceDims := [1]
  operandBatchingDims := [0]
  startIndicesBatchingDims := [0]
  startIndexMap := [1]
  indexVectorDim := 2
  sliceSizes := ![1, 1, 256]
  wf := gather_S16x8192x256_S16x2048x1_S16x2048x256_2_1_0_0_1_2_11256_wf

class Facts : Prop extends Facts₀ where

variable [Facts]
-- ==== Proof.BitsHost.lean ====
/-
  The host side of the gather kernel's run. Before the region is entered, @main computes the index table the kernel
  prefetches: `clip(idx, 0, 8191)`, two constants and the six operations of the outlined `clip`. This module names the
  buffers as the region finds them (`V`), shows that @main is that line of host operations followed by the region
  (`hmain`), that no host operation writes an argument array (`V_main_arg0`, `V_main_arg1`), and names the table's
  contents at the region's entry (`tbl`), which are admissible for the pipeline whatever they are (its windows' index
  maps read no table).
-/
import proofs.«144003_j17798344474844_2_alg».proof.Proof.Gen.Kernel.Launch
import proofs.«144003_j17798344474844_2_alg».proof.Proof.Gen.Kernel.Skeleton
import Idealize.ShloMosaic.Lib.Pipeline.FrameBody
import Idealize.ShloMosaic.Lib.Pipeline.Frame
import Idealize.ShloMosaic.Lib.StableHlo.Run
import Idealize.ShloMosaic.Lib.Ring
import Idealize.ShloMosaic.Lib.Tactic

set_option maxRecDepth 16384

noncomputable section

namespace Cert.Kernel.Gather

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## @main up to the region -/

/-- Core `c`'s buffers when the region is entered: the launch contents after the two constants and the six
    operations of `clip`. -/
abbrev V (c : Dev nD) (b : Ref sig .tc) : Buf (Elt F) ((c : Thread nD τ).loc b) :=
  StableHlo.after (List.flatten [hostOps0, hostOps0_1]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor

/-- @main is the two lines of host operations, then the region. -/
theorem hmain (𝒱₀ : Variants) : Pipeline.HMainP (Ix := Unit) (Name := ℕ) (U := Pipeline.UD sig nD τ) (Lvl := ℕ) pcfgs 0 defs₀ 𝒱₀ m (main (F := F)) (V m) :=
  Pipeline.hmainP_prefixes pcfgs 0 defs₀ 𝒱₀ m main [hostOps0, hostOps0_1] (by simp only [List.Forall]; exact ⟨hostOps0_sub, hostOps0_1_sub⟩)
    (by simp only [List.Forall]; exact ⟨hostOps0_fresh, hostOps0_1_fresh⟩) main_chain

/-- No host operation writes the data array: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes, Finset.mem_singleton]
    repeat' apply And.intro
    all_goals exact StableHlo.devRef_ne_of_ne (by decide)))
/-- No host operation writes the index array: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes, Finset.mem_singleton]
    repeat' apply And.intro
    all_goals exact StableHlo.devRef_ne_of_ne (by decide)))

/-! ## The prefetched table -/

/-- The table's contents when the region is entered (the program runs on one device). -/
def tbl : pre0.Contents (Elt F) := fun j => V m (0 : Dev nD) (pre0.ref j)
/-- On every device the table holds those contents. -/
theorem V_pre (c : Dev nD) (j : Fin 1) : V m c (pre0.ref j) = tbl m j := by
  obtain rfl : c = 0 := Subsingleton.elim _ _; rfl
/-- Any contents are admissible: no window's index map reads the table. -/
abbrev adm : (pcfg0 (F := F)).Adm := ⟨tbl m, trivial⟩
abbrev cfgM : Pipeline.Cfg sig Λ₀ := cfg0 (adm m)

/-! ## The operands the body is handed beside its window -/

/-- The table, and the data array left in HBM, as the body is handed them: whole buffers. -/
abbrev tbM : Memref sig .tc .smem S16x2048 .i32 := Memref.whole main_v0
abbrev htbM : tbM.IsWhole := Memref.isWhole_whole _
abbrev hbM : Memref sig .tc .hbm S16x8192x256 .f32 := Memref.whole main_arg0
abbrev hhbM : hbM.IsWhole := Memref.isWhole_whole _
abbrev TbBuf (c : Dev nD) : Type := Buf (Elt F) (tbM.view.loc (c : Thread nD τ))
abbrev HbBuf (c : Dev nD) : Type := Buf (Elt F) (hbM.view.loc (c : Thread nD τ))
/-- The table held at the half the region lends the body (read-only). -/
abbrev tbPt (c : Dev nD) (f : TbBuf (F := F) c) : sProp 𝕄 := tbM.view.loc (c : Thread nD τ) ↦{fullShare.right} f
/-- The data array held at the read share of DMA cell `k`. -/
abbrev hbTok (c : Dev nD) (k : ℕ) (f : HbBuf (F := F) c) : sProp 𝕄 := hbM.view.loc (c : Thread nD τ) ↦{Transfers.shareTokN fullShare k} f
/-- The data array held whole. -/
abbrev hbPt (c : Dev nD) (f : HbBuf (F := F) c) : sProp 𝕄 := hbM.view.loc (c : Thread nD τ) ↦{fullShare} f

/-- The table's contents on core `c`, as the body holds them. -/
def tblAt (c : Dev nD) : TbBuf (F := F) c := V m c main_v0
theorem tblAt_apply (c : Dev nD) (y : S16x2048.Idx) : (tblAt m c : IVec S16x2048 32) y = (V m c main_v0 : IVec S16x2048 32) y := rfl

/-- The table's half, as the region hands it to the body. -/
theorem PhiT_eq (c : Dev nD) : (Pipeline.ΦT pre0 (tbl m) c : sProp 𝕄) = iprop(tbPt c (tblAt m c)) := by
  obtain rfl : c = 0 := Subsingleton.elim _ _
  unfold Pipeline.ΦT Pipeline.prefHeld
  rw [show (Finset.univ : Finset (Fin 1)) = {(0 : Fin 1)} from by decide, bigSep_singleton]
  rfl

end Cert.Kernel.Gather

end
-- ==== Proof.LibRowWindows.lean ====
/-
  Rows of a rank-3 array `[a, n, d]` reached through a one-row slice `[1, 1, d]` at offset `(p, r, 0)` whose two unit
  axes are squeezed away (`[d]`): where such a view's element `x` sits in the array (`rowView_emb`), what it reads
  (`rowView_read`), and what the array holds, read at `(p, r, l)`, after a whole-row write through such a view — the
  payload when the view is that row's own (`read_write_row_hit`), the contents before when it is another row's
  (`read_write_row_miss`). Extents, element type and memory space are variables.
-/
import Idealize.ShloMosaic.Lib.ValueIdx
import Idealize.ShloMosaic.Signature.View
import Idealize.ShloMosaic.Lib.Pipeline.Value

noncomputable section

namespace Idealize.ShloMosaic.RowWindows

open Idealize.ShloMosaic Idealize.ShloMosaic.ValueIdx

variable {Val : EltTy → Type} {sig : RefSig} {κ : Kind} {sp : Space} {e : EltTy} {a n d : ℕ}

/-- The array's shape, one row's block, and the row itself. -/
abbrev Arr (a n d : ℕ) : Shape := ⟨3, ![a, n, d]⟩
abbrev Blk (d : ℕ) : Shape := ⟨3, ![1, 1, d]⟩
abbrev Row (d : ℕ) : Shape := ⟨1, ![d]⟩

/-- Dropping two leading unit axes puts two zeros in front of the index. -/
theorem reshape_two_units (h : (Row d).numel = (Blk d).numel) (x : (Row d).Idx) :
    Shape.reshapeEquiv h x = Fin.cons ⟨0, Nat.one_pos⟩ (Fin.cons ⟨0, Nat.one_pos⟩ x) :=
  Shape.reshapeEquiv_eq_of_rowMajor h (by
    show ((Shape.rowMajorPi (Matrix.vecCons 1 (Matrix.vecCons 1 ![d])) (Fin.cons ⟨0, Nat.one_pos⟩ (Fin.cons ⟨0, Nat.one_pos⟩ x)) : Fin _) : Nat) = (Shape.rowMajorPi ![d] x : Nat)
    rw [Shape.rowMajorPi_succ_val]
    show 0 * _ + ((Shape.rowMajorPi (Matrix.vecCons 1 ![d]) (Fin.cons ⟨0, Nat.one_pos⟩ x) : Fin _) : Nat) = _
    rw [Nat.zero_mul, Nat.zero_add, Shape.rowMajorPi_succ_val]
    show 0 * _ + (Shape.rowMajorPi ![d] x : Nat) = _
    rw [Nat.zero_mul, Nat.zero_add])

/-- The element `x` of row `(p, r)`'s view is the array's element `(p, r, x)`. -/
theorem rowView_emb (M : Memref sig κ sp (Arr a n d) e) (off : Fin 3 → ℕ) (p : Fin a) (r : Fin n) (h : off = ![p.val, r.val, 0])
    (inb : ∀ i, off i + (Blk d).size i ≤ (Arr a n d).size i) (hr) (hq : (Blk d).Squeezes (Row d)) (x : (Row d).Idx) :
    ((M.slice (Rect.unit (s := Arr a n d) off (Blk d).size inb) hr).squeeze (Row d) hq).view.emb x
      = M.view.emb (ix3 p r (x 0)) := by
  subst h
  have h1 : ((M.slice (Rect.unit (s := Arr a n d) ![p.val, r.val, 0] (Blk d).size inb) hr).squeeze (Row d) hq).view.emb x
      = M.view.emb ((Rect.unit (s := Arr a n d) ![p.val, r.val, 0] (Blk d).size inb).emb (Shape.reshapeEquiv hq.numel_eq x)) := rfl
  rw [h1, reshape_two_units]
  congr 1
  funext i
  apply Fin.ext
  rw [Rect.emb_apply]
  match i with
  | ⟨0, _⟩ => show p.val + 1 * 0 = p.val; omega
  | ⟨1, _⟩ => show r.val + 1 * 0 = r.val; omega
  | ⟨2, _⟩ => show 0 + 1 * (x 0).val = (x 0).val; omega

/-- Row `(p, r)`'s view reads the array at `(p, r, ·)`. -/
theorem rowView_read (M : Memref sig κ sp (Arr a n d) e) (off : Fin 3 → ℕ) (p : Fin a) (r : Fin n) (h : off = ![p.val, r.val, 0])
    (inb : ∀ i, off i + (Blk d).size i ≤ (Arr a n d).size i) (hr) (hq : (Blk d).Squeezes (Row d))
    (f : M.view.ty.Contents Val) (x : (Row d).Idx) :
    ((M.slice (Rect.unit (s := Arr a n d) off (Blk d).size inb) hr).squeeze (Row d) hq).view.read Val f x
      = M.view.read Val f (ix3 p r (x 0)) := by
  subst h
  have h1 : ((M.slice (Rect.unit (s := Arr a n d) ![p.val, r.val, 0] (Blk d).size inb) hr).squeeze (Row d) hq).view.read Val f x
      = M.view.read Val f ((Rect.unit (s := Arr a n d) ![p.val, r.val, 0] (Blk d).size inb).emb (Shape.reshapeEquiv hq.numel_eq x)) := rfl
  rw [h1, reshape_two_units]
  congr 1
  funext i
  apply Fin.ext
  rw [Rect.emb_apply]
  match i with
  | ⟨0, _⟩ => show p.val + 1 * 0 = p.val; omega
  | ⟨1, _⟩ => show r.val + 1 * 0 = r.val; omega
  | ⟨2, _⟩ => show 0 + 1 * (x 0).val = (x 0).val; omega

/-- A whole-row write through row `(p, r)`'s own view, read back at `(p, r, l)`: the payload at `l`. -/
theorem read_write_row_hit (M : Memref sig κ sp (Arr a n d) e) (off : Fin 3 → ℕ) (p : Fin a) (r : Fin n) (h : off = ![p.val, r.val, 0])
    (inb : ∀ i, off i + (Blk d).size i ≤ (Arr a n d).size i) (hr) (hq : (Blk d).Squeezes (Row d))
    (f : M.view.ty.Contents Val) (w : (Row d).Idx → Val e) (l : Fin d) :
    M.view.read Val (((M.slice (Rect.unit (s := Arr a n d) off (Blk d).size inb) hr).squeeze (Row d) hq).view.write Val f w Finset.univ) (ix3 p r l)
      = w (ix1 l) := by
  have := rowView_read (Val := Val) M off p r h inb hr hq
    (((M.slice (Rect.unit (s := Arr a n d) off (Blk d).size inb) hr).squeeze (Row d) hq).view.write Val f w Finset.univ) (ix1 l)
  rw [View.read_write_univ] at this
  exact this.symm

/-- A whole-row write through ANOTHER row's view leaves row `(p, r)` as it was. -/
theorem read_write_row_miss (M : Memref sig κ sp (Arr a n d) e) (off : Fin 3 → ℕ) (p p' : Fin a) (r r' : Fin n) (hne : p ≠ p' ∨ r ≠ r')
    (h : off = ![p'.val, r'.val, 0])
    (inb : ∀ i, off i + (Blk d).size i ≤ (Arr a n d).size i) (hr) (hq : (Blk d).Squeezes (Row d))
    (f : M.view.ty.Contents Val) (w : (Row d).Idx → Val e) (l : Fin d) :
    M.view.read Val (((M.slice (Rect.unit (s := Arr a n d) off (Blk d).size inb) hr).squeeze (Row d) hq).view.write Val f w Finset.univ) (ix3 p r l)
      = M.view.read Val f (ix3 p r l) := by
  apply View.read_congr_at
  apply View.write_of_not_mem
  intro hm
  obtain ⟨x, _, hx⟩ := Finset.mem_map.mp hm
  rw [rowView_emb M off p' r' h inb hr hq x] at hx
  have hi := M.view.emb.injective hx
  have h0 := congrArg (fun i : (Arr a n d).Idx => (i 0 : ℕ)) hi
  have h1 := congrArg (fun i : (Arr a n d).Idx => (i 1 : ℕ)) hi
  have h0' : (p' : ℕ) = (p : ℕ) := h0
  have h1' : (r' : ℕ) = (r : ℕ) := h1
  rcases hne with hp | hr'
  · exact hp (Fin.ext h0'.symm)
  · exact hr' (Fin.ext h1'.symm)

end Idealize.ShloMosaic.RowWindows

end
-- ==== Proof.GatherRows.lean ====
/-
  One grid point of the gather kernel fills its [1, 8, 256] output tile row by row: row `r` of the tile is written whole,
  through a one-row view of the tile, with the row the point's `r`-th transfer delivered. This module reads the tile
  back after the eight writes: at `(0, r, l)` it holds the `r`-th delivered row at `l` (`rows_read`), whatever it held
  before — each of the seven later writes goes to another row and leaves row `r` alone, the `r`-th is row `r`'s own.
-/
import proofs.«144003_j17798344474844_2_alg».proof.Proof.LibRowWindows

noncomputable section

namespace Cert.GatherRows

open Idealize.ShloMosaic Idealize.ShloMosaic.ValueIdx Idealize.ShloMosaic.RowWindows

variable {Val : EltTy → Type} {sig : RefSig} {κ : Kind} {sp : Space}

/-- The tile a grid point writes: eight rows of 256. -/
abbrev Tile : Shape := Arr 1 8 256

/-- The tile whose row `r` is the `r`-th of eight delivered rows. -/
def rowsFn (P : Fin 8 → (Row 256).Idx → Val .f32) : Tile.Idx → Val .f32 := fun y => P (y 1) (ix1 (y 2))

theorem rowsFn_at (P : Fin 8 → (Row 256).Idx → Val .f32) (q : Fin 1) (r : Fin 8) (l : Fin 256) :
    rowsFn P (ix3 q r l) = P r (ix1 l) := rfl

theorem rows_read_0 (M : Memref sig κ sp Tile .f32)
    (inb0 : ∀ i, (![0, 0, 0] : Fin 3 → ℕ) i + (Blk 256).size i ≤ Tile.size i)
    (inb1 : ∀ i, (![0, 1, 0] : Fin 3 → ℕ) i + (Blk 256).size i ≤ Tile.size i)
    (inb2 : ∀ i, (![0, 2, 0] : Fin 3 → ℕ) i + (Blk 256).size i ≤ Tile.size i)
    (inb3 : ∀ i, (![0, 3, 0] : Fin 3 → ℕ) i + (Blk 256).size i ≤ Tile.size i)
    (inb4 : ∀ i, (![0, 4, 0] : Fin 3 → ℕ) i + (Blk 256).size i ≤ Tile.size i)
    (inb5 : ∀ i, (![0, 5, 0] : Fin 3 → ℕ) i + (Blk 256).size i ≤ Tile.size i)
    (inb6 : ∀ i, (![0, 6, 0] : Fin 3 → ℕ) i + (Blk 256).size i ≤ Tile.size i)
    (inb7 : ∀ i, (![0, 7, 0] : Fin 3 → ℕ) i + (Blk 256).size i ≤ Tile.size i)
    (hr0) (hr1) (hr2) (hr3) (hr4) (hr5) (hr6) (hr7) (hq : (Blk 256).Squeezes (Row 256))
    (f : M.view.ty.Contents Val) (p0 : (Row 256).Idx → Val .f32) (p1 : (Row 256).Idx → Val .f32) (p2 : (Row 256).Idx → Val .f32) (p3 : (Row 256).Idx → Val .f32) (p4 : (Row 256).Idx → Val .f32) (p5 : (Row 256).Idx → Val .f32) (p6 : (Row 256).Idx → Val .f32) (p7 : (Row 256).Idx → Val .f32) (l : Fin 256) :
    M.view.read Val (((M.slice (Rect.unit (s := Tile) ![0, 7, 0] (Blk 256).size inb7) hr7).squeeze (Row 256) hq).view.write Val (((M.slice (Rect.unit (s := Tile) ![0, 6, 0] (Blk 256).size inb6) hr6).squeeze (Row 256) hq).view.write Val (((M.slice (Rect.unit (s := Tile) ![0, 5, 0] (Blk 256).size inb5) hr5).squeeze (Row 256) hq).view.write Val (((M.slice (Rect.unit (s := Tile) ![0, 4, 0] (Blk 256).size inb4) hr4).squeeze (Row 256) hq).view.write Val (((M.slice (Rect.unit (s := Tile) ![0, 3, 0] (Blk 256).size inb3) hr3).squeeze (Row 256) hq).view.write Val (((M.slice (Rect.unit (s := Tile) ![0, 2, 0] (Blk 256).size inb2) hr2).squeeze (Row 256) hq).view.write Val (((M.slice (Rect.unit (s := Tile) ![0, 1, 0] (Blk 256).size inb1) hr1).squeeze (Row 256) hq).view.write Val (((M.slice (Rect.unit (s := Tile) ![0, 0, 0] (Blk 256).size inb0) hr0).squeeze (Row 256) hq).view.write Val f p0 Finset.univ) p1 Finset.univ) p2 Finset.univ) p3 Finset.univ) p4 Finset.univ) p5 Finset.univ) p6 Finset.univ) p7 Finset.univ) (ix3 (0 : Fin 1) (0 : Fin 8) l) = p0 (ix1 l) := by
  rw [read_write_row_miss M (![0, 7, 0] : Fin 3 → ℕ) (0 : Fin 1) (0 : Fin 1) (0 : Fin 8) (7 : Fin 8) (Or.inr (by decide)) rfl inb7 hr7 hq _ p7 l,
    read_write_row_miss M (![0, 6, 0] : Fin 3 → ℕ) (0 : Fin 1) (0 : Fin 1) (0 : Fin 8) (6 : Fin 8) (Or.inr (by decide)) rfl inb6 hr6 hq _ p6 l,
    read_write_row_miss M (![0, 5, 0] : Fin 3 → ℕ) (0 : Fin 1) (0 : Fin 1) (0 : Fin 8) (5 : Fin 8) (Or.inr (by decide)) rfl inb5 hr5 hq _ p5 l,
    read_write_row_miss M (![0, 4, 0] : Fin 3 → ℕ) (0 : Fin 1) (0 : Fin 1) (0 : Fin 8) (4 : Fin 8) (Or.inr (by decide)) rfl inb4 hr4 hq _ p4 l,
    read_write_row_miss M (![0, 3, 0] : Fin 3 → ℕ) (0 : Fin 1) (0 : Fin 1) (0 : Fin 8) (3 : Fin 8) (Or.inr (by decide)) rfl inb3 hr3 hq _ p3 l,
    read_write_row_miss M (![0, 2, 0] : Fin 3 → ℕ) (0 : Fin 1) (0 : Fin 1) (0 : Fin 8) (2 : Fin 8) (Or.inr (by decide)) rfl inb2 hr2 hq _ p2 l,
    read_write_row_miss M (![0, 1, 0] : Fin 3 → ℕ) (0 : Fin 1) (0 : Fin 1) (0 : Fin 8) (1 : Fin 8) (Or.inr (by decide)) rfl inb1 hr1 hq _ p1 l,
    read_write_row_hit M (![0, 0, 0] : Fin 3 → ℕ) (0 : Fin 1) (0 : Fin 8) rfl inb0 hr0 hq _ p0 l]

theorem rows_read_1 (M : Memref sig κ sp Tile .f32)
    (inb0 : ∀ i, (![0, 0, 0] : Fin 3 → ℕ) i + (Blk 256).size i ≤ Tile.size i)
    (inb1 : ∀ i, (![0, 1, 0] : Fin 3 → ℕ) i + (Blk 256).size i ≤ Tile.size i)
    (inb2 : ∀ i, (![0, 2, 0] : Fin 3 → ℕ) i + (Blk 256).size i ≤ Tile.size i)
    (inb3 : ∀ i, (![0, 3, 0] : Fin 3 → ℕ) i + (Blk 256).size i ≤ Tile.size i)
    (inb4 : ∀ i, (![0, 4, 0] : Fin 3 → ℕ) i + (Blk 256).size i ≤ Tile.size i)
    (inb5 : ∀ i, (![0, 5, 0] : Fin 3 → ℕ) i + (Blk 256).size i ≤ Tile.size i)
    (inb6 : ∀ i, (![0, 6, 0] : Fin 3 → ℕ) i + (Blk 256).size i ≤ Tile.size i)
    (inb7 : ∀ i, (![0, 7, 0] : Fin 3 → ℕ) i + (Blk 256).size i ≤ Tile.size i)
    (hr0) (hr1) (hr2) (hr3) (hr4) (hr5) (hr6) (hr7) (hq : (Blk 256).Squeezes (Row 256))
    (f : M.view.ty.Contents Val) (p0 : (Row 256).Idx → Val .f32) (p1 : (Row 256).Idx → Val .f32) (p2 : (Row 256).Idx → Val .f32) (p3 : (Row 256).Idx → Val .f32) (p4 : (Row 256).Idx → Val .f32) (p5 : (Row 256).Idx → Val .f32) (p6 : (Row 256).Idx → Val .f32) (p7 : (Row 256).Idx → Val .f32) (l : Fin 256) :
    M.view.read Val (((M.slice (Rect.unit (s := Tile) ![0, 7, 0] (Blk 256).size inb7) hr7).squeeze (Row 256) hq).view.write Val (((M.slice (Rect.unit (s := Tile) ![0, 6, 0] (Blk 256).size inb6) hr6).squeeze (Row 256) hq).view.write Val (((M.slice (Rect.unit (s := Tile) ![0, 5, 0] (Blk 256).size inb5) hr5).squeeze (Row 256) hq).view.write Val (((M.slice (Rect.unit (s := Tile) ![0, 4, 0] (Blk 256).size inb4) hr4).squeeze (Row 256) hq).view.write Val (((M.slice (Rect.unit (s := Tile) ![0, 3, 0] (Blk 256).size inb3) hr3).squeeze (Row 256) hq).view.write Val (((M.slice (Rect.unit (s := Tile) ![0, 2, 0] (Blk 256).size inb2) hr2).squeeze (Row 256) hq).view.write Val (((M.slice (Rect.unit (s := Tile) ![0, 1, 0] (Blk 256).size inb1) hr1).squeeze (Row 256) hq).view.write Val (((M.slice (Rect.unit (s := Tile) ![0, 0, 0] (Blk 256).size inb0) hr0).squeeze (Row 256) hq).view.write Val f p0 Finset.univ) p1 Finset.univ) p2 Finset.univ) p3 Finset.univ) p4 Finset.univ) p5 Finset.univ) p6 Finset.univ) p7 Finset.univ) (ix3 (0 : Fin 1) (1 : Fin 8) l) = p1 (ix1 l) := by
  rw [read_write_row_miss M (![0, 7, 0] : Fin 3 → ℕ) (0 : Fin 1) (0 : Fin 1) (1 : Fin 8) (7 : Fin 8) (Or.inr (by decide)) rfl inb7 hr7 hq _ p7 l,
    read_write_row_miss M (![0, 6, 0] : Fin 3 → ℕ) (0 : Fin 1) (0 : Fin 1) (1 : Fin 8) (6 : Fin 8) (Or.inr (by decide)) rfl inb6 hr6 hq _ p6 l,
    read_write_row_miss M (![0, 5, 0] : Fin 3 → ℕ) (0 : Fin 1) (0 : Fin 1) (1 : Fin 8) (5 : Fin 8) (Or.inr (by decide)) rfl inb5 hr5 hq _ p5 l,
    read_write_row_miss M (![0, 4, 0] : Fin 3 → ℕ) (0 : Fin 1) (0 : Fin 1) (1 : Fin 8) (4 : Fin 8) (Or.inr (by decide)) rfl inb4 hr4 hq _ p4 l,
    read_write_row_miss M (![0, 3, 0] : Fin 3 → ℕ) (0 : Fin 1) (0 : Fin 1) (1 : Fin 8) (3 : Fin 8) (Or.inr (by decide)) rfl inb3 hr3 hq _ p3 l,
    read_write_row_miss M (![0, 2, 0] : Fin 3 → ℕ) (0 : Fin 1) (0 : Fin 1) (1 : Fin 8) (2 : Fin 8) (Or.inr (by decide)) rfl inb2 hr2 hq _ p2 l,
    read_write_row_hit M (![0, 1, 0] : Fin 3 → ℕ) (0 : Fin 1) (1 : Fin 8) rfl inb1 hr1 hq _ p1 l]

theorem rows_read_2 (M : Memref sig κ sp Tile .f32)
    (inb0 : ∀ i, (![0, 0, 0] : Fin 3 → ℕ) i + (Blk 256).size i ≤ Tile.size i)
    (inb1 : ∀ i, (![0, 1, 0] : Fin 3 → ℕ) i + (Blk 256).size i ≤ Tile.size i)
    (inb2 : ∀ i, (![0, 2, 0] : Fin 3 → ℕ) i + (Blk 256).size i ≤ Tile.size i)
    (inb3 : ∀ i, (![0, 3, 0] : Fin 3 → ℕ) i + (Blk 256).size i ≤ Tile.size i)
    (inb4 : ∀ i, (![0, 4, 0] : Fin 3 → ℕ) i + (Blk 256).size i ≤ Tile.size i)
    (inb5 : ∀ i, (![0, 5, 0] : Fin 3 → ℕ) i + (Blk 256).size i ≤ Tile.size i)
    (inb6 : ∀ i, (![0, 6, 0] : Fin 3 → ℕ) i + (Blk 256).size i ≤ Tile.size i)
    (inb7 : ∀ i, (![0, 7, 0] : Fin 3 → ℕ) i + (Blk 256).size i ≤ Tile.size i)
    (hr0) (hr1) (hr2) (hr3) (hr4) (hr5) (hr6) (hr7) (hq : (Blk 256).Squeezes (Row 256))
    (f : M.view.ty.Contents Val) (p0 : (Row 256).Idx → Val .f32) (p1 : (Row 256).Idx → Val .f32) (p2 : (Row 256).Idx → Val .f32) (p3 : (Row 256).Idx → Val .f32) (p4 : (Row 256).Idx → Val .f32) (p5 : (Row 256).Idx → Val .f32) (p6 : (Row 256).Idx → Val .f32) (p7 : (Row 256).Idx → Val .f32) (l : Fin 256) :
    M.view.read Val (((M.slice (Rect.unit (s := Tile) ![0, 7, 0] (Blk 256).size inb7) hr7).squeeze (Row 256) hq).view.write Val (((M.slice (Rect.unit (s := Tile) ![0, 6, 0] (Blk 256).size inb6) hr6).squeeze (Row 256) hq).view.write Val (((M.slice (Rect.unit (s := Tile) ![0, 5, 0] (Blk 256).size inb5) hr5).squeeze (Row 256) hq).view.write Val (((M.slice (Rect.unit (s := Tile) ![0, 4, 0] (Blk 256).size inb4) hr4).squeeze (Row 256) hq).view.write Val (((M.slice (Rect.unit (s := Tile) ![0, 3, 0] (Blk 256).size inb3) hr3).squeeze (Row 256) hq).view.write Val (((M.slice (Rect.unit (s := Tile) ![0, 2, 0] (Blk 256).size inb2) hr2).squeeze (Row 256) hq).view.write Val (((M.slice (Rect.unit (s := Tile) ![0, 1, 0] (Blk 256).size inb1) hr1).squeeze (Row 256) hq).view.write Val (((M.slice (Rect.unit (s := Tile) ![0, 0, 0] (Blk 256).size inb0) hr0).squeeze (Row 256) hq).view.write Val f p0 Finset.univ) p1 Finset.univ) p2 Finset.univ) p3 Finset.univ) p4 Finset.univ) p5 Finset.univ) p6 Finset.univ) p7 Finset.univ) (ix3 (0 : Fin 1) (2 : Fin 8) l) = p2 (ix1 l) := by
  rw [read_write_row_miss M (![0, 7, 0] : Fin 3 → ℕ) (0 : Fin 1) (0 : Fin 1) (2 : Fin 8) (7 : Fin 8) (Or.inr (by decide)) rfl inb7 hr7 hq _ p7 l,
    read_write_row_miss M (![0, 6, 0] : Fin 3 → ℕ) (0 : Fin 1) (0 : Fin 1) (2 : Fin 8) (6 : Fin 8) (Or.inr (by decide)) rfl inb6 hr6 hq _ p6 l,
    read_write_row_miss M (![0, 5, 0] : Fin 3 → ℕ) (0 : Fin 1) (0 : Fin 1) (2 : Fin 8) (5 : Fin 8) (Or.inr (by decide)) rfl inb5 hr5 hq _ p5 l,
    read_write_row_miss M (![0, 4, 0] : Fin 3 → ℕ) (0 : Fin 1) (0 : Fin 1) (2 : Fin 8) (4 : Fin 8) (Or.inr (by decide)) rfl inb4 hr4 hq _ p4 l,
    read_write_row_miss M (![0, 3, 0] : Fin 3 → ℕ) (0 : Fin 1) (0 : Fin 1) (2 : Fin 8) (3 : Fin 8) (Or.inr (by decide)) rfl inb3 hr3 hq _ p3 l,
    read_write_row_hit M (![0, 2, 0] : Fin 3 → ℕ) (0 : Fin 1) (2 : Fin 8) rfl inb2 hr2 hq _ p2 l]

theorem rows_read_3 (M : Memref sig κ sp Tile .f32)
    (inb0 : ∀ i, (![0, 0, 0] : Fin 3 → ℕ) i + (Blk 256).size i ≤ Tile.size i)
    (inb1 : ∀ i, (![0, 1, 0] : Fin 3 → ℕ) i + (Blk 256).size i ≤ Tile.size i)
    (inb2 : ∀ i, (![0, 2, 0] : Fin 3 → ℕ) i + (Blk 256).size i ≤ Tile.size i)
    (inb3 : ∀ i, (![0, 3, 0] : Fin 3 → ℕ) i + (Blk 256).size i ≤ Tile.size i)
    (inb4 : ∀ i, (![0, 4, 0] : Fin 3 → ℕ) i + (Blk 256).size i ≤ Tile.size i)
    (inb5 : ∀ i, (![0, 5, 0] : Fin 3 → ℕ) i + (Blk 256).size i ≤ Tile.size i)
    (inb6 : ∀ i, (![0, 6, 0] : Fin 3 → ℕ) i + (Blk 256).size i ≤ Tile.size i)
    (inb7 : ∀ i, (![0, 7, 0] : Fin 3 → ℕ) i + (Blk 256).size i ≤ Tile.size i)
    (hr0) (hr1) (hr2) (hr3) (hr4) (hr5) (hr6) (hr7) (hq : (Blk 256).Squeezes (Row 256))
    (f : M.view.ty.Contents Val) (p0 : (Row 256).Idx → Val .f32) (p1 : (Row 256).Idx → Val .f32) (p2 : (Row 256).Idx → Val .f32) (p3 : (Row 256).Idx → Val .f32) (p4 : (Row 256).Idx → Val .f32) (p5 : (Row 256).Idx → Val .f32) (p6 : (Row 256).Idx → Val .f32) (p7 : (Row 256).Idx → Val .f32) (l : Fin 256) :
    M.view.read Val (((M.slice (Rect.unit (s := Tile) ![0, 7, 0] (Blk 256).size inb7) hr7).squeeze (Row 256) hq).view.write Val (((M.slice (Rect.unit (s := Tile) ![0, 6, 0] (Blk 256).size inb6) hr6).squeeze (Row 256) hq).view.write Val (((M.slice (Rect.unit (s := Tile) ![0, 5, 0] (Blk 256).size inb5) hr5).squeeze (Row 256) hq).view.write Val (((M.slice (Rect.unit (s := Tile) ![0, 4, 0] (Blk 256).size inb4) hr4).squeeze (Row 256) hq).view.write Val (((M.slice (Rect.unit (s := Tile) ![0, 3, 0] (Blk 256).size inb3) hr3).squeeze (Row 256) hq).view.write Val (((M.slice (Rect.unit (s := Tile) ![0, 2, 0] (Blk 256).size inb2) hr2).squeeze (Row 256) hq).view.write Val (((M.slice (Rect.unit (s := Tile) ![0, 1, 0] (Blk 256).size inb1) hr1).squeeze (Row 256) hq).view.write Val (((M.slice (Rect.unit (s := Tile) ![0, 0, 0] (Blk 256).size inb0) hr0).squeeze (Row 256) hq).view.write Val f p0 Finset.univ) p1 Finset.univ) p2 Finset.univ) p3 Finset.univ) p4 Finset.univ) p5 Finset.univ) p6 Finset.univ) p7 Finset.univ) (ix3 (0 : Fin 1) (3 : Fin 8) l) = p3 (ix1 l) := by
  rw [read_write_row_miss M (![0, 7, 0] : Fin 3 → ℕ) (0 : Fin 1) (0 : Fin 1) (3 : Fin 8) (7 : Fin 8) (Or.inr (by decide)) rfl inb7 hr7 hq _ p7 l,
    read_write_row_miss M (![0, 6, 0] : Fin 3 → ℕ) (0 : Fin 1) (0 : Fin 1) (3 : Fin 8) (6 : Fin 8) (Or.inr (by decide)) rfl inb6 hr6 hq _ p6 l,
    read_write_row_miss M (![0, 5, 0] : Fin 3 → ℕ) (0 : Fin 1) (0 : Fin 1) (3 : Fin 8) (5 : Fin 8) (Or.inr (by decide)) rfl inb5 hr5 hq _ p5 l,
    read_write_row_miss M (![0, 4, 0] : Fin 3 → ℕ) (0 : Fin 1) (0 : Fin 1) (3 : Fin 8) (4 : Fin 8) (Or.inr (by decide)) rfl inb4 hr4 hq _ p4 l,
    read_write_row_hit M (![0, 3, 0] : Fin 3 → ℕ) (0 : Fin 1) (3 : Fin 8) rfl inb3 hr3 hq _ p3 l]

theorem rows_read_4 (M : Memref sig κ sp Tile .f32)
    (inb0 : ∀ i, (![0, 0, 0] : Fin 3 → ℕ) i + (Blk 256).size i ≤ Tile.size i)
    (inb1 : ∀ i, (![0, 1, 0] : Fin 3 → ℕ) i + (Blk 256).size i ≤ Tile.size i)
    (inb2 : ∀ i, (![0, 2, 0] : Fin 3 → ℕ) i + (Blk 256).size i ≤ Tile.size i)
    (inb3 : ∀ i, (![0, 3, 0] : Fin 3 → ℕ) i + (Blk 256).size i ≤ Tile.size i)
    (inb4 : ∀ i, (![0, 4, 0] : Fin 3 → ℕ) i + (Blk 256).size i ≤ Tile.size i)
    (inb5 : ∀ i, (![0, 5, 0] : Fin 3 → ℕ) i + (Blk 256).size i ≤ Tile.size i)
    (inb6 : ∀ i, (![0, 6, 0] : Fin 3 → ℕ) i + (Blk 256).size i ≤ Tile.size i)
    (inb7 : ∀ i, (![0, 7, 0] : Fin 3 → ℕ) i + (Blk 256).size i ≤ Tile.size i)
    (hr0) (hr1) (hr2) (hr3) (hr4) (hr5) (hr6) (hr7) (hq : (Blk 256).Squeezes (Row 256))
    (f : M.view.ty.Contents Val) (p0 : (Row 256).Idx → Val .f32) (p1 : (Row 256).Idx → Val .f32) (p2 : (Row 256).Idx → Val .f32) (p3 : (Row 256).Idx → Val .f32) (p4 : (Row 256).Idx → Val .f32) (p5 : (Row 256).Idx → Val .f32) (p6 : (Row 256).Idx → Val .f32) (p7 : (Row 256).Idx → Val .f32) (l : Fin 256) :
    M.view.read Val (((M.slice (Rect.unit (s := Tile) ![0, 7, 0] (Blk 256).size inb7) hr7).squeeze (Row 256) hq).view.write Val (((M.slice (Rect.unit (s := Tile) ![0, 6, 0] (Blk 256).size inb6) hr6).squeeze (Row 256) hq).view.write Val (((M.slice (Rect.unit (s := Tile) ![0, 5, 0] (Blk 256).size inb5) hr5).squeeze (Row 256) hq).view.write Val (((M.slice (Rect.unit (s := Tile) ![0, 4, 0] (Blk 256).size inb4) hr4).squeeze (Row 256) hq).view.write Val (((M.slice (Rect.unit (s := Tile) ![0, 3, 0] (Blk 256).size inb3) hr3).squeeze (Row 256) hq).view.write Val (((M.slice (Rect.unit (s := Tile) ![0, 2, 0] (Blk 256).size inb2) hr2).squeeze (Row 256) hq).view.write Val (((M.slice (Rect.unit (s := Tile) ![0, 1, 0] (Blk 256).size inb1) hr1).squeeze (Row 256) hq).view.write Val (((M.slice (Rect.unit (s := Tile) ![0, 0, 0] (Blk 256).size inb0) hr0).squeeze (Row 256) hq).view.write Val f p0 Finset.univ) p1 Finset.univ) p2 Finset.univ) p3 Finset.univ) p4 Finset.univ) p5 Finset.univ) p6 Finset.univ) p7 Finset.univ) (ix3 (0 : Fin 1) (4 : Fin 8) l) = p4 (ix1 l) := by
  rw [read_write_row_miss M (![0, 7, 0] : Fin 3 → ℕ) (0 : Fin 1) (0 : Fin 1) (4 : Fin 8) (7 : Fin 8) (Or.inr (by decide)) rfl inb7 hr7 hq _ p7 l,
    read_write_row_miss M (![0, 6, 0] : Fin 3 → ℕ) (0 : Fin 1) (0 : Fin 1) (4 : Fin 8) (6 : Fin 8) (Or.inr (by decide)) rfl inb6 hr6 hq _ p6 l,
    read_write_row_miss M (![0, 5, 0] : Fin 3 → ℕ) (0 : Fin 1) (0 : Fin 1) (4 : Fin 8) (5 : Fin 8) (Or.inr (by decide)) rfl inb5 hr5 hq _ p5 l,
    read_write_row_hit M (![0, 4, 0] : Fin 3 → ℕ) (0 : Fin 1) (4 : Fin 8) rfl inb4 hr4 hq _ p4 l]

theorem rows_read_5 (M : Memref sig κ sp Tile .f32)
    (inb0 : ∀ i, (![0, 0, 0] : Fin 3 → ℕ) i + (Blk 256).size i ≤ Tile.size i)
    (inb1 : ∀ i, (![0, 1, 0] : Fin 3 → ℕ) i + (Blk 256).size i ≤ Tile.size i)
    (inb2 : ∀ i, (![0, 2, 0] : Fin 3 → ℕ) i + (Blk 256).size i ≤ Tile.size i)
    (inb3 : ∀ i, (![0, 3, 0] : Fin 3 → ℕ) i + (Blk 256).size i ≤ Tile.size i)
    (inb4 : ∀ i, (![0, 4, 0] : Fin 3 → ℕ) i + (Blk 256).size i ≤ Tile.size i)
    (inb5 : ∀ i, (![0, 5, 0] : Fin 3 → ℕ) i + (Blk 256).size i ≤ Tile.size i)
    (inb6 : ∀ i, (![0, 6, 0] : Fin 3 → ℕ) i + (Blk 256).size i ≤ Tile.size i)
    (inb7 : ∀ i, (![0, 7, 0] : Fin 3 → ℕ) i + (Blk 256).size i ≤ Tile.size i)
    (hr0) (hr1) (hr2) (hr3) (hr4) (hr5) (hr6) (hr7) (hq : (Blk 256).Squeezes (Row 256))
    (f : M.view.ty.Contents Val) (p0 : (Row 256).Idx → Val .f32) (p1 : (Row 256).Idx → Val .f32) (p2 : (Row 256).Idx → Val .f32) (p3 : (Row 256).Idx → Val .f32) (p4 : (Row 256).Idx → Val .f32) (p5 : (Row 256).Idx → Val .f32) (p6 : (Row 256).Idx → Val .f32) (p7 : (Row 256).Idx → Val .f32) (l : Fin 256) :
    M.view.read Val (((M.slice (Rect.unit (s := Tile) ![0, 7, 0] (Blk 256).size inb7) hr7).squeeze (Row 256) hq).view.write Val (((M.slice (Rect.unit (s := Tile) ![0, 6, 0] (Blk 256).size inb6) hr6).squeeze (Row 256) hq).view.write Val (((M.slice (Rect.unit (s := Tile) ![0, 5, 0] (Blk 256).size inb5) hr5).squeeze (Row 256) hq).view.write Val (((M.slice (Rect.unit (s := Tile) ![0, 4, 0] (Blk 256).size inb4) hr4).squeeze (Row 256) hq).view.write Val (((M.slice (Rect.unit (s := Tile) ![0, 3, 0] (Blk 256).size inb3) hr3).squeeze (Row 256) hq).view.write Val (((M.slice (Rect.unit (s := Tile) ![0, 2, 0] (Blk 256).size inb2) hr2).squeeze (Row 256) hq).view.write Val (((M.slice (Rect.unit (s := Tile) ![0, 1, 0] (Blk 256).size inb1) hr1).squeeze (Row 256) hq).view.write Val (((M.slice (Rect.unit (s := Tile) ![0, 0, 0] (Blk 256).size inb0) hr0).squeeze (Row 256) hq).view.write Val f p0 Finset.univ) p1 Finset.univ) p2 Finset.univ) p3 Finset.univ) p4 Finset.univ) p5 Finset.univ) p6 Finset.univ) p7 Finset.univ) (ix3 (0 : Fin 1) (5 : Fin 8) l) = p5 (ix1 l) := by
  rw [read_write_row_miss M (![0, 7, 0] : Fin 3 → ℕ) (0 : Fin 1) (0 : Fin 1) (5 : Fin 8) (7 : Fin 8) (Or.inr (by decide)) rfl inb7 hr7 hq _ p7 l,
    read_write_row_miss M (![0, 6, 0] : Fin 3 → ℕ) (0 : Fin 1) (0 : Fin 1) (5 : Fin 8) (6 : Fin 8) (Or.inr (by decide)) rfl inb6 hr6 hq _ p6 l,
    read_write_row_hit M (![0, 5, 0] : Fin 3 → ℕ) (0 : Fin 1) (5 : Fin 8) rfl inb5 hr5 hq _ p5 l]

theorem rows_read_6 (M : Memref sig κ sp Tile .f32)
    (inb0 : ∀ i, (![0, 0, 0] : Fin 3 → ℕ) i + (Blk 256).size i ≤ Tile.size i)
    (inb1 : ∀ i, (![0, 1, 0] : Fin 3 → ℕ) i + (Blk 256).size i ≤ Tile.size i)
    (inb2 : ∀ i, (![0, 2, 0] : Fin 3 → ℕ) i + (Blk 256).size i ≤ Tile.size i)
    (inb3 : ∀ i, (![0, 3, 0] : Fin 3 → ℕ) i + (Blk 256).size i ≤ Tile.size i)
    (inb4 : ∀ i, (![0, 4, 0] : Fin 3 → ℕ) i + (Blk 256).size i ≤ Tile.size i)
    (inb5 : ∀ i, (![0, 5, 0] : Fin 3 → ℕ) i + (Blk 256).size i ≤ Tile.size i)
    (inb6 : ∀ i, (![0, 6, 0] : Fin 3 → ℕ) i + (Blk 256).size i ≤ Tile.size i)
    (inb7 : ∀ i, (![0, 7, 0] : Fin 3 → ℕ) i + (Blk 256).size i ≤ Tile.size i)
    (hr0) (hr1) (hr2) (hr3) (hr4) (hr5) (hr6) (hr7) (hq : (Blk 256).Squeezes (Row 256))
    (f : M.view.ty.Contents Val) (p0 : (Row 256).Idx → Val .f32) (p1 : (Row 256).Idx → Val .f32) (p2 : (Row 256).Idx → Val .f32) (p3 : (Row 256).Idx → Val .f32) (p4 : (Row 256).Idx → Val .f32) (p5 : (Row 256).Idx → Val .f32) (p6 : (Row 256).Idx → Val .f32) (p7 : (Row 256).Idx → Val .f32) (l : Fin 256) :
    M.view.read Val (((M.slice (Rect.unit (s := Tile) ![0, 7, 0] (Blk 256).size inb7) hr7).squeeze (Row 256) hq).view.write Val (((M.slice (Rect.unit (s := Tile) ![0, 6, 0] (Blk 256).size inb6) hr6).squeeze (Row 256) hq).view.write Val (((M.slice (Rect.unit (s := Tile) ![0, 5, 0] (Blk 256).size inb5) hr5).squeeze (Row 256) hq).view.write Val (((M.slice (Rect.unit (s := Tile) ![0, 4, 0] (Blk 256).size inb4) hr4).squeeze (Row 256) hq).view.write Val (((M.slice (Rect.unit (s := Tile) ![0, 3, 0] (Blk 256).size inb3) hr3).squeeze (Row 256) hq).view.write Val (((M.slice (Rect.unit (s := Tile) ![0, 2, 0] (Blk 256).size inb2) hr2).squeeze (Row 256) hq).view.write Val (((M.slice (Rect.unit (s := Tile) ![0, 1, 0] (Blk 256).size inb1) hr1).squeeze (Row 256) hq).view.write Val (((M.slice (Rect.unit (s := Tile) ![0, 0, 0] (Blk 256).size inb0) hr0).squeeze (Row 256) hq).view.write Val f p0 Finset.univ) p1 Finset.univ) p2 Finset.univ) p3 Finset.univ) p4 Finset.univ) p5 Finset.univ) p6 Finset.univ) p7 Finset.univ) (ix3 (0 : Fin 1) (6 : Fin 8) l) = p6 (ix1 l) := by
  rw [read_write_row_miss M (![0, 7, 0] : Fin 3 → ℕ) (0 : Fin 1) (0 : Fin 1) (6 : Fin 8) (7 : Fin 8) (Or.inr (by decide)) rfl inb7 hr7 hq _ p7 l,
    read_write_row_hit M (![0, 6, 0] : Fin 3 → ℕ) (0 : Fin 1) (6 : Fin 8) rfl inb6 hr6 hq _ p6 l]

theorem rows_read_7 (M : Memref sig κ sp Tile .f32)
    (inb0 : ∀ i, (![0, 0, 0] : Fin 3 → ℕ) i + (Blk 256).size i ≤ Tile.size i)
    (inb1 : ∀ i, (![0, 1, 0] : Fin 3 → ℕ) i + (Blk 256).size i ≤ Tile.size i)
    (inb2 : ∀ i, (![0, 2, 0] : Fin 3 → ℕ) i + (Blk 256).size i ≤ Tile.size i)
    (inb3 : ∀ i, (![0, 3, 0] : Fin 3 → ℕ) i + (Blk 256).size i ≤ Tile.size i)
    (inb4 : ∀ i, (![0, 4, 0] : Fin 3 → ℕ) i + (Blk 256).size i ≤ Tile.size i)
    (inb5 : ∀ i, (![0, 5, 0] : Fin 3 → ℕ) i + (Blk 256).size i ≤ Tile.size i)
    (inb6 : ∀ i, (![0, 6, 0] : Fin 3 → ℕ) i + (Blk 256).size i ≤ Tile.size i)
    (inb7 : ∀ i, (![0, 7, 0] : Fin 3 → ℕ) i + (Blk 256).size i ≤ Tile.size i)
    (hr0) (hr1) (hr2) (hr3) (hr4) (hr5) (hr6) (hr7) (hq : (Blk 256).Squeezes (Row 256))
    (f : M.view.ty.Contents Val) (p0 : (Row 256).Idx → Val .f32) (p1 : (Row 256).Idx → Val .f32) (p2 : (Row 256).Idx → Val .f32) (p3 : (Row 256).Idx → Val .f32) (p4 : (Row 256).Idx → Val .f32) (p5 : (Row 256).Idx → Val .f32) (p6 : (Row 256).Idx → Val .f32) (p7 : (Row 256).Idx → Val .f32) (l : Fin 256) :
    M.view.read Val (((M.slice (Rect.unit (s := Tile) ![0, 7, 0] (Blk 256).size inb7) hr7).squeeze (Row 256) hq).view.write Val (((M.slice (Rect.unit (s := Tile) ![0, 6, 0] (Blk 256).size inb6) hr6).squeeze (Row 256) hq).view.write Val (((M.slice (Rect.unit (s := Tile) ![0, 5, 0] (Blk 256).size inb5) hr5).squeeze (Row 256) hq).view.write Val (((M.slice (Rect.unit (s := Tile) ![0, 4, 0] (Blk 256).size inb4) hr4).squeeze (Row 256) hq).view.write Val (((M.slice (Rect.unit (s := Tile) ![0, 3, 0] (Blk 256).size inb3) hr3).squeeze (Row 256) hq).view.write Val (((M.slice (Rect.unit (s := Tile) ![0, 2, 0] (Blk 256).size inb2) hr2).squeeze (Row 256) hq).view.write Val (((M.slice (Rect.unit (s := Tile) ![0, 1, 0] (Blk 256).size inb1) hr1).squeeze (Row 256) hq).view.write Val (((M.slice (Rect.unit (s := Tile) ![0, 0, 0] (Blk 256).size inb0) hr0).squeeze (Row 256) hq).view.write Val f p0 Finset.univ) p1 Finset.univ) p2 Finset.univ) p3 Finset.univ) p4 Finset.univ) p5 Finset.univ) p6 Finset.univ) p7 Finset.univ) (ix3 (0 : Fin 1) (7 : Fin 8) l) = p7 (ix1 l) := by
  rw [read_write_row_hit M (![0, 7, 0] : Fin 3 → ℕ) (0 : Fin 1) (7 : Fin 8) rfl inb7 hr7 hq _ p7 l]

/-- After the eight row writes the tile is the eight delivered rows. -/
theorem rows_read (M : Memref sig κ sp Tile .f32)
    (inb0 : ∀ i, (![0, 0, 0] : Fin 3 → ℕ) i + (Blk 256).size i ≤ Tile.size i)
    (inb1 : ∀ i, (![0, 1, 0] : Fin 3 → ℕ) i + (Blk 256).size i ≤ Tile.size i)
    (inb2 : ∀ i, (![0, 2, 0] : Fin 3 → ℕ) i + (Blk 256).size i ≤ Tile.size i)
    (inb3 : ∀ i, (![0, 3, 0] : Fin 3 → ℕ) i + (Blk 256).size i ≤ Tile.size i)
    (inb4 : ∀ i, (![0, 4, 0] : Fin 3 → ℕ) i + (Blk 256).size i ≤ Tile.size i)
    (inb5 : ∀ i, (![0, 5, 0] : Fin 3 → ℕ) i + (Blk 256).size i ≤ Tile.size i)
    (inb6 : ∀ i, (![0, 6, 0] : Fin 3 → ℕ) i + (Blk 256).size i ≤ Tile.size i)
    (inb7 : ∀ i, (![0, 7, 0] : Fin 3 → ℕ) i + (Blk 256).size i ≤ Tile.size i)
    (hr0) (hr1) (hr2) (hr3) (hr4) (hr5) (hr6) (hr7) (hq : (Blk 256).Squeezes (Row 256))
    (f : M.view.ty.Contents Val) (p0 : (Row 256).Idx → Val .f32) (p1 : (Row 256).Idx → Val .f32) (p2 : (Row 256).Idx → Val .f32) (p3 : (Row 256).Idx → Val .f32) (p4 : (Row 256).Idx → Val .f32) (p5 : (Row 256).Idx → Val .f32) (p6 : (Row 256).Idx → Val .f32) (p7 : (Row 256).Idx → Val .f32) :
    M.view.read Val (((M.slice (Rect.unit (s := Tile) ![0, 7, 0] (Blk 256).size inb7) hr7).squeeze (Row 256) hq).view.write Val (((M.slice (Rect.unit (s := Tile) ![0, 6, 0] (Blk 256).size inb6) hr6).squeeze (Row 256) hq).view.write Val (((M.slice (Rect.unit (s := Tile) ![0, 5, 0] (Blk 256).size inb5) hr5).squeeze (Row 256) hq).view.write Val (((M.slice (Rect.unit (s := Tile) ![0, 4, 0] (Blk 256).size inb4) hr4).squeeze (Row 256) hq).view.write Val (((M.slice (Rect.unit (s := Tile) ![0, 3, 0] (Blk 256).size inb3) hr3).squeeze (Row 256) hq).view.write Val (((M.slice (Rect.unit (s := Tile) ![0, 2, 0] (Blk 256).size inb2) hr2).squeeze (Row 256) hq).view.write Val (((M.slice (Rect.unit (s := Tile) ![0, 1, 0] (Blk 256).size inb1) hr1).squeeze (Row 256) hq).view.write Val (((M.slice (Rect.unit (s := Tile) ![0, 0, 0] (Blk 256).size inb0) hr0).squeeze (Row 256) hq).view.write Val f p0 Finset.univ) p1 Finset.univ) p2 Finset.univ) p3 Finset.univ) p4 Finset.univ) p5 Finset.univ) p6 Finset.univ) p7 Finset.univ) = rowsFn ![p0, p1, p2, p3, p4, p5, p6, p7] := by
  funext y
  obtain ⟨q, r, l, rfl⟩ : ∃ (q : Fin 1) (r : Fin 8) (l : Fin 256), y = ix3 q r l := ⟨y 0, y 1, y 2, eq_ix3 y⟩
  obtain rfl : q = 0 := Subsingleton.elim _ _
  rw [rowsFn_at]
  match r with
  | ⟨0, _⟩ => exact rows_read_0 M inb0 inb1 inb2 inb3 inb4 inb5 inb6 inb7 hr0 hr1 hr2 hr3 hr4 hr5 hr6 hr7 hq f p0 p1 p2 p3 p4 p5 p6 p7 l
  | ⟨1, _⟩ => exact rows_read_1 M inb0 inb1 inb2 inb3 inb4 inb5 inb6 inb7 hr0 hr1 hr2 hr3 hr4 hr5 hr6 hr7 hq f p0 p1 p2 p3 p4 p5 p6 p7 l
  | ⟨2, _⟩ => exact rows_read_2 M inb0 inb1 inb2 inb3 inb4 inb5 inb6 inb7 hr0 hr1 hr2 hr3 hr4 hr5 hr6 hr7 hq f p0 p1 p2 p3 p4 p5 p6 p7 l
  | ⟨3, _⟩ => exact rows_read_3 M inb0 inb1 inb2 inb3 inb4 inb5 inb6 inb7 hr0 hr1 hr2 hr3 hr4 hr5 hr6 hr7 hq f p0 p1 p2 p3 p4 p5 p6 p7 l
  | ⟨4, _⟩ => exact rows_read_4 M inb0 inb1 inb2 inb3 inb4 inb5 inb6 inb7 hr0 hr1 hr2 hr3 hr4 hr5 hr6 hr7 hq f p0 p1 p2 p3 p4 p5 p6 p7 l
  | ⟨5, _⟩ => exact rows_read_5 M inb0 inb1 inb2 inb3 inb4 inb5 inb6 inb7 hr0 hr1 hr2 hr3 hr4 hr5 hr6 hr7 hq f p0 p1 p2 p3 p4 p5 p6 p7 l
  | ⟨6, _⟩ => exact rows_read_6 M inb0 inb1 inb2 inb3 inb4 inb5 inb6 inb7 hr0 hr1 hr2 hr3 hr4 hr5 hr6 hr7 hq f p0 p1 p2 p3 p4 p5 p6 p7 l
  | ⟨7, _⟩ => exact rows_read_7 M inb0 inb1 inb2 inb3 inb4 inb5 inb6 inb7 hr0 hr1 hr2 hr3 hr4 hr5 hr6 hr7 hq f p0 p1 p2 p3 p4 p5 p6 p7 l

end Cert.GatherRows

end
-- ==== Proof.BitsBody.lean ====
/-
  One grid point of the gather kernel, run. At point `(b, j)` the body reads eight words of the index table — entries
  `8j`, …, `8j + 7` of its row `b` —, and for each starts a copy of the data array's row `(b, word)`, 256 numbers, into
  the matching row of its [1, 8, 256] output tile, each copy on a DMA cell of its own; only then does it wait for the eight.
  So eight copies read the one data array at once (two words may even name one row): the array is held as one read share
  per cell, each copy borrows its cell's share of the row it reads and its wait gives it back. Each copy lands in its own
  row of the tile, which is carved out of the tile while the copy flies and joined back at its wait. The body takes for
  granted that each word names a row of the array (its eight side conditions, `h1` … `h8` here); the frame owes them.
  What the run leaves: the table, the cells (at zero) and the read shares as they were, and the tile holding the eight
  delivered rows (`rowsFn` of the run's eight payloads).
-/
import proofs.«144003_j17798344474844_2_alg».proof.Proof.BitsHost
import proofs.«144003_j17798344474844_2_alg».proof.Proof.GatherRows

set_option maxRecDepth 16384

noncomputable section

namespace Cert.Kernel.Gather

open Cert.Kernel Cert.Kernel.Gen Cert.GatherRows
open Idealize.ShloMosaic Idealize.ShloMosaic.TcCoe Idealize.ShloMosaic.Tactic
open Idealize.ShloMosaic.RowWindows (Row Blk Arr)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The eight DMA cells at zero, and the data array's eight read shares, as the run is handed them and hands them back. -/
abbrev cells0 (c : Dev nD) : sProp 𝕄 :=
  iprop(semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0)
abbrev toks (c : Dev nD) (fh : HbBuf (F := F) c) : sProp 𝕄 :=
  iprop(hbTok c 2 fh ∗ hbTok c 3 fh ∗ hbTok c 4 fh ∗ hbTok c 5 fh ∗ hbTok c 6 fh ∗ hbTok c 7 fh ∗ hbTok c 8 fh ∗ hbTok c 9 fh)

set_option sl_exec.dmaWindow true in
set_option sl_exec.dmaWindowSet true in
set_option maxHeartbeats 4000000 in
/-- The body at point `i` on any whole staging memref: the eight rows it delivers (the witness the run finds), WITH the
    proof that from the tile at any contents, the table's half, the cells at zero, the read shares and the core's waits,
    the body runs to the continuation holding the tile at those eight rows and everything else as it was. -/
noncomputable def kernelRun (c : Dev nD) (i : grid0.Coords) (arg4 : Memref sig .tc .vmem S1x8x256 .f32) (harg4 : arg4.IsWhole)
    (xt : TbBuf (F := F) c) (fh : HbBuf (F := F) c)
    (h1 : k0_chk1 i (tbM.view.readAt (Elt F) (Rect.unit (s := S16x2048) (k0_off1 i) S1x1.size (k0_off1_inb i)).toLoadRect xt (Shape.Idx.first (numel1_S1x1.symm ▸ Nat.one_pos))))
    (h2 : k0_chk2 i (tbM.view.readAt (Elt F) (Rect.unit (s := S16x2048) (k0_off3 i) S1x1.size (k0_off3_inb i)).toLoadRect xt (Shape.Idx.first (numel1_S1x1.symm ▸ Nat.one_pos))))
    (h3 : k0_chk3 i (tbM.view.readAt (Elt F) (Rect.unit (s := S16x2048) (k0_off5 i) S1x1.size (k0_off5_inb i)).toLoadRect xt (Shape.Idx.first (numel1_S1x1.symm ▸ Nat.one_pos))))
    (h4 : k0_chk4 i (tbM.view.readAt (Elt F) (Rect.unit (s := S16x2048) (k0_off7 i) S1x1.size (k0_off7_inb i)).toLoadRect xt (Shape.Idx.first (numel1_S1x1.symm ▸ Nat.one_pos))))
    (h5 : k0_chk5 i (tbM.view.readAt (Elt F) (Rect.unit (s := S16x2048) (k0_off9 i) S1x1.size (k0_off9_inb i)).toLoadRect xt (Shape.Idx.first (numel1_S1x1.symm ▸ Nat.one_pos))))
    (h6 : k0_chk6 i (tbM.view.readAt (Elt F) (Rect.unit (s := S16x2048) (k0_off11 i) S1x1.size (k0_off11_inb i)).toLoadRect xt (Shape.Idx.first (numel1_S1x1.symm ▸ Nat.one_pos))))
    (h7 : k0_chk7 i (tbM.view.readAt (Elt F) (Rect.unit (s := S16x2048) (k0_off13 i) S1x1.size (k0_off13_inb i)).toLoadRect xt (Shape.Idx.first (numel1_S1x1.symm ▸ Nat.one_pos))))
    (h8 : k0_chk8 i (tbM.view.readAt (Elt F) (Rect.unit (s := S16x2048) (k0_off15 i) S1x1.size (k0_off15_inb i)).toLoadRect xt (Shape.Idx.first (numel1_S1x1.symm ▸ Nat.one_pos)))) :
    { P : Fin 8 → (Row 256).Idx → Elt F .f32 //
      ∀ (W : Waits sig Unit) (K : PUnit → sProp 𝕄),
        iprop((∃ d, owns (c : Thread nD τ) arg4 fullShare d) ∗ tbPt c xt ∗ cells0 c ∗ toks c fh ∗ owes (c : Thread nD τ) 0 W
            ∗ (iprop(owns (c : Thread nD τ) arg4 fullShare (rowsFn P) ∗ tbPt c xt ∗ cells0 c ∗ toks c fh ∗ (∃ W', owes (c : Thread nD τ) 0 W')) -∗ K ⟨⟩))
          ⊢ wp frame (wpE (defs₀ (F := F)) Variants.none c none) Set.univ (cc0__gather_kernel i tbM htbM hbM hhbM arg4 harg4 cc0_scratch0) K } := by
  refine ⟨?_, fun W K => ?run⟩
  case run =>
    simp only [cc0__gather_kernel_eq_skeleton]; unfold cc0__gather_kernel_skel
    simp only [k0_part1_eq_skeleton, k0_part2_eq_skeleton, k0_part3_eq_skeleton, k0_part4_eq_skeleton]
    unfold owns
    iintro ⟨⟨%d1, %f1, -, H1⟩, HT, ⟨Hq2, Hq3, Hq4, Hq5, Hq6, Hq7, Hq8, Hq9⟩, ⟨Hh2, Hh3, Hh4, Hh5, Hh6, Hh7, Hh8, Hh9⟩, HW, Hk⟩
    sl_exec (disch := first | sl_exact h1 | sl_exact h2 | sl_exact h3 | sl_exact h4 | sl_exact h5 | sl_exact h6 | sl_exact h7 | sl_exact h8)
    sl_step
    iapply Hk
    isplitl [H1]
    · iexists _; isplitr
      swap; · iexact H1
      ipureintro
      exact rows_read arg4 _ _ _ _ _ _ _ _ _ _ _ _ _ _ _ _ _ _ _ _ _ _ _ _ _ _
    isplitl [HT]; · iexact HT
    isplitl [Hq2 Hq3 Hq4 Hq5 Hq6 Hq7 Hq8 Hq9]
    · isplitl [Hq2]; · iexact Hq2
      isplitl [Hq3]; · iexact Hq3
      isplitl [Hq4]; · iexact Hq4
      isplitl [Hq5]; · iexact Hq5
      isplitl [Hq6]; · iexact Hq6
      isplitl [Hq7]; · iexact Hq7
      isplitl [Hq8]; · iexact Hq8
      iexact Hq9
    isplitl [Hh2 Hh3 Hh4 Hh5 Hh6 Hh7 Hh8 Hh9]
    · isplitl [Hh2]; · iexact Hh2
      isplitl [Hh3]; · iexact Hh3
      isplitl [Hh4]; · iexact Hh4
      isplitl [Hh5]; · iexact Hh5
      isplitl [Hh6]; · iexact Hh6
      isplitl [Hh7]; · iexact Hh7
      isplitl [Hh8]; · iexact Hh8
      iexact Hh9
    iexists _; iexact HW

end Cert.Kernel.Gather

end
-- ==== Proof.LibTypedRef.lean ====
/-
  A typed buffer reference moves contents between the tensor value's type and the buffer's own type along the
  equation of the two types; moving there and back is the identity.  Stated for ANY typed reference (the equation a
  variable), so that it removes the round trip around an operation's result without unfolding the operation.
-/
import Idealize.ShloMosaic.Lib.StableHlo

namespace Idealize.ShloMosaic.StableHlo.TRef

variable {sig : RefSig} {Val : EltTy → Type} {T : BufTy}

/-- Contents stored at a typed reference and read back are the contents. -/
theorem ofBuf_toBuf (x : TRef sig T) (v : T.Contents Val) : x.ofBuf (x.toBuf v) = v := by
  obtain ⟨r, h, h1, h2⟩ := x
  subst h
  rfl

/-- Contents read at a typed reference and stored back are the contents. -/
theorem toBuf_ofBuf (x : TRef sig T) (v : x.ref.ty.Contents Val) : x.toBuf (x.ofBuf v) = v := by
  obtain ⟨r, h, h1, h2⟩ := x
  subst h
  rfl

end Idealize.ShloMosaic.StableHlo.TRef
-- ==== Proof.BitsTable.lean ====
/-
  The index table the kernel prefetches is `clip(idx, 0, 8191)` taken entry by entry: signed `min(8191, max(0, idx))`.
  Whatever the index array holds, every entry of the table therefore lies in [0, 8191] and names a row of the data
  array's 8192; that is all the body takes for granted of the words it loads, so its eight side conditions hold at every
  grid point for every launch memory (`chk1` … `chk8`). When the index array's entries already lie in [0, 8192) the
  clip changes nothing and the table is the index array (`tbl_of_inRange`).
-/
import proofs.«144003_j17798344474844_2_alg».proof.Proof.BitsHost
import proofs.«144003_j17798344474844_2_alg».proof.Proof.LibTypedRef

set_option maxRecDepth 16384

noncomputable section

namespace Cert.Kernel.Gather

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

variable (m : (ℓ : Loc nD τ sig) → Buf (Elt F) ℓ)

/-- A 32-bit word clipped into [0, 8191] as signed integers is below 8192 read unsigned. -/
theorem clip_lt (v : BitVec 32) : (IntOp.minsi 8191#32 (IntOp.maxsi 0#32 v)).toNat < 8192 := by
  unfold IntOp.minsi IntOp.maxsi
  by_cases h0 : v.slt 0#32
  · rw [if_pos h0]; by_cases h1 : (8191#32).slt 0#32
    · rw [if_pos h1]; decide
    · rw [if_neg h1]; decide
  · rw [if_neg h0]
    by_cases h1 : (8191#32).slt v
    · rw [if_pos h1]; decide
    · rw [if_neg h1]
      simp only [BitVec.slt, decide_eq_true_eq, BitVec.toInt, BitVec.toNat_ofNat, Bool.not_eq_true, decide_eq_false_iff_not] at h0 h1
      omega

/-- A word already in [0, 8192) is left alone by the clip. -/
theorem clip_of_lt (v : BitVec 32) (hv : v.toNat < 8192) : IntOp.minsi 8191#32 (IntOp.maxsi 0#32 v) = v := by
  unfold IntOp.minsi IntOp.maxsi
  have h0 : ¬ (v.slt 0#32 = true) := by
    simp only [BitVec.slt, decide_eq_true_eq, BitVec.toInt, BitVec.toNat_ofNat]; omega
  have h1 : ¬ ((8191#32).slt v = true) := by
    simp only [BitVec.slt, decide_eq_true_eq, BitVec.toInt, BitVec.toNat_ofNat]; omega
  rw [if_neg h0, if_neg h1]

/-- The table when the region is entered: the index array clipped, entry by entry. -/
theorem V_tbl (c : Dev nD) :
    (V m c main_v0 : IVec S16x2048 32)
      = minsi (broadcastInDim S16x2048 ![] bcast_S_S16x2048 (constantI S_ 32 8191#32))
          (maxsi (broadcastInDim S16x2048 ![] bcast_S_S16x2048 (constantI S_ 32 0#32)) (m ((c : Thread nD τ).loc main_arg1))) := by
  dsimp only [V]
  simp only [hostOps0, hostOps0_1, List.flatten_cons, List.flatten_nil, List.append_nil, List.cons_append, List.nil_append]
  after_results
  simp only [StableHlo.TRef.ofBuf_toBuf]
  rfl

theorem V_tbl_apply (c : Dev nD) (y : S16x2048.Idx) :
    (V m c main_v0 : IVec S16x2048 32) y = IntOp.minsi 8191#32 (IntOp.maxsi 0#32 ((m ((c : Thread nD τ).loc main_arg1) : IVec S16x2048 32) y)) := by
  rw [V_tbl]; rfl

/-- Every entry of the table names a row of the data array. -/
theorem tbl_lt (c : Dev nD) (y : S16x2048.Idx) : ((tblAt m c : IVec S16x2048 32) y).toNat < 8192 := by
  rw [tblAt_apply, V_tbl_apply]; exact clip_lt _

/-- When the index array's entries lie in [0, 8192) the table is the index array. -/
theorem tbl_of_inRange (c : Dev nD) (h : ∀ y : S16x2048.Idx, ((m ((c : Thread nD τ).loc main_arg1) : IVec S16x2048 32) y).toNat < 8192)
    (y : S16x2048.Idx) : (tblAt m c : IVec S16x2048 32) y = (m ((c : Thread nD τ).loc main_arg1) : IVec S16x2048 32) y := by
  rw [tblAt_apply, V_tbl_apply]; exact clip_of_lt _ (h y)

/-- A word the body loads from the table, through any one-entry rectangle, is an entry of the table. -/
theorem word_lt (c : Dev nD) (R : LoadRect S16x2048) (x : R.shape.Idx) :
    (tbM.view.readAt (Elt F) R (tblAt m c) x : BitVec 32).toNat < 8192 := by
  rw [View.readAt_apply, View.read_apply, cast_eq]; exact tbl_lt m c _

/-- A word below 8192 names a row of the data array: the row's block `[1, 1, 256]` at `(b, word, 0)` lies inside it. -/
theorem row_inb (i : grid0.Coords) (v : BitVec 32) (hv : v.toNat < 8192) :
    ∀ a : Fin 3, (![(BitVec.ofNat 32 (i 0).val).toNat, v.toNat, 0] : Fin 3 → ℕ) a + S1x1x256.size a ≤ S16x8192x256.size a := by
  intro a
  have hi : (i 0).val < 16 := (i 0).isLt
  match a with
  | ⟨0, _⟩ => show (BitVec.ofNat 32 (i 0).val).toNat + 1 ≤ 16; rw [BitVec.toNat_ofNat]; omega
  | ⟨1, _⟩ => show v.toNat + 1 ≤ 8192; omega
  | ⟨2, _⟩ => show 0 + 256 ≤ 256; omega

theorem chk1_of_lt (i : grid0.Coords) (v : BitVec 32) (hv : v.toNat < 8192) : k0_chk1 i v := ⟨row_inb i v hv, row_inb i v hv⟩
theorem chk2_of_lt (i : grid0.Coords) (v : BitVec 32) (hv : v.toNat < 8192) : k0_chk2 i v := ⟨row_inb i v hv, row_inb i v hv⟩
theorem chk3_of_lt (i : grid0.Coords) (v : BitVec 32) (hv : v.toNat < 8192) : k0_chk3 i v := ⟨row_inb i v hv, row_inb i v hv⟩
theorem chk4_of_lt (i : grid0.Coords) (v : BitVec 32) (hv : v.toNat < 8192) : k0_chk4 i v := ⟨row_inb i v hv, row_inb i v hv⟩
theorem chk5_of_lt (i : grid0.Coords) (v : BitVec 32) (hv : v.toNat < 8192) : k0_chk5 i v := ⟨row_inb i v hv, row_inb i v hv⟩
theorem chk6_of_lt (i : grid0.Coords) (v : BitVec 32) (hv : v.toNat < 8192) : k0_chk6 i v := ⟨row_inb i v hv, row_inb i v hv⟩
theorem chk7_of_lt (i : grid0.Coords) (v : BitVec 32) (hv : v.toNat < 8192) : k0_chk7 i v := ⟨row_inb i v hv, row_inb i v hv⟩
theorem chk8_of_lt (i : grid0.Coords) (v : BitVec 32) (hv : v.toNat < 8192) : k0_chk8 i v := row_inb i v hv

/-- The body's side condition 1 holds at every point. -/
theorem chk1 (c : Dev nD) (i : grid0.Coords) :
    k0_chk1 i (tbM.view.readAt (Elt F) (Rect.unit (s := S16x2048) (k0_off1 i) S1x1.size (k0_off1_inb i)).toLoadRect (tblAt m c) (Shape.Idx.first (numel1_S1x1.symm ▸ Nat.one_pos))) :=
  chk1_of_lt i _ (word_lt m c _ _)
/-- The body's side condition 2 holds at every point. -/
theorem chk2 (c : Dev nD) (i : grid0.Coords) :
    k0_chk2 i (tbM.view.readAt (Elt F) (Rect.unit (s := S16x2048) (k0_off3 i) S1x1.size (k0_off3_inb i)).toLoadRect (tblAt m c) (Shape.Idx.first (numel1_S1x1.symm ▸ Nat.one_pos))) :=
  chk2_of_lt i _ (word_lt m c _ _)
/-- The body's side condition 3 holds at every point. -/
theorem chk3 (c : Dev nD) (i : grid0.Coords) :
    k0_chk3 i (tbM.view.readAt (Elt F) (Rect.unit (s := S16x2048) (k0_off5 i) S1x1.size (k0_off5_inb i)).toLoadRect (tblAt m c) (Shape.Idx.first (numel1_S1x1.symm ▸ Nat.one_pos))) :=
  chk3_of_lt i _ (word_lt m c _ _)
/-- The body's side condition 4 holds at every point. -/
theorem chk4 (c : Dev nD) (i : grid0.Coords) :
    k0_chk4 i (tbM.view.readAt (Elt F) (Rect.unit (s := S16x2048) (k0_off7 i) S1x1.size (k0_off7_inb i)).toLoadRect (tblAt m c) (Shape.Idx.first (numel1_S1x1.symm ▸ Nat.one_pos))) :=
  chk4_of_lt i _ (word_lt m c _ _)
/-- The body's side condition 5 holds at every point. -/
theorem chk5 (c : Dev nD) (i : grid0.Coords) :
    k0_chk5 i (tbM.view.readAt (Elt F) (Rect.unit (s := S16x2048) (k0_off9 i) S1x1.size (k0_off9_inb i)).toLoadRect (tblAt m c) (Shape.Idx.first (numel1_S1x1.symm ▸ Nat.one_pos))) :=
  chk5_of_lt i _ (word_lt m c _ _)
/-- The body's side condition 6 holds at every point. -/
theorem chk6 (c : Dev nD) (i : grid0.Coords) :
    k0_chk6 i (tbM.view.readAt (Elt F) (Rect.unit (s := S16x2048) (k0_off11 i) S1x1.size (k0_off11_inb i)).toLoadRect (tblAt m c) (Shape.Idx.first (numel1_S1x1.symm ▸ Nat.one_pos))) :=
  chk6_of_lt i _ (word_lt m c _ _)
/-- The body's side condition 7 holds at every point. -/
theorem chk7 (c : Dev nD) (i : grid0.Coords) :
    k0_chk7 i (tbM.view.readAt (Elt F) (Rect.unit (s := S16x2048) (k0_off13 i) S1x1.size (k0_off13_inb i)).toLoadRect (tblAt m c) (Shape.Idx.first (numel1_S1x1.symm ▸ Nat.one_pos))) :=
  chk7_of_lt i _ (word_lt m c _ _)
/-- The body's side condition 8 holds at every point. -/
theorem chk8 (c : Dev nD) (i : grid0.Coords) :
    k0_chk8 i (tbM.view.readAt (Elt F) (Rect.unit (s := S16x2048) (k0_off15 i) S1x1.size (k0_off15_inb i)).toLoadRect (tblAt m c) (Shape.Idx.first (numel1_S1x1.symm ▸ Nat.one_pos))) :=
  chk8_of_lt i _ (word_lt m c _ _)

end Cert.Kernel.Gather

end
-- ==== Proof.BitsFrame.lean ====
/-
  The gather kernel's run and its frame. The proof data of the one pipeline: its output array as the region finds it;
  after the body at point `t` the output tile holds the eight rows the point's copies delivered (`outAt`); the region's
  invariant is the kernel's eight DMA cells at zero, the data array (left in HBM, read by the kernel's own copies) whole
  at its launch contents, and the table's half. The body obligation deals the data array into one read share per cell,
  runs the body (`kernelRun`, its side conditions from the table's clip) and puts the array back together. The launch
  theorem for a region with a prefetched table whose kernel moves an HBM operand by its own copies then gives the run
  (`run_main`), whose post read at the two argument arrays — neither a window's array, neither written by the host
  prefix — is the frame claim (`frame`).
-/
import proofs.«144003_j17798344474844_2_alg».proof.Proof.BitsBody
import proofs.«144003_j17798344474844_2_alg».proof.Proof.BitsTable

set_option maxRecDepth 16384

noncomputable section

namespace Cert.Kernel.Gather

open Cert.Kernel Cert.Kernel.Gen Cert.GatherRows
open Idealize.ShloMosaic Idealize.ShloMosaic.TcCoe Idealize.ShloMosaic.Tactic
open Idealize.ShloMosaic.RowWindows (Row Blk Arr)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The kernel's own cells and the array it reads by its own copies -/

/-- The kernel's eight DMA cells (the pool's cells 2 … 9; cells 0 and 1 are the output window's). -/
abbrev osem : Fin 8 → SemLoc sig := fun j =>
  (![SemLoc.dma 2, SemLoc.dma 3, SemLoc.dma 4, SemLoc.dma 5, SemLoc.dma 6, SemLoc.dma 7, SemLoc.dma 8, SemLoc.dma 9] : Fin 8 → SemLoc sig) j
theorem ownSemFacts : Pipeline.OwnSemFacts spec0 osem := by decide
theorem ownSems_eq (c : Dev nD) :
    (Pipeline.ownSems0 (Ix := Unit) (Name := ℕ) (U := Pipeline.UD sig nD τ) (Lvl := ℕ) (Val := Elt F) (τ := τ) osem c : sProp 𝕄) = cells0 c := by
  rw [Pipeline.ownSems0_eq_of_list c osem [0, 1, 2, 3, 4, 5, 6, 7] (by decide) (by decide)]; rfl
/-- The data array: unscoped, no window's array, not the table. -/
def H0 : Finset (Ref sig .tc) := {main_arg0}
theorem H0_sub : H0 ⊆ Pipeline.restRefsP sig pre0 spec0 := by decide
theorem hbmPts_eq (c : Dev nD) :
    (bigSep H0 (fun b => ((c : Thread nD τ).loc b) ↦{fullShare} V m c b) : sProp 𝕄) = iprop(hbPt c (V m c main_arg0)) := by
  rw [BI.bigSep_eq_bigSepL_of_eq [main_arg0] (by decide) (by decide)]; rfl
/-- The region's invariant, conjunct by conjunct. -/
theorem PhiD_eq (c : Dev nD) :
    (Pipeline.ΦD osem spec0 H0 (V m) c : sProp 𝕄) = iprop(BI.emp ∗ (∃ r, prngReg c r) ∗ cells0 c ∗ hbPt c (V m c main_arg0)) := by
  rw [Pipeline.ΦD_eq, scopedRest0_eq, ownSems_eq, hbmPts_eq]

/-! ## The data array dealt into one read share per cell -/

/-- What is left of the array's full share beside the eight cells' read shares. -/
abbrev hbRest (c : Dev nD) (f : HbBuf (F := F) c) : sProp 𝕄 :=
  iprop((hbM.view.loc (c : Thread nD τ) ↦{Transfers.shareDrop fullShare 10} f) ∗ hbTok c 0 f ∗ hbTok c 1 f)

theorem toks_range_eq (c : Dev nD) (f : HbBuf (F := F) c) :
    (BI.bigSep (Finset.range 10) (fun i => (hbM.view.loc (c : Thread nD τ) ↦{Transfers.shareTokN fullShare i} f : sProp 𝕄)))
      = iprop(hbTok c 0 f ∗ hbTok c 1 f ∗ hbTok c 2 f ∗ hbTok c 3 f ∗ hbTok c 4 f ∗ hbTok c 5 f ∗ hbTok c 6 f ∗ hbTok c 7 f ∗ hbTok c 8 f ∗ hbTok c 9 f) := by
  rw [BI.bigSep_eq_bigSepL_of_eq [0, 1, 2, 3, 4, 5, 6, 7, 8, 9] (by decide) (by decide)]; rfl

theorem hbPt_split (c : Dev nD) (f : HbBuf (F := F) c) : (hbPt c f : sProp 𝕄) ⊢ iprop(hbRest c f ∗ toks c f) := by
  refine ((Transfers.pointsTo_toks_range (Ix := Unit) (Name := ℕ) (U := Pipeline.UD sig nD τ) (Lvl := ℕ) fullShare 10).1).trans ?_
  rw [toks_range_eq]
  iintro ⟨Hd, H0, H1, H2, H3, H4, H5, H6, H7, H8, H9⟩
  isplitl [Hd H0 H1]
  · isplitl [Hd]; · iexact Hd
    isplitl [H0]; · iexact H0
    iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem hbPt_join (c : Dev nD) (f : HbBuf (F := F) c) : iprop(hbRest c f ∗ toks c f) ⊢ (hbPt c f : sProp 𝕄) := by
  refine BIBase.Entails.trans ?_ ((Transfers.pointsTo_toks_range (Ix := Unit) (Name := ℕ) (U := Pipeline.UD sig nD τ) (Lvl := ℕ) fullShare 10).2)
  rw [toks_range_eq]
  iintro ⟨⟨Hd, H0, H1⟩, H2, H3, H4, H5, H6, H7, H8, H9⟩
  isplitl [Hd]; · iexact Hd
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-! ## The pipeline's proof data -/

/-- The output window's current staging memref at point `t`, as the pipeline passes it, and the body on it. -/
abbrev ms (t : Fin (cfgM m).N) : Memref sig .tc .vmem S1x8x256 .f32 := spec0_0.stage ((cfgM m).slots t 0)
abbrev hs (t : Fin (cfgM m).N) : (ms m t).IsWhole := hstage0_0 (((cfgM m).slots t 0).cast nbuf0_0)
abbrev bodyAt (t : Fin (cfgM m).N) : Prog (TpuEff nD τ sig (Elt F) Λ₀ .tc) PUnit :=
  cc0__gather_kernel (grid0.coords t) tbM htbM hbM hhbM (ms m t) (hs m t) cc0_scratch0

/-- The eight rows point `t`'s copies deliver. -/
def rowsAt (c : Dev nD) (t : Fin (cfgM m).N) : Fin 8 → (Row 256).Idx → Elt F .f32 :=
  (kernelRun c (grid0.coords t) (ms m t) (hs m t) (tblAt m c) (V m c main_arg0)
    (chk1 m c (grid0.coords t)) (chk2 m c (grid0.coords t)) (chk3 m c (grid0.coords t)) (chk4 m c (grid0.coords t)) (chk5 m c (grid0.coords t)) (chk6 m c (grid0.coords t)) (chk7 m c (grid0.coords t)) (chk8 m c (grid0.coords t))).1
/-- What the output tile holds after the body at point `t`. -/
def outAt (c : Dev nD) (t : Fin (cfgM m).N) : Tile.Idx → Elt F .f32 := rowsFn (rowsAt m c t)

def dats (_ : Fin 1) (c : Dev nD) : Dat τ (Elt F) Unit ℕ (Pipeline.UD sig nD τ) ℕ (cfgM m) c where
  A w := V m c (Pipeline.arrRef spec0 w)
  after w t := match w with
    | ⟨0, _⟩ => outAt m c t
  Φ _ := iprop(Pipeline.ΦD osem spec0 H0 (V m) c ∗ Pipeline.ΦT pre0 (tbl m) c)
  q _ := fullShare
  owed _ := 0

theorem A_eq (c : Dev nD) (w : Fin (cfgM m).W) : (dats m 0 c).A w = V m c (Pipeline.arrRef spec0 w) := by
  dsimp only [dats]
theorem after0 (c : Dev nD) (t : Fin (cfgM m).N) : (dats m 0 c).after 0 t = outAt m c t := by dsimp only [dats]; try rfl

/-! ## The body obligation -/

theorem sound_body (c : Dev nD) (t : Fin (cfgM m).N) :
    iprop((dats m 0 c).Φ t.castSucc ∗ (dats m 0 c).owesAt () t.castSucc
        ∗ (∃ d, owns (c : Thread nD τ) (ms m t) fullShare ((dats m 0 c).before 0 t d)))
      ⊢ wp frame (wpE (defs₀ (F := F)) Variants.none c none) Set.univ (bodyAt m t) (fun _ =>
          iprop((dats m 0 c).Φ t.succ ∗ (dats m 0 c).owesAt () t.succ
            ∗ owns (c : Thread nD τ) (ms m t) fullShare ((dats m 0 c).after 0 t))) := by
  rw [show (dats m 0 c).Φ t.succ = (dats m 0 c).Φ t.castSucc from rfl, after0]
  rw [show (dats m 0 c).Φ t.castSucc = iprop(Pipeline.ΦD osem spec0 H0 (V m) c ∗ Pipeline.ΦT pre0 (tbl m) c) from rfl, PhiD_eq, PhiT_eq]
  unfold Dat.owesAt Pipeline.owesWithin
  rw [show (dats m 0 c).owed t.castSucc = 0 from rfl, show (dats m 0 c).owed t.succ = 0 from rfl]
  unfold outAt rowsAt bodyAt
  iintro ⟨⟨⟨-, Hg, Hq, Hh⟩, HT⟩, ⟨%W, -, HW⟩, ⟨%d0, H0⟩⟩
  ihave Hh' := (hbPt_split c (V m c main_arg0)) $$ Hh
  icases Hh' with ⟨Hr, Htk⟩
  iapply ((kernelRun c (grid0.coords t) (ms m t) (hs m t) (tblAt m c) (V m c main_arg0)
    (chk1 m c (grid0.coords t)) (chk2 m c (grid0.coords t)) (chk3 m c (grid0.coords t)) (chk4 m c (grid0.coords t)) (chk5 m c (grid0.coords t)) (chk6 m c (grid0.coords t)) (chk7 m c (grid0.coords t)) (chk8 m c (grid0.coords t))).2 W _)
  isplitl [H0]; · iexists _; iexact H0
  isplitl [HT]; · iexact HT
  isplitl [Hq]; · iexact Hq
  isplitl [Htk]; · iexact Htk
  isplitl [HW]; · iexact HW
  iintro ⟨H0, HT, Hq, Htk, ⟨%W', HW'⟩⟩
  isplitl [Hg Hq Hr Htk HT]
  · isplitr [HT]
    · isplitr [Hg Hq Hr Htk]; · iempintro
      isplitl [Hg]; · iexact Hg
      isplitl [Hq]; · iexact Hq
      iapply (hbPt_join c (V m c main_arg0))
      isplitl [Hr]; · iexact Hr
      iexact Htk
    · iexact HT
  isplitl [HW']
  · iexists W'; isplitr; · ipureintro; exact fun _ _ => Or.inl trivial
    iexact HW'
  iexact H0

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates; every final state has the output array at what the library
    computes from the proof data and every other unscoped buffer as the region found it. -/
theorem run_main : θ_run defs (onTc (τ := τ) (main (F := F))) (s₀ m ρ) (Pipeline.FramePost (Pipeline.pin pcfgs fun _ => adm m) (dats m) 0 (V m)) :=
  Pipeline.θ_run_frameP_dma pcfgs (fun _ => adm m) (dats m) (0 : Fin 1) launch0 osem defs₀ Variants.none ownSemFacts H0 H0_sub m ρ main
    (hbody := fun c => (body_obligation m c).loose) (hshare := fun c => (dats m 0 c).share_full fun _ => rfl)
    (howed := fun _ _ => rfl) (V := V m) (hmain := hmain m Variants.none) (hA := A_eq m) (hpf := V_pre m)
    (hin := fun _ => .rfl)
    (hout := fun c => (show iprop(Pipeline.ΦD osem spec0 H0 (V m) c ∗ Pipeline.ΦT pre0 (tbl m) c) ⊢ Pipeline.ΦD osem spec0 H0 (V m) c from by
      iintro ⟨H, -⟩; iexact H))

/-- The frame: the program runs, and its two argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_arg0 (by decide : main_arg0 ∈ Pipeline.restRefs sig spec0)).trans (V_main_arg0 m c),
     ((h c).2 main_arg1 (by decide : main_arg1 ∈ Pipeline.restRefs sig spec0)).trans (V_main_arg1 m c)⟩) (run_main m ρ)

end Cert.Kernel.Gather

end
-- ==== Proof.IdealHost.lean ====
/-
  The host side of the gather kernel's run. Before the region is entered, @main computes the index table the kernel
  prefetches: `clip(idx, 0, 8191)`, two constants and the six operations of the outlined `clip`. This module names the
  buffers as the region finds them (`V`), shows that @main is that line of host operations followed by the region
  (`hmain`), that no host operation writes an argument array (`V_main_arg0`, `V_main_arg1`), and names the table's
  contents at the region's entry (`tbl`), which are admissible for the pipeline whatever they are (its windows' index
  maps read no table).
-/
import proofs.«144003_j17798344474844_2_alg».proof.Proof.Gen.KernelIdeal.Launch
import proofs.«144003_j17798344474844_2_alg».proof.Proof.Gen.KernelIdeal.Skeleton
import Idealize.ShloMosaic.Lib.Pipeline.FrameBody
import Idealize.ShloMosaic.Lib.Pipeline.Frame
import Idealize.ShloMosaic.Lib.StableHlo.Run
import Idealize.ShloMosaic.Lib.Ring
import Idealize.ShloMosaic.Lib.Tactic

set_option maxRecDepth 16384

noncomputable section

namespace Cert.KernelIdeal.Gather

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## @main up to the region -/

/-- Core `c`'s buffers when the region is entered: the launch contents after the two constants and the six
    operations of `clip`. -/
abbrev V (c : Dev nD) (b : Ref sig .tc) : Buf (Elt F) ((c : Thread nD τ).loc b) :=
  StableHlo.after (List.flatten [hostOps0, hostOps0_1]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor

/-- @main is the two lines of host operations, then the region. -/
theorem hmain (𝒱₀ : Variants) : Pipeline.HMainP (Ix := Unit) (Name := ℕ) (U := Pipeline.UD sig nD τ) (Lvl := ℕ) pcfgs 0 defs₀ 𝒱₀ m (main (F := F)) (V m) :=
  Pipeline.hmainP_prefixes pcfgs 0 defs₀ 𝒱₀ m main [hostOps0, hostOps0_1] (by simp only [List.Forall]; exact ⟨hostOps0_sub, hostOps0_1_sub⟩)
    (by simp only [List.Forall]; exact ⟨hostOps0_fresh, hostOps0_1_fresh⟩) main_chain

/-- No host operation writes the data array: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes, Finset.mem_singleton]
    repeat' apply And.intro
    all_goals exact StableHlo.devRef_ne_of_ne (by decide)))
/-- No host operation writes the index array: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes, Finset.mem_singleton]
    repeat' apply And.intro
    all_goals exact StableHlo.devRef_ne_of_ne (by decide)))

/-! ## The prefetched table -/

/-- The table's contents when the region is entered (the program runs on one device). -/
def tbl : pre0.Contents (Elt F) := fun j => V m (0 : Dev nD) (pre0.ref j)
/-- On every device the table holds those contents. -/
theorem V_pre (c : Dev nD) (j : Fin 1) : V m c (pre0.ref j) = tbl m j := by
  obtain rfl : c = 0 := Subsingleton.elim _ _; rfl
/-- Any contents are admissible: no window's index map reads the table. -/
abbrev adm : (pcfg0 (F := F)).Adm := ⟨tbl m, trivial⟩
abbrev cfgM : Pipeline.Cfg sig Λ₀ := cfg0 (adm m)

/-! ## The operands the body is handed beside its window -/

/-- The table, and the data array left in HBM, as the body is handed them: whole buffers. -/
abbrev tbM : Memref sig .tc .smem S16x2048 .i32 := Memref.whole main_v0
abbrev htbM : tbM.IsWhole := Memref.isWhole_whole _
abbrev hbM : Memref sig .tc .hbm S16x8192x256 .f32 := Memref.whole main_arg0
abbrev hhbM : hbM.IsWhole := Memref.isWhole_whole _
abbrev TbBuf (c : Dev nD) : Type := Buf (Elt F) (tbM.view.loc (c : Thread nD τ))
abbrev HbBuf (c : Dev nD) : Type := Buf (Elt F) (hbM.view.loc (c : Thread nD τ))
/-- The table held at the half the region lends the body (read-only). -/
abbrev tbPt (c : Dev nD) (f : TbBuf (F := F) c) : sProp 𝕄 := tbM.view.loc (c : Thread nD τ) ↦{fullShare.right} f
/-- The data array held at the read share of DMA cell `k`. -/
abbrev hbTok (c : Dev nD) (k : ℕ) (f : HbBuf (F := F) c) : sProp 𝕄 := hbM.view.loc (c : Thread nD τ) ↦{Transfers.shareTokN fullShare k} f
/-- The data array held whole. -/
abbrev hbPt (c : Dev nD) (f : HbBuf (F := F) c) : sProp 𝕄 := hbM.view.loc (c : Thread nD τ) ↦{fullShare} f

/-- The table's contents on core `c`, as the body holds them. -/
def tblAt (c : Dev nD) : TbBuf (F := F) c := V m c main_v0
theorem tblAt_apply (c : Dev nD) (y : S16x2048.Idx) : (tblAt m c : IVec S16x2048 32) y = (V m c main_v0 : IVec S16x2048 32) y := rfl

/-- The table's half, as the region hands it to the body. -/
theorem PhiT_eq (c : Dev nD) : (Pipeline.ΦT pre0 (tbl m) c : sProp 𝕄) = iprop(tbPt c (tblAt m c)) := by
  obtain rfl : c = 0 := Subsingleton.elim _ _
  unfold Pipeline.ΦT Pipeline.prefHeld
  rw [show (Finset.univ : Finset (Fin 1)) = {(0 : Fin 1)} from by decide, bigSep_singleton]
  rfl

end Cert.KernelIdeal.Gather

end
-- ==== Proof.IdealBody.lean ====
/-
  One grid point of the gather kernel, run. At point `(b, j)` the body reads eight words of the index table — entries
  `8j`, …, `8j + 7` of its row `b` —, and for each starts a copy of the data array's row `(b, word)`, 256 numbers, into
  the matching row of its [1, 8, 256] output tile, each copy on a DMA cell of its own; only then does it wait for the eight.
  So eight copies read the one data array at once (two words may even name one row): the array is held as one read share
  per cell, each copy borrows its cell's share of the row it reads and its wait gives it back. Each copy lands in its own
  row of the tile, which is carved out of the tile while the copy flies and joined back at its wait. The body takes for
  granted that each word names a row of the array (its eight side conditions, `h1` … `h8` here); the frame owes them.
  What the run leaves: the table, the cells (at zero) and the read shares as they were, and the tile holding the eight
  delivered rows (`rowsFn` of the run's eight payloads).
-/
import proofs.«144003_j17798344474844_2_alg».proof.Proof.IdealHost
import proofs.«144003_j17798344474844_2_alg».proof.Proof.GatherRows

set_option maxRecDepth 16384

noncomputable section

namespace Cert.KernelIdeal.Gather

open Cert.KernelIdeal Cert.KernelIdeal.Gen Cert.GatherRows
open Idealize.ShloMosaic Idealize.ShloMosaic.TcCoe Idealize.ShloMosaic.Tactic
open Idealize.ShloMosaic.RowWindows (Row Blk Arr)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The eight DMA cells at zero, and the data array's eight read shares, as the run is handed them and hands them back. -/
abbrev cells0 (c : Dev nD) : sProp 𝕄 :=
  iprop(semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0)
abbrev toks (c : Dev nD) (fh : HbBuf (F := F) c) : sProp 𝕄 :=
  iprop(hbTok c 2 fh ∗ hbTok c 3 fh ∗ hbTok c 4 fh ∗ hbTok c 5 fh ∗ hbTok c 6 fh ∗ hbTok c 7 fh ∗ hbTok c 8 fh ∗ hbTok c 9 fh)

set_option sl_exec.dmaWindow true in
set_option sl_exec.dmaWindowSet true in
set_option maxHeartbeats 4000000 in
/-- The body at point `i` on any whole staging memref: the eight rows it delivers (the witness the run finds), WITH the
    proof that from the tile at any contents, the table's half, the cells at zero, the read shares and the core's waits,
    the body runs to the continuation holding the tile at those eight rows and everything else as it was. -/
noncomputable def kernelRun (c : Dev nD) (i : grid0.Coords) (arg4 : Memref sig .tc .vmem S1x8x256 .f32) (harg4 : arg4.IsWhole)
    (xt : TbBuf (F := F) c) (fh : HbBuf (F := F) c)
    (h1 : k0_chk1 i (tbM.view.readAt (Elt F) (Rect.unit (s := S16x2048) (k0_off1 i) S1x1.size (k0_off1_inb i)).toLoadRect xt (Shape.Idx.first (numel1_S1x1.symm ▸ Nat.one_pos))))
    (h2 : k0_chk2 i (tbM.view.readAt (Elt F) (Rect.unit (s := S16x2048) (k0_off3 i) S1x1.size (k0_off3_inb i)).toLoadRect xt (Shape.Idx.first (numel1_S1x1.symm ▸ Nat.one_pos))))
    (h3 : k0_chk3 i (tbM.view.readAt (Elt F) (Rect.unit (s := S16x2048) (k0_off5 i) S1x1.size (k0_off5_inb i)).toLoadRect xt (Shape.Idx.first (numel1_S1x1.symm ▸ Nat.one_pos))))
    (h4 : k0_chk4 i (tbM.view.readAt (Elt F) (Rect.unit (s := S16x2048) (k0_off7 i) S1x1.size (k0_off7_inb i)).toLoadRect xt (Shape.Idx.first (numel1_S1x1.symm ▸ Nat.one_pos))))
    (h5 : k0_chk5 i (tbM.view.readAt (Elt F) (Rect.unit (s := S16x2048) (k0_off9 i) S1x1.size (k0_off9_inb i)).toLoadRect xt (Shape.Idx.first (numel1_S1x1.symm ▸ Nat.one_pos))))
    (h6 : k0_chk6 i (tbM.view.readAt (Elt F) (Rect.unit (s := S16x2048) (k0_off11 i) S1x1.size (k0_off11_inb i)).toLoadRect xt (Shape.Idx.first (numel1_S1x1.symm ▸ Nat.one_pos))))
    (h7 : k0_chk7 i (tbM.view.readAt (Elt F) (Rect.unit (s := S16x2048) (k0_off13 i) S1x1.size (k0_off13_inb i)).toLoadRect xt (Shape.Idx.first (numel1_S1x1.symm ▸ Nat.one_pos))))
    (h8 : k0_chk8 i (tbM.view.readAt (Elt F) (Rect.unit (s := S16x2048) (k0_off15 i) S1x1.size (k0_off15_inb i)).toLoadRect xt (Shape.Idx.first (numel1_S1x1.symm ▸ Nat.one_pos)))) :
    { P : Fin 8 → (Row 256).Idx → Elt F .f32 //
      ∀ (W : Waits sig Unit) (K : PUnit → sProp 𝕄),
        iprop((∃ d, owns (c : Thread nD τ) arg4 fullShare d) ∗ tbPt c xt ∗ cells0 c ∗ toks c fh ∗ owes (c : Thread nD τ) 0 W
            ∗ (iprop(owns (c : Thread nD τ) arg4 fullShare (rowsFn P) ∗ tbPt c xt ∗ cells0 c ∗ toks c fh ∗ (∃ W', owes (c : Thread nD τ) 0 W')) -∗ K ⟨⟩))
          ⊢ wp frame (wpE (defs₀ (F := F)) Variants.none c none) Set.univ (cc0__gather_kernel i tbM htbM hbM hhbM arg4 harg4 cc0_scratch0) K } := by
  refine ⟨?_, fun W K => ?run⟩
  case run =>
    simp only [cc0__gather_kernel_eq_skeleton]; unfold cc0__gather_kernel_skel
    simp only [k0_part1_eq_skeleton, k0_part2_eq_skeleton, k0_part3_eq_skeleton, k0_part4_eq_skeleton]
    unfold owns
    iintro ⟨⟨%d1, %f1, -, H1⟩, HT, ⟨Hq2, Hq3, Hq4, Hq5, Hq6, Hq7, Hq8, Hq9⟩, ⟨Hh2, Hh3, Hh4, Hh5, Hh6, Hh7, Hh8, Hh9⟩, HW, Hk⟩
    sl_exec (disch := first | sl_exact h1 | sl_exact h2 | sl_exact h3 | sl_exact h4 | sl_exact h5 | sl_exact h6 | sl_exact h7 | sl_exact h8)
    sl_step
    iapply Hk
    isplitl [H1]
    · iexists _; isplitr
      swap; · iexact H1
      ipureintro
      exact rows_read arg4 _ _ _ _ _ _ _ _ _ _ _ _ _ _ _ _ _ _ _ _ _ _ _ _ _ _
    isplitl [HT]; · iexact HT
    isplitl [Hq2 Hq3 Hq4 Hq5 Hq6 Hq7 Hq8 Hq9]
    · isplitl [Hq2]; · iexact Hq2
      isplitl [Hq3]; · iexact Hq3
      isplitl [Hq4]; · iexact Hq4
      isplitl [Hq5]; · iexact Hq5
      isplitl [Hq6]; · iexact Hq6
      isplitl [Hq7]; · iexact Hq7
      isplitl [Hq8]; · iexact Hq8
      iexact Hq9
    isplitl [Hh2 Hh3 Hh4 Hh5 Hh6 Hh7 Hh8 Hh9]
    · isplitl [Hh2]; · iexact Hh2
      isplitl [Hh3]; · iexact Hh3
      isplitl [Hh4]; · iexact Hh4
      isplitl [Hh5]; · iexact Hh5
      isplitl [Hh6]; · iexact Hh6
      isplitl [Hh7]; · iexact Hh7
      isplitl [Hh8]; · iexact Hh8
      iexact Hh9
    iexists _; iexact HW

end Cert.KernelIdeal.Gather

end
-- ==== Proof.IdealTable.lean ====
/-
  The index table the kernel prefetches is `clip(idx, 0, 8191)` taken entry by entry: signed `min(8191, max(0, idx))`.
  Whatever the index array holds, every entry of the table therefore lies in [0, 8191] and names a row of the data
  array's 8192; that is all the body takes for granted of the words it loads, so its eight side conditions hold at every
  grid point for every launch memory (`chk1` … `chk8`). When the index array's entries already lie in [0, 8192) the
  clip changes nothing and the table is the index array (`tbl_of_inRange`).
-/
import proofs.«144003_j17798344474844_2_alg».proof.Proof.IdealHost
import proofs.«144003_j17798344474844_2_alg».proof.Proof.LibTypedRef

set_option maxRecDepth 16384

noncomputable section

namespace Cert.KernelIdeal.Gather

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

variable (m : (ℓ : Loc nD τ sig) → Buf (Elt F) ℓ)

/-- A 32-bit word clipped into [0, 8191] as signed integers is below 8192 read unsigned. -/
theorem clip_lt (v : BitVec 32) : (IntOp.minsi 8191#32 (IntOp.maxsi 0#32 v)).toNat < 8192 := by
  unfold IntOp.minsi IntOp.maxsi
  by_cases h0 : v.slt 0#32
  · rw [if_pos h0]; by_cases h1 : (8191#32).slt 0#32
    · rw [if_pos h1]; decide
    · rw [if_neg h1]; decide
  · rw [if_neg h0]
    by_cases h1 : (8191#32).slt v
    · rw [if_pos h1]; decide
    · rw [if_neg h1]
      simp only [BitVec.slt, decide_eq_true_eq, BitVec.toInt, BitVec.toNat_ofNat, Bool.not_eq_true, decide_eq_false_iff_not] at h0 h1
      omega

/-- A word already in [0, 8192) is left alone by the clip. -/
theorem clip_of_lt (v : BitVec 32) (hv : v.toNat < 8192) : IntOp.minsi 8191#32 (IntOp.maxsi 0#32 v) = v := by
  unfold IntOp.minsi IntOp.maxsi
  have h0 : ¬ (v.slt 0#32 = true) := by
    simp only [BitVec.slt, decide_eq_true_eq, BitVec.toInt, BitVec.toNat_ofNat]; omega
  have h1 : ¬ ((8191#32).slt v = true) := by
    simp only [BitVec.slt, decide_eq_true_eq, BitVec.toInt, BitVec.toNat_ofNat]; omega
  rw [if_neg h0, if_neg h1]

/-- The table when the region is entered: the index array clipped, entry by entry. -/
theorem V_tbl (c : Dev nD) :
    (V m c main_v0 : IVec S16x2048 32)
      = minsi (broadcastInDim S16x2048 ![] bcast_S_S16x2048 (constantI S_ 32 8191#32))
          (maxsi (broadcastInDim S16x2048 ![] bcast_S_S16x2048 (constantI S_ 32 0#32)) (m ((c : Thread nD τ).loc main_arg1))) := by
  dsimp only [V]
  simp only [hostOps0, hostOps0_1, List.flatten_cons, List.flatten_nil, List.append_nil, List.cons_append, List.nil_append]
  after_results
  simp only [StableHlo.TRef.ofBuf_toBuf]
  rfl

theorem V_tbl_apply (c : Dev nD) (y : S16x2048.Idx) :
    (V m c main_v0 : IVec S16x2048 32) y = IntOp.minsi 8191#32 (IntOp.maxsi 0#32 ((m ((c : Thread nD τ).loc main_arg1) : IVec S16x2048 32) y)) := by
  rw [V_tbl]; rfl

/-- Every entry of the table names a row of the data array. -/
theorem tbl_lt (c : Dev nD) (y : S16x2048.Idx) : ((tblAt m c : IVec S16x2048 32) y).toNat < 8192 := by
  rw [tblAt_apply, V_tbl_apply]; exact clip_lt _

/-- When the index array's entries lie in [0, 8192) the table is the index array. -/
theorem tbl_of_inRange (c : Dev nD) (h : ∀ y : S16x2048.Idx, ((m ((c : Thread nD τ).loc main_arg1) : IVec S16x2048 32) y).toNat < 8192)
    (y : S16x2048.Idx) : (tblAt m c : IVec S16x2048 32) y = (m ((c : Thread nD τ).loc main_arg1) : IVec S16x2048 32) y := by
  rw [tblAt_apply, V_tbl_apply]; exact clip_of_lt _ (h y)

/-- A word the body loads from the table, through any one-entry rectangle, is an entry of the table. -/
theorem word_lt (c : Dev nD) (R : LoadRect S16x2048) (x : R.shape.Idx) :
    (tbM.view.readAt (Elt F) R (tblAt m c) x : BitVec 32).toNat < 8192 := by
  rw [View.readAt_apply, View.read_apply, cast_eq]; exact tbl_lt m c _

/-- A word below 8192 names a row of the data array: the row's block `[1, 1, 256]` at `(b, word, 0)` lies inside it. -/
theorem row_inb (i : grid0.Coords) (v : BitVec 32) (hv : v.toNat < 8192) :
    ∀ a : Fin 3, (![(BitVec.ofNat 32 (i 0).val).toNat, v.toNat, 0] : Fin 3 → ℕ) a + S1x1x256.size a ≤ S16x8192x256.size a := by
  intro a
  have hi : (i 0).val < 16 := (i 0).isLt
  match a with
  | ⟨0, _⟩ => show (BitVec.ofNat 32 (i 0).val).toNat + 1 ≤ 16; rw [BitVec.toNat_ofNat]; omega
  | ⟨1, _⟩ => show v.toNat + 1 ≤ 8192; omega
  | ⟨2, _⟩ => show 0 + 256 ≤ 256; omega

theorem chk1_of_lt (i : grid0.Coords) (v : BitVec 32) (hv : v.toNat < 8192) : k0_chk1 i v := ⟨row_inb i v hv, row_inb i v hv⟩
theorem chk2_of_lt (i : grid0.Coords) (v : BitVec 32) (hv : v.toNat < 8192) : k0_chk2 i v := ⟨row_inb i v hv, row_inb i v hv⟩
theorem chk3_of_lt (i : grid0.Coords) (v : BitVec 32) (hv : v.toNat < 8192) : k0_chk3 i v := ⟨row_inb i v hv, row_inb i v hv⟩
theorem chk4_of_lt (i : grid0.Coords) (v : BitVec 32) (hv : v.toNat < 8192) : k0_chk4 i v := ⟨row_inb i v hv, row_inb i v hv⟩
theorem chk5_of_lt (i : grid0.Coords) (v : BitVec 32) (hv : v.toNat < 8192) : k0_chk5 i v := ⟨row_inb i v hv, row_inb i v hv⟩
theorem chk6_of_lt (i : grid0.Coords) (v : BitVec 32) (hv : v.toNat < 8192) : k0_chk6 i v := ⟨row_inb i v hv, row_inb i v hv⟩
theorem chk7_of_lt (i : grid0.Coords) (v : BitVec 32) (hv : v.toNat < 8192) : k0_chk7 i v := ⟨row_inb i v hv, row_inb i v hv⟩
theorem chk8_of_lt (i : grid0.Coords) (v : BitVec 32) (hv : v.toNat < 8192) : k0_chk8 i v := row_inb i v hv

/-- The body's side condition 1 holds at every point. -/
theorem chk1 (c : Dev nD) (i : grid0.Coords) :
    k0_chk1 i (tbM.view.readAt (Elt F) (Rect.unit (s := S16x2048) (k0_off1 i) S1x1.size (k0_off1_inb i)).toLoadRect (tblAt m c) (Shape.Idx.first (numel1_S1x1.symm ▸ Nat.one_pos))) :=
  chk1_of_lt i _ (word_lt m c _ _)
/-- The body's side condition 2 holds at every point. -/
theorem chk2 (c : Dev nD) (i : grid0.Coords) :
    k0_chk2 i (tbM.view.readAt (Elt F) (Rect.unit (s := S16x2048) (k0_off3 i) S1x1.size (k0_off3_inb i)).toLoadRect (tblAt m c) (Shape.Idx.first (numel1_S1x1.symm ▸ Nat.one_pos))) :=
  chk2_of_lt i _ (word_lt m c _ _)
/-- The body's side condition 3 holds at every point. -/
theorem chk3 (c : Dev nD) (i : grid0.Coords) :
    k0_chk3 i (tbM.view.readAt (Elt F) (Rect.unit (s := S16x2048) (k0_off5 i) S1x1.size (k0_off5_inb i)).toLoadRect (tblAt m c) (Shape.Idx.first (numel1_S1x1.symm ▸ Nat.one_pos))) :=
  chk3_of_lt i _ (word_lt m c _ _)
/-- The body's side condition 4 holds at every point. -/
theorem chk4 (c : Dev nD) (i : grid0.Coords) :
    k0_chk4 i (tbM.view.readAt (Elt F) (Rect.unit (s := S16x2048) (k0_off7 i) S1x1.size (k0_off7_inb i)).toLoadRect (tblAt m c) (Shape.Idx.first (numel1_S1x1.symm ▸ Nat.one_pos))) :=
  chk4_of_lt i _ (word_lt m c _ _)
/-- The body's side condition 5 holds at every point. -/
theorem chk5 (c : Dev nD) (i : grid0.Coords) :
    k0_chk5 i (tbM.view.readAt (Elt F) (Rect.unit (s := S16x2048) (k0_off9 i) S1x1.size (k0_off9_inb i)).toLoadRect (tblAt m c) (Shape.Idx.first (numel1_S1x1.symm ▸ Nat.one_pos))) :=
  chk5_of_lt i _ (word_lt m c _ _)
/-- The body's side condition 6 holds at every point. -/
theorem chk6 (c : Dev nD) (i : grid0.Coords) :
    k0_chk6 i (tbM.view.readAt (Elt F) (Rect.unit (s := S16x2048) (k0_off11 i) S1x1.size (k0_off11_inb i)).toLoadRect (tblAt m c) (Shape.Idx.first (numel1_S1x1.symm ▸ Nat.one_pos))) :=
  chk6_of_lt i _ (word_lt m c _ _)
/-- The body's side condition 7 holds at every point. -/
theorem chk7 (c : Dev nD) (i : grid0.Coords) :
    k0_chk7 i (tbM.view.readAt (Elt F) (Rect.unit (s := S16x2048) (k0_off13 i) S1x1.size (k0_off13_inb i)).toLoadRect (tblAt m c) (Shape.Idx.first (numel1_S1x1.symm ▸ Nat.one_pos))) :=
  chk7_of_lt i _ (word_lt m c _ _)
/-- The body's side condition 8 holds at every point. -/
theorem chk8 (c : Dev nD) (i : grid0.Coords) :
    k0_chk8 i (tbM.view.readAt (Elt F) (Rect.unit (s := S16x2048) (k0_off15 i) S1x1.size (k0_off15_inb i)).toLoadRect (tblAt m c) (Shape.Idx.first (numel1_S1x1.symm ▸ Nat.one_pos))) :=
  chk8_of_lt i _ (word_lt m c _ _)

end Cert.KernelIdeal.Gather

end
-- ==== Proof.IdealFrame.lean ====
/-
  The gather kernel's run and its frame. The proof data of the one pipeline: its output array as the region finds it;
  after the body at point `t` the output tile holds the eight rows the point's copies delivered (`outAt`); the region's
  invariant is the kernel's eight DMA cells at zero, the data array (left in HBM, read by the kernel's own copies) whole
  at its launch contents, and the table's half. The body obligation deals the data array into one read share per cell,
  runs the body (`kernelRun`, its side conditions from the table's clip) and puts the array back together. The launch
  theorem for a region with a prefetched table whose kernel moves an HBM operand by its own copies then gives the run
  (`run_main`), whose post read at the two argument arrays — neither a window's array, neither written by the host
  prefix — is the frame claim (`frame`).
-/
import proofs.«144003_j17798344474844_2_alg».proof.Proof.IdealBody
import proofs.«144003_j17798344474844_2_alg».proof.Proof.IdealTable

set_option maxRecDepth 16384

noncomputable section

namespace Cert.KernelIdeal.Gather

open Cert.KernelIdeal Cert.KernelIdeal.Gen Cert.GatherRows
open Idealize.ShloMosaic Idealize.ShloMosaic.TcCoe Idealize.ShloMosaic.Tactic
open Idealize.ShloMosaic.RowWindows (Row Blk Arr)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The kernel's own cells and the array it reads by its own copies -/

/-- The kernel's eight DMA cells (the pool's cells 2 … 9; cells 0 and 1 are the output window's). -/
abbrev osem : Fin 8 → SemLoc sig := fun j =>
  (![SemLoc.dma 2, SemLoc.dma 3, SemLoc.dma 4, SemLoc.dma 5, SemLoc.dma 6, SemLoc.dma 7, SemLoc.dma 8, SemLoc.dma 9] : Fin 8 → SemLoc sig) j
theorem ownSemFacts : Pipeline.OwnSemFacts spec0 osem := by decide
theorem ownSems_eq (c : Dev nD) :
    (Pipeline.ownSems0 (Ix := Unit) (Name := ℕ) (U := Pipeline.UD sig nD τ) (Lvl := ℕ) (Val := Elt F) (τ := τ) osem c : sProp 𝕄) = cells0 c := by
  rw [Pipeline.ownSems0_eq_of_list c osem [0, 1, 2, 3, 4, 5, 6, 7] (by decide) (by decide)]; rfl
/-- The data array: unscoped, no window's array, not the table. -/
def H0 : Finset (Ref sig .tc) := {main_arg0}
theorem H0_sub : H0 ⊆ Pipeline.restRefsP sig pre0 spec0 := by decide
theorem hbmPts_eq (c : Dev nD) :
    (bigSep H0 (fun b => ((c : Thread nD τ).loc b) ↦{fullShare} V m c b) : sProp 𝕄) = iprop(hbPt c (V m c main_arg0)) := by
  rw [BI.bigSep_eq_bigSepL_of_eq [main_arg0] (by decide) (by decide)]; rfl
/-- The region's invariant, conjunct by conjunct. -/
theorem PhiD_eq (c : Dev nD) :
    (Pipeline.ΦD osem spec0 H0 (V m) c : sProp 𝕄) = iprop(BI.emp ∗ (∃ r, prngReg c r) ∗ cells0 c ∗ hbPt c (V m c main_arg0)) := by
  rw [Pipeline.ΦD_eq, scopedRest0_eq, ownSems_eq, hbmPts_eq]

/-! ## The data array dealt into one read share per cell -/

/-- What is left of the array's full share beside the eight cells' read shares. -/
abbrev hbRest (c : Dev nD) (f : HbBuf (F := F) c) : sProp 𝕄 :=
  iprop((hbM.view.loc (c : Thread nD τ) ↦{Transfers.shareDrop fullShare 10} f) ∗ hbTok c 0 f ∗ hbTok c 1 f)

theorem toks_range_eq (c : Dev nD) (f : HbBuf (F := F) c) :
    (BI.bigSep (Finset.range 10) (fun i => (hbM.view.loc (c : Thread nD τ) ↦{Transfers.shareTokN fullShare i} f : sProp 𝕄)))
      = iprop(hbTok c 0 f ∗ hbTok c 1 f ∗ hbTok c 2 f ∗ hbTok c 3 f ∗ hbTok c 4 f ∗ hbTok c 5 f ∗ hbTok c 6 f ∗ hbTok c 7 f ∗ hbTok c 8 f ∗ hbTok c 9 f) := by
  rw [BI.bigSep_eq_bigSepL_of_eq [0, 1, 2, 3, 4, 5, 6, 7, 8, 9] (by decide) (by decide)]; rfl

theorem hbPt_split (c : Dev nD) (f : HbBuf (F := F) c) : (hbPt c f : sProp 𝕄) ⊢ iprop(hbRest c f ∗ toks c f) := by
  refine ((Transfers.pointsTo_toks_range (Ix := Unit) (Name := ℕ) (U := Pipeline.UD sig nD τ) (Lvl := ℕ) fullShare 10).1).trans ?_
  rw [toks_range_eq]
  iintro ⟨Hd, H0, H1, H2, H3, H4, H5, H6, H7, H8, H9⟩
  isplitl [Hd H0 H1]
  · isplitl [Hd]; · iexact Hd
    isplitl [H0]; · iexact H0
    iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem hbPt_join (c : Dev nD) (f : HbBuf (F := F) c) : iprop(hbRest c f ∗ toks c f) ⊢ (hbPt c f : sProp 𝕄) := by
  refine BIBase.Entails.trans ?_ ((Transfers.pointsTo_toks_range (Ix := Unit) (Name := ℕ) (U := Pipeline.UD sig nD τ) (Lvl := ℕ) fullShare 10).2)
  rw [toks_range_eq]
  iintro ⟨⟨Hd, H0, H1⟩, H2, H3, H4, H5, H6, H7, H8, H9⟩
  isplitl [Hd]; · iexact Hd
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-! ## The pipeline's proof data -/

/-- The output window's current staging memref at point `t`, as the pipeline passes it, and the body on it. -/
abbrev ms (t : Fin (cfgM m).N) : Memref sig .tc .vmem S1x8x256 .f32 := spec0_0.stage ((cfgM m).slots t 0)
abbrev hs (t : Fin (cfgM m).N) : (ms m t).IsWhole := hstage0_0 (((cfgM m).slots t 0).cast nbuf0_0)
abbrev bodyAt (t : Fin (cfgM m).N) : Prog (TpuEff nD τ sig (Elt F) Λ₀ .tc) PUnit :=
  cc0__gather_kernel (grid0.coords t) tbM htbM hbM hhbM (ms m t) (hs m t) cc0_scratch0

/-- The eight rows point `t`'s copies deliver. -/
def rowsAt (c : Dev nD) (t : Fin (cfgM m).N) : Fin 8 → (Row 256).Idx → Elt F .f32 :=
  (kernelRun c (grid0.coords t) (ms m t) (hs m t) (tblAt m c) (V m c main_arg0)
    (chk1 m c (grid0.coords t)) (chk2 m c (grid0.coords t)) (chk3 m c (grid0.coords t)) (chk4 m c (grid0.coords t)) (chk5 m c (grid0.coords t)) (chk6 m c (grid0.coords t)) (chk7 m c (grid0.coords t)) (chk8 m c (grid0.coords t))).1
/-- What the output tile holds after the body at point `t`. -/
def outAt (c : Dev nD) (t : Fin (cfgM m).N) : Tile.Idx → Elt F .f32 := rowsFn (rowsAt m c t)

def dats (_ : Fin 1) (c : Dev nD) : Dat τ (Elt F) Unit ℕ (Pipeline.UD sig nD τ) ℕ (cfgM m) c where
  A w := V m c (Pipeline.arrRef spec0 w)
  after w t := match w with
    | ⟨0, _⟩ => outAt m c t
  Φ _ := iprop(Pipeline.ΦD osem spec0 H0 (V m) c ∗ Pipeline.ΦT pre0 (tbl m) c)
  q _ := fullShare
  owed _ := 0

theorem A_eq (c : Dev nD) (w : Fin (cfgM m).W) : (dats m 0 c).A w = V m c (Pipeline.arrRef spec0 w) := by
  dsimp only [dats]
theorem after0 (c : Dev nD) (t : Fin (cfgM m).N) : (dats m 0 c).after 0 t = outAt m c t := by dsimp only [dats]; try rfl

/-! ## The body obligation -/

theorem sound_body (c : Dev nD) (t : Fin (cfgM m).N) :
    iprop((dats m 0 c).Φ t.castSucc ∗ (dats m 0 c).owesAt () t.castSucc
        ∗ (∃ d, owns (c : Thread nD τ) (ms m t) fullShare ((dats m 0 c).before 0 t d)))
      ⊢ wp frame (wpE (defs₀ (F := F)) Variants.none c none) Set.univ (bodyAt m t) (fun _ =>
          iprop((dats m 0 c).Φ t.succ ∗ (dats m 0 c).owesAt () t.succ
            ∗ owns (c : Thread nD τ) (ms m t) fullShare ((dats m 0 c).after 0 t))) := by
  rw [show (dats m 0 c).Φ t.succ = (dats m 0 c).Φ t.castSucc from rfl, after0]
  rw [show (dats m 0 c).Φ t.castSucc = iprop(Pipeline.ΦD osem spec0 H0 (V m) c ∗ Pipeline.ΦT pre0 (tbl m) c) from rfl, PhiD_eq, PhiT_eq]
  unfold Dat.owesAt Pipeline.owesWithin
  rw [show (dats m 0 c).owed t.castSucc = 0 from rfl, show (dats m 0 c).owed t.succ = 0 from rfl]
  unfold outAt rowsAt bodyAt
  iintro ⟨⟨⟨-, Hg, Hq, Hh⟩, HT⟩, ⟨%W, -, HW⟩, ⟨%d0, H0⟩⟩
  ihave Hh' := (hbPt_split c (V m c main_arg0)) $$ Hh
  icases Hh' with ⟨Hr, Htk⟩
  iapply ((kernelRun c (grid0.coords t) (ms m t) (hs m t) (tblAt m c) (V m c main_arg0)
    (chk1 m c (grid0.coords t)) (chk2 m c (grid0.coords t)) (chk3 m c (grid0.coords t)) (chk4 m c (grid0.coords t)) (chk5 m c (grid0.coords t)) (chk6 m c (grid0.coords t)) (chk7 m c (grid0.coords t)) (chk8 m c (grid0.coords t))).2 W _)
  isplitl [H0]; · iexists _; iexact H0
  isplitl [HT]; · iexact HT
  isplitl [Hq]; · iexact Hq
  isplitl [Htk]; · iexact Htk
  isplitl [HW]; · iexact HW
  iintro ⟨H0, HT, Hq, Htk, ⟨%W', HW'⟩⟩
  isplitl [Hg Hq Hr Htk HT]
  · isplitr [HT]
    · isplitr [Hg Hq Hr Htk]; · iempintro
      isplitl [Hg]; · iexact Hg
      isplitl [Hq]; · iexact Hq
      iapply (hbPt_join c (V m c main_arg0))
      isplitl [Hr]; · iexact Hr
      iexact Htk
    · iexact HT
  isplitl [HW']
  · iexists W'; isplitr; · ipureintro; exact fun _ _ => Or.inl trivial
    iexact HW'
  iexact H0

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates; every final state has the output array at what the library
    computes from the proof data and every other unscoped buffer as the region found it. -/
theorem run_main : θ_run defs (onTc (τ := τ) (main (F := F))) (s₀ m ρ) (Pipeline.FramePost (Pipeline.pin pcfgs fun _ => adm m) (dats m) 0 (V m)) :=
  Pipeline.θ_run_frameP_dma pcfgs (fun _ => adm m) (dats m) (0 : Fin 1) launch0 osem defs₀ Variants.none ownSemFacts H0 H0_sub m ρ main
    (hbody := fun c => (body_obligation m c).loose) (hshare := fun c => (dats m 0 c).share_full fun _ => rfl)
    (howed := fun _ _ => rfl) (V := V m) (hmain := hmain m Variants.none) (hA := A_eq m) (hpf := V_pre m)
    (hin := fun _ => .rfl)
    (hout := fun c => (show iprop(Pipeline.ΦD osem spec0 H0 (V m) c ∗ Pipeline.ΦT pre0 (tbl m) c) ⊢ Pipeline.ΦD osem spec0 H0 (V m) c from by
      iintro ⟨H, -⟩; iexact H))

/-- The frame: the program runs, and its two argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_arg0 (by decide : main_arg0 ∈ Pipeline.restRefs sig spec0)).trans (V_main_arg0 m c),
     ((h c).2 main_arg1 (by decide : main_arg1 ∈ Pipeline.restRefs sig spec0)).trans (V_main_arg1 m c)⟩) (run_main m ρ)

end Cert.KernelIdeal.Gather

end
-- ==== Proof.GatherSpec.lean ====
/-
  The gather, as one function of the argument arrays. For a data array `x : [16, 8192, 256]` and a table of words
  `t : [16, 2048]`, the result at `(b, j, l)` is `x` at batch `b`, row `t[b, j]`, column `l`, the word read as a row
  number (unsigned; a word that is no row number is reduced modulo 8192 only to make the function total — neither program
  ever reads such a word where this function is used).
-/
import Idealize.ShloMosaic.Lib.ValueIdx

noncomputable section

namespace Cert.GatherSpec

open Idealize.ShloMosaic Idealize.ShloMosaic.ValueIdx

abbrev SX : Shape := ⟨3, ![16, 8192, 256]⟩
abbrev SI : Shape := ⟨2, ![16, 2048]⟩
abbrev SO : Shape := ⟨3, ![16, 2048, 256]⟩

/-- The row a word names. -/
def rowOf (w : BitVec 32) : Fin 8192 := ⟨w.toNat % 8192, Nat.mod_lt _ (by decide)⟩

theorem rowOf_val (w : BitVec 32) (h : w.toNat < 8192) : (rowOf w).val = w.toNat := Nat.mod_eq_of_lt h

/-- The gathered array. -/
def G {α : Type} (x : SX.Idx → α) (t : SI.Idx → BitVec 32) : SO.Idx → α :=
  fun i => x (ix3 (i 0) (rowOf (t (ix2 (i 0) (i 1)))) (i 2))

theorem G_at {α : Type} (x : SX.Idx → α) (t : SI.Idx → BitVec 32) (b : Fin 16) (j : Fin 2048) (l : Fin 256) :
    G x t (ix3 b j l) = x (ix3 b (rowOf (t (ix2 b j))) l) := rfl

end Cert.GatherSpec

end
-- ==== Proof.IdealValue.lean ====
/-
  The gather kernel's value. At point `(b, j)` the `r`-th copy delivers the data array's row `(b, w)` where `w` is the
  table's entry `(b, 8j + r)`, so the point's tile is block `(b, j, 0)` of ONE function of the data array and the table:
  `G x t (b, s, l) = x (b, t (b, s), l)`. Every point writes its tile back and the tiles cover the output array, so
  after the run the output array is `G` of the data array as launched and the table as the region found it.
-/
import proofs.«144003_j17798344474844_2_alg».proof.Proof.IdealFrame
import proofs.«144003_j17798344474844_2_alg».proof.Proof.GatherSpec
import Idealize.ShloMosaic.Lib.Pipeline.Value

set_option maxRecDepth 16384

noncomputable section

namespace Cert.KernelIdeal.Gather

open Cert.KernelIdeal Cert.KernelIdeal.Gen Cert.GatherRows Cert.GatherSpec
open Idealize.ShloMosaic Idealize.ShloMosaic.TcCoe Idealize.ShloMosaic.Tactic Idealize.ShloMosaic.ValueIdx
open Idealize.ShloMosaic.RowWindows (Row Blk Arr rowView_read)
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## A grid point's coordinates -/

/-- Point `t`'s batch `b`, its tile number `j`, and the output row `8j + k` its `k`-th copy fills. -/
def bOf (t : Fin grid0.N) : Fin 16 := ⟨(grid0.coords t 0).val, (grid0.coords t 0).isLt⟩
def jOf (t : Fin grid0.N) : Fin 256 := ⟨(grid0.coords t 1).val, (grid0.coords t 1).isLt⟩
def sOf (t : Fin grid0.N) (k : Fin 8) : Fin 2048 := ⟨8 * (jOf t).val + k.val, by have := (jOf t).isLt; have := k.isLt; omega⟩

/-! ## The words a point loads, and the rows its copies deliver -/

/-- Where the body reads the table at point `i = (b, j)`: entries `8j`, …, `8j + 7` of row `b`. -/
theorem tbl_off (i : grid0.Coords) :
    (k0_off1 i 0 = (i 0).val ∧ k0_off1 i 1 = 8 * (i 1).val + 0)
    ∧ (k0_off3 i 0 = (i 0).val ∧ k0_off3 i 1 = 8 * (i 1).val + 1)
    ∧ (k0_off5 i 0 = (i 0).val ∧ k0_off5 i 1 = 8 * (i 1).val + 2)
    ∧ (k0_off7 i 0 = (i 0).val ∧ k0_off7 i 1 = 8 * (i 1).val + 3)
    ∧ (k0_off9 i 0 = (i 0).val ∧ k0_off9 i 1 = 8 * (i 1).val + 4)
    ∧ (k0_off11 i 0 = (i 0).val ∧ k0_off11 i 1 = 8 * (i 1).val + 5)
    ∧ (k0_off13 i 0 = (i 0).val ∧ k0_off13 i 1 = 8 * (i 1).val + 6)
    ∧ (k0_off15 i 0 = (i 0).val ∧ k0_off15 i 1 = 8 * (i 1).val + 7) := by
  have h0 : (i 0).val < 16 := (i 0).isLt
  have h1 : (i 1).val < 256 := (i 1).isLt
  simp only [k0_off1, k0_off3, k0_off5, k0_off7, k0_off9, k0_off11, k0_off13, k0_off15, Scalar.indexCast, Scalar.muli, Scalar.addi, IntOp.muli, IntOp.addi, Matrix.cons_val_zero,
    Matrix.cons_val_one, Matrix.head_cons, BitVec.toNat_add, BitVec.toNat_mul, BitVec.toNat_ofNat, Nat.reducePow, Nat.reduceMod]
  omega

/-- The output window's block index at point `(b, j)` is `(b, j, 0)`. -/
theorem transform_val (i : grid0.Coords) : cc0_transform_1 i 0 = (i 0).val ∧ cc0_transform_1 i 1 = (i 1).val ∧ cc0_transform_1 i 2 = 0 := by
  have h0 : (i 0).val < 16 := (i 0).isLt
  have h1 : (i 1).val < 256 := (i 1).isLt
  refine ⟨?_, ?_, rfl⟩
  · show (BitVec.ofNat 32 (i 0).val).toNat = _; rw [BitVec.toNat_ofNat]; omega
  · show (BitVec.ofNat 32 (i 1).val).toNat = _; rw [BitVec.toNat_ofNat]; omega

/-- A word the body loads through the one-entry rectangle at `(p, q)` is the table's entry `(p, q)`. -/
theorem word_eq (c : Dev nD) (xt : TbBuf (F := F) c) (off : Fin 2 → ℕ) (inb : ∀ a, off a + S1x1.size a ≤ S16x2048.size a)
    (p : Fin 16) (q : Fin 2048) (h0 : off 0 = p.val) (h1 : off 1 = q.val) :
    (tbM.view.readAt (Elt F) (Rect.unit (s := S16x2048) off S1x1.size inb).toLoadRect xt (Shape.Idx.first (numel1_S1x1.symm ▸ Nat.one_pos)) : BitVec 32)
      = (xt : IVec S16x2048 32) (ix2 p q) := by
  rw [View.readAt_apply, View.read_apply, cast_eq]
  congr 1
  funext a; apply Fin.ext
  match a with
  | ⟨0, _⟩ => show off 0 + 1 * 0 = p.val; omega
  | ⟨1, _⟩ => show off 1 + 1 * 0 = q.val; omega

/-- The row a copy delivers: the data array's row `(b, word)`. -/
theorem payload_eq (c : Dev nD) (i : grid0.Coords) (fh : HbBuf (F := F) c) (w : BitVec 32) (hw : w.toNat < 8192)
    (b : Fin 16) (hbi : b.val = (i 0).val)
    (off : Fin 3 → ℕ) (hoff : off = ![(BitVec.ofNat 32 (i 0).val).toNat, w.toNat, 0])
    (inb : ∀ a, off a + S1x1x256.size a ≤ S16x8192x256.size a) (hr) (hq : S1x1x256.Squeezes S256) (l : Fin 256) :
    ReadAs.same.apply (((hbM.slice (Rect.unit (s := S16x8192x256) off S1x1x256.size inb) hr).squeeze S256 hq).view.read (Elt F) fh) (ix1 l)
      = (fh : S16x8192x256.Idx → Elt F .f32) (ix3 b (rowOf w) l) := by
  have hb : (BitVec.ofNat 32 (i 0).val).toNat = b.val := by
    have : (i 0).val < 16 := (i 0).isLt
    rw [BitVec.toNat_ofNat, hbi]; omega
  have h := rowView_read (Val := Elt F) hbM off b (rowOf w) (by rw [hoff, hb, rowOf_val w hw]) inb hr hq fh (ix1 l)
  refine (show _ = _ from h).trans ?_
  rw [View.read_apply, cast_eq]; rfl

/-! ## What point `t` delivers, row by row -/

theorem row_0 (c : Dev nD) (t : Fin (cfgM m).N) (l : Fin 256) :
    rowsAt m c t (0 : Fin 8) (ix1 l)
      = (V m c main_arg0 : S16x8192x256.Idx → Elt F .f32) (ix3 (bOf t) (rowOf ((tblAt m c : IVec S16x2048 32) (ix2 (bOf t) (sOf t 0)))) l) := by
  unfold rowsAt
  show kernelRun.sl.dma1 c (grid0.coords t) (tblAt m c) (V m c main_arg0) (chk1 m c (grid0.coords t)) (ix1 l) = _
  sl_unfold_run_names
  refine (payload_eq (F := F) c (grid0.coords t) (V m c main_arg0) _ (word_lt m c _ _) (bOf t) rfl _ rfl _ _ _ l).trans ?_
  rw [word_eq c (tblAt m c) _ _ (bOf t) (sOf t 0) (tbl_off (grid0.coords t)).1.1 (tbl_off (grid0.coords t)).1.2]

theorem row_1 (c : Dev nD) (t : Fin (cfgM m).N) (l : Fin 256) :
    rowsAt m c t (1 : Fin 8) (ix1 l)
      = (V m c main_arg0 : S16x8192x256.Idx → Elt F .f32) (ix3 (bOf t) (rowOf ((tblAt m c : IVec S16x2048 32) (ix2 (bOf t) (sOf t 1)))) l) := by
  unfold rowsAt
  show kernelRun.sl.dma2 c (grid0.coords t) (tblAt m c) (V m c main_arg0) (chk2 m c (grid0.coords t)) (ix1 l) = _
  sl_unfold_run_names
  refine (payload_eq (F := F) c (grid0.coords t) (V m c main_arg0) _ (word_lt m c _ _) (bOf t) rfl _ rfl _ _ _ l).trans ?_
  rw [word_eq c (tblAt m c) _ _ (bOf t) (sOf t 1) (tbl_off (grid0.coords t)).2.1.1 (tbl_off (grid0.coords t)).2.1.2]

theorem row_2 (c : Dev nD) (t : Fin (cfgM m).N) (l : Fin 256) :
    rowsAt m c t (2 : Fin 8) (ix1 l)
      = (V m c main_arg0 : S16x8192x256.Idx → Elt F .f32) (ix3 (bOf t) (rowOf ((tblAt m c : IVec S16x2048 32) (ix2 (bOf t) (sOf t 2)))) l) := by
  unfold rowsAt
  show kernelRun.sl.dma3 c (grid0.coords t) (tblAt m c) (V m c main_arg0) (chk3 m c (grid0.coords t)) (ix1 l) = _
  sl_unfold_run_names
  refine (payload_eq (F := F) c (grid0.coords t) (V m c main_arg0) _ (word_lt m c _ _) (bOf t) rfl _ rfl _ _ _ l).trans ?_
  rw [word_eq c (tblAt m c) _ _ (bOf t) (sOf t 2) (tbl_off (grid0.coords t)).2.2.1.1 (tbl_off (grid0.coords t)).2.2.1.2]

theorem row_3 (c : Dev nD) (t : Fin (cfgM m).N) (l : Fin 256) :
    rowsAt m c t (3 : Fin 8) (ix1 l)
      = (V m c main_arg0 : S16x8192x256.Idx → Elt F .f32) (ix3 (bOf t) (rowOf ((tblAt m c : IVec S16x2048 32) (ix2 (bOf t) (sOf t 3)))) l) := by
  unfold rowsAt
  show kernelRun.sl.dma4 c (grid0.coords t) (tblAt m c) (V m c main_arg0) (chk4 m c (grid0.coords t)) (ix1 l) = _
  sl_unfold_run_names
  refine (payload_eq (F := F) c (grid0.coords t) (V m c main_arg0) _ (word_lt m c _ _) (bOf t) rfl _ rfl _ _ _ l).trans ?_
  rw [word_eq c (tblAt m c) _ _ (bOf t) (sOf t 3) (tbl_off (grid0.coords t)).2.2.2.1.1 (tbl_off (grid0.coords t)).2.2.2.1.2]

theorem row_4 (c : Dev nD) (t : Fin (cfgM m).N) (l : Fin 256) :
    rowsAt m c t (4 : Fin 8) (ix1 l)
      = (V m c main_arg0 : S16x8192x256.Idx → Elt F .f32) (ix3 (bOf t) (rowOf ((tblAt m c : IVec S16x2048 32) (ix2 (bOf t) (sOf t 4)))) l) := by
  unfold rowsAt
  show kernelRun.sl.dma5 c (grid0.coords t) (tblAt m c) (V m c main_arg0) (chk5 m c (grid0.coords t)) (ix1 l) = _
  sl_unfold_run_names
  refine (payload_eq (F := F) c (grid0.coords t) (V m c main_arg0) _ (word_lt m c _ _) (bOf t) rfl _ rfl _ _ _ l).trans ?_
  rw [word_eq c (tblAt m c) _ _ (bOf t) (sOf t 4) (tbl_off (grid0.coords t)).2.2.2.2.1.1 (tbl_off (grid0.coords t)).2.2.2.2.1.2]

theorem row_5 (c : Dev nD) (t : Fin (cfgM m).N) (l : Fin 256) :
    rowsAt m c t (5 : Fin 8) (ix1 l)
      = (V m c main_arg0 : S16x8192x256.Idx → Elt F .f32) (ix3 (bOf t) (rowOf ((tblAt m c : IVec S16x2048 32) (ix2 (bOf t) (sOf t 5)))) l) := by
  unfold rowsAt
  show kernelRun.sl.dma6 c (grid0.coords t) (tblAt m c) (V m c main_arg0) (chk6 m c (grid0.coords t)) (ix1 l) = _
  sl_unfold_run_names
  refine (payload_eq (F := F) c (grid0.coords t) (V m c main_arg0) _ (word_lt m c _ _) (bOf t) rfl _ rfl _ _ _ l).trans ?_
  rw [word_eq c (tblAt m c) _ _ (bOf t) (sOf t 5) (tbl_off (grid0.coords t)).2.2.2.2.2.1.1 (tbl_off (grid0.coords t)).2.2.2.2.2.1.2]

theorem row_6 (c : Dev nD) (t : Fin (cfgM m).N) (l : Fin 256) :
    rowsAt m c t (6 : Fin 8) (ix1 l)
      = (V m c main_arg0 : S16x8192x256.Idx → Elt F .f32) (ix3 (bOf t) (rowOf ((tblAt m c : IVec S16x2048 32) (ix2 (bOf t) (sOf t 6)))) l) := by
  unfold rowsAt
  show kernelRun.sl.dma7 c (grid0.coords t) (tblAt m c) (V m c main_arg0) (chk7 m c (grid0.coords t)) (ix1 l) = _
  sl_unfold_run_names
  refine (payload_eq (F := F) c (grid0.coords t) (V m c main_arg0) _ (word_lt m c _ _) (bOf t) rfl _ rfl _ _ _ l).trans ?_
  rw [word_eq c (tblAt m c) _ _ (bOf t) (sOf t 6) (tbl_off (grid0.coords t)).2.2.2.2.2.2.1.1 (tbl_off (grid0.coords t)).2.2.2.2.2.2.1.2]

theorem row_7 (c : Dev nD) (t : Fin (cfgM m).N) (l : Fin 256) :
    rowsAt m c t (7 : Fin 8) (ix1 l)
      = (V m c main_arg0 : S16x8192x256.Idx → Elt F .f32) (ix3 (bOf t) (rowOf ((tblAt m c : IVec S16x2048 32) (ix2 (bOf t) (sOf t 7)))) l) := by
  unfold rowsAt
  show kernelRun.sl.dma8 c (grid0.coords t) (tblAt m c) (V m c main_arg0) (chk8 m c (grid0.coords t)) (ix1 l) = _
  sl_unfold_run_names
  refine (payload_eq (F := F) c (grid0.coords t) (V m c main_arg0) _ (word_lt m c _ _) (bOf t) rfl _ rfl _ _ _ l).trans ?_
  rw [word_eq c (tblAt m c) _ _ (bOf t) (sOf t 7) (tbl_off (grid0.coords t)).2.2.2.2.2.2.2.1 (tbl_off (grid0.coords t)).2.2.2.2.2.2.2.2]

/-! ## From the points' tiles to the array -/

/-- Element `(0, r, l)` of point `(b, j)`'s tile is the output array's element `(b, 8j + r, l)`. -/
theorem blk_emb (t : Fin (cfgM m).N) (q : Fin 1) (r : Fin 8) (l : Fin 256) :
    (((cfgM m).win 0).blk t).view.emb (ix3 q r l : S1x8x256.Idx) = (ix3 (bOf t) (sOf t r) l : S16x2048x256.Idx) := by
  obtain ⟨e0, e1, e2⟩ := transform_val (grid0.coords t)
  funext a; apply Fin.ext
  match a with
  | ⟨0, _⟩ =>
    show cc0_transform_1 (grid0.coords t) 0 * 1 + 1 * q.val = (grid0.coords t 0).val
    have := q.isLt; omega
  | ⟨1, _⟩ =>
    show cc0_transform_1 (grid0.coords t) 1 * 8 + 1 * r.val = 8 * (grid0.coords t 1).val + r.val
    omega
  | ⟨2, _⟩ =>
    show cc0_transform_1 (grid0.coords t) 2 * 256 + 1 * l.val = l.val
    omega

/-- WHAT POINT `t = (b, j)` WRITES BACK is block `(b, j, 0)` of the gather of the data array and the table. -/
theorem flushed_eq (c : Dev nD) (t : Fin (cfgM m).N) :
    (dats m 0 c).flushed 0 t = (((cfgM m).win 0).blk t).view.read (Elt F) (G (V m c main_arg0) (tblAt m c)) := by
  show ((cfgM m).win 0).cut (grid0.coords t) ((dats m 0 c).after 0 t) = _
  rw [after0]
  refine funext fun (y : S1x8x256.Idx) => ?_
  obtain ⟨q, r, l, rfl⟩ : ∃ (q : Fin 1) (r : Fin 8) (l : Fin 256), y = ix3 q r l := ⟨y 0, y 1, y 2, eq_ix3 y⟩
  show outAt m c t (ix3 q r l) = G (V m c main_arg0) (tblAt m c) ((((cfgM m).win 0).blk t).view.emb (ix3 q r l : S1x8x256.Idx))
  refine Eq.trans ?_ (congrArg (G (V m c main_arg0) (tblAt m c)) (blk_emb m t q r l)).symm
  rw [G_at]
  unfold outAt
  rw [rowsFn_at]
  match r with
  | ⟨0, _⟩ => exact row_0 m c t l
  | ⟨1, _⟩ => exact row_1 m c t l
  | ⟨2, _⟩ => exact row_2 m c t l
  | ⟨3, _⟩ => exact row_3 m c t l
  | ⟨4, _⟩ => exact row_4 m c t l
  | ⟨5, _⟩ => exact row_5 m c t l
  | ⟨6, _⟩ => exact row_6 m c t l
  | ⟨7, _⟩ => exact row_7 m c t l

/-- Every point writes its tile back. -/
theorem flush_all (t : Fin (cfgM m).N) : ((cfgM m).win 0).flush t = true :=
  (by decide +kernel : ∀ t : Fin grid0.N, Pipeline.Window.flushOf grid0 true cc0_transform_1 t = true) t

/-- The tiles cover the array: `(b, s, l)` lies in the tile of point `(b, s / 8)`. -/
theorem cover (i : S16x2048x256.Idx) :
    ∃ t : Fin (cfgM m).N, ((cfgM m).win 0).flush t = true ∧ i ∈ (((cfgM m).win 0).blk t).view.set := by
  have hb : (i 0).val < 16 := (i 0).isLt
  have hs : (i 1).val < 2048 := (i 1).isLt
  have hl : (i 2).val < 256 := (i 2).isLt
  let t : Fin grid0.N := ⟨(i 0).val * 256 + (i 1).val / 8, by rw [N_0]; omega⟩
  have c0 : (grid0.coords t 0).val = (i 0).val := by
    show ((i 0).val * 256 + (i 1).val / 8) / 256 % 16 = _; omega
  have c1 : (grid0.coords t 1).val = (i 1).val / 8 := by
    show ((i 0).val * 256 + (i 1).val / 8) / 1 % 256 = _; omega
  refine ⟨t, flush_all m t, ?_⟩
  have hi : (((cfgM m).win 0).blk t).view.emb (ix3 (0 : Fin 1) (⟨(i 1).val % 8, Nat.mod_lt _ (by decide)⟩ : Fin 8)
      (⟨(i 2).val, hl⟩ : Fin 256) : S1x8x256.Idx) = i := by
    refine (blk_emb m t _ _ _).trans ?_
    funext a; apply Fin.ext
    match a with
    | ⟨0, _⟩ => show (grid0.coords t 0).val = (i 0).val; omega
    | ⟨1, _⟩ => show 8 * (grid0.coords t 1).val + (i 1).val % 8 = (i 1).val; omega
    | ⟨2, _⟩ => rfl
  exact hi ▸ View.emb_mem_set _ _

/-- THE OUTPUT ARRAY after the run: the gather of the data array and the table. -/
theorem final (c : Dev nD) : (dats m 0 c).arrAt 0 (cfgM m).N = G (V m c main_arg0) (tblAt m c) :=
  (dats m 0 c).arrAt_eq_of_cover 0 (G (V m c main_arg0) (tblAt m c)) (fun t _ => flushed_eq m c t) (cover m)

/-- The run re-posted: the result array is the gather of the data array as launched and the table; the arguments end
    as launched. -/
theorem run : θ_run defs (onTc (τ := τ) (main (F := F))) ⟨m, fun _ => 0, ρ⟩ fun r => ∀ c : Dev nD,
      r.2.mem ((c.tc : Thread nD τ).loc main_v1) = G (m ((c.tc : Thread nD τ).loc main_arg0)) (tblAt m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).1 0).trans ((final m c).trans (by rw [V_main_arg0])),
     ((h c).2 main_arg0 (by decide : main_arg0 ∈ Pipeline.restRefs sig spec0)).trans (V_main_arg0 m c),
     ((h c).2 main_arg1 (by decide : main_arg1 ∈ Pipeline.restRefs sig spec0)).trans (V_main_arg1 m c)⟩) (run_main m ρ)

end Cert.KernelIdeal.Gather

end
-- ==== Proof.RefRun.lean ====
/-
  The reference's run. `reference` is `jnp.take_along_axis(x, idx[:, :, None], axis=1)`: on the host, the index array
  gets a trailing unit axis; a negative index is shifted by the axis length 8192 (`normIdx`); the rows are gathered at
  the shifted indices (StableHLO clamps a start index into range); and where the shifted index is not in [0, 8191]
  (`inRange` false) the gathered row is replaced by a fill value. This module lists @main's 23 host operations — the
  outlined function's standing in its call's place —, shows @main is their sequence, and reads the run back: every
  weakly fair execution terminates with the result array at `refOut` of the two argument arrays, the arguments
  unchanged.
-/
import proofs.«144003_j17798344474844_2_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- @main's 23 operations, in order. -/
abbrev ops : List (HloOp τ sig (Elt F)) :=
  [ unary main_arg1 main_v0 (broadcastInDim S16x2048x1 ![0, 1] bcast_S16x2048_S16x2048x1_0_1 : (⟨S16x2048, .i32⟩ : BufTy).Contents (Elt F) → (⟨S16x2048x1, .i32⟩ : BufTy).Contents (Elt F)),
    TRef.nullary main_call0.c (constantI S_ 32 0#32),
    TRef.unary main_call0.c main_call0.v0 (broadcastInDim S16x2048x1 ![] bcast_S_S16x2048x1),
    TRef.binary (TRef.of main_v0 : TRef sig ⟨S16x2048x1, .i32⟩) main_call0.v0 main_call0.v1 (cmpi .slt),
    TRef.nullary main_call0.c_0 (constantI S_ 32 8192#32),
    TRef.unary main_call0.c_0 main_call0.v2 (broadcastInDim S16x2048x1 ![] bcast_S_S16x2048x1),
    TRef.binary (TRef.of main_v0 : TRef sig ⟨S16x2048x1, .i32⟩) main_call0.v2 main_call0.v3 addi,
    TRef.ternary main_call0.v1 main_call0.v3 (TRef.of main_v0 : TRef sig ⟨S16x2048x1, .i32⟩) main_call0.v4 select,
    TRef.nullary main_call0.c_1 (constantI S1 32 8191#32),
    TRef.nullary main_call0.c_2 (constantI S_ 32 0#32),
    TRef.unary main_call0.c_2 main_call0.v5 (broadcastInDim S16x2048x1 ![] bcast_S_S16x2048x1),
    TRef.binary main_call0.v4 main_call0.v5 main_call0.v6 (cmpi .sge),
    TRef.unary main_call0.c_1 main_call0.v7 (broadcastInDim S1x1x1 ![2] bcast_S1_S1x1x1_2),
    TRef.unary main_call0.v7 main_call0.v8 (broadcastInDim S16x2048x1 ![0, 1, 2] bcast_S1x1x1_S16x2048x1_0_1_2),
    TRef.binary main_call0.v4 main_call0.v8 main_call0.v9 (cmpi .sle),
    TRef.binary main_call0.v6 main_call0.v9 main_call0.v10 andi,
    TRef.nullary main_call0.c_3 (constantI S_ 1 1#1),
    TRef.binary main_call0.v10 main_call0.c_3 main_call0.v11 (fun x v => Host.reduce IntOp.andi x v reducesTo_S16x2048x1_S16x2048_d2 h_S_),
    TRef.binary (TRef.of main_arg0 : TRef sig ⟨S16x8192x256, .f32⟩) main_call0.v4 main_call0.v12 (fun x i => Host.gather gather_S16x8192x256_S16x2048x1_S16x2048x256_2_1_0_0_1_2_11256 x i),
    TRef.unary main_call0.v11 main_call0.v13 (broadcastInDim S16x2048x256 ![0, 1] bcast_S16x2048_S16x2048x256_0_1),
    TRef.nullary main_call0.cst (constant S_ .f32 0x7FC00000#32),
    TRef.unary main_call0.cst main_call0.v14 (broadcastInDim S16x2048x256 ![] bcast_S_S16x2048x256),
    TRef.ternary main_call0.v13 main_call0.v12 main_call0.v14 main_call0.v15 select ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., ternary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩

/-! ## The result, in stages -/

/-- The index array with its trailing unit axis. -/
def idx3 (x1 : IVec S16x2048 32) : IVec S16x2048x1 32 :=
  broadcastInDim S16x2048x1 ![0, 1] bcast_S16x2048_S16x2048x1_0_1 x1
/-- A negative index shifted by the axis length. -/
def normIdx (x1 : IVec S16x2048 32) : IVec S16x2048x1 32 :=
  select (cmpi .slt (idx3 x1) (broadcastInDim S16x2048x1 ![] bcast_S_S16x2048x1 (constantI S_ 32 0#32)))
    (addi (idx3 x1) (broadcastInDim S16x2048x1 ![] bcast_S_S16x2048x1 (constantI S_ 32 8192#32))) (idx3 x1)
/-- Whether the shifted index lies in [0, 8191]. -/
def inRange (x1 : IVec S16x2048 32) : IVec S16x2048 1 :=
  Host.reduce IntOp.andi
    (andi (cmpi .sge (normIdx x1) (broadcastInDim S16x2048x1 ![] bcast_S_S16x2048x1 (constantI S_ 32 0#32)))
      (cmpi .sle (normIdx x1) (broadcastInDim S16x2048x1 ![0, 1, 2] bcast_S1x1x1_S16x2048x1_0_1_2
        (broadcastInDim S1x1x1 ![2] bcast_S1_S1x1x1_2 (constantI S1 32 8191#32)))))
    (constantI S_ 1 1#1) reducesTo_S16x2048x1_S16x2048_d2 h_S_
/-- The reference's result: the gathered rows where the index is in range, the fill value elsewhere. -/
def refOut (x0 : FVec F S16x8192x256 .f32) (x1 : IVec S16x2048 32) : FVec F S16x2048x256 .f32 :=
  select (broadcastInDim S16x2048x256 ![0, 1] bcast_S16x2048_S16x2048x256_0_1 (inRange x1))
    (Host.gather gather_S16x8192x256_S16x2048x1_S16x2048x256_2_1_0_0_1_2_11256 x0 (normIdx x1))
    (broadcastInDim S16x2048x256 ![] bcast_S_S16x2048x256 (constant S_ .f32 0x7FC00000#32))

set_option maxRecDepth 200000 in
set_option maxHeartbeats 2000000 in
/-- From any memory with zero counters every weakly fair execution of @main terminates with the result array at
    `refOut` of the argument arrays and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v1) = refOut (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v1).trans (by after_results <;> rfl),
      (h c main_arg0).trans (by after_results <;> rfl),
      (h c main_arg1).trans (by after_results <;> rfl)⟩)
    (run_seq scopedRefs_eq scopedSems_eq defs main (fun _ => ops) main_eq (fun _ => ops_sub) m ρ)

end Cert.ReferenceIdeal.RefValue

end
-- ==== Proof.LibTakeAlong.lean ====
/-
  `jnp.take_along_axis(x, idx[:, :, None], axis=1)` for `x : [B, N, C]` and `idx : [B, M]` lowers to a
  `stablehlo.gather` with one batching axis: offset_dims `[2]`, collapsed_slice_dims `[1]`, operand_batching_dims `[0]`,
  start_indices_batching_dims `[0]`, start_index_map `[1]`, index_vector_dim 2, slice sizes `[1, 1, C]`, over the
  indices as `[B, M, 1]`. Read at `(b, j, l)` it is the operand at row `idx[b, j, 0]` of batch `b`, the row read as a
  signed integer and clamped into `[0, N − 1]` as StableHLO clamps every start index, column `l`
  (`gather_along_apply`). Extents and the index width are variables.
-/
import Idealize.ShloMosaic.Lib.ValueIdx
import Idealize.ShloMosaic.PureOps.ShapeOps

noncomputable section

namespace Idealize.ShloMosaic.TakeAlong

open Idealize.ShloMosaic Idealize.ShloMosaic.ValueIdx

variable {α : Type} {B N M C w : ℕ}

/-- Those dimension numbers; their conditions `wf` are decided on a program's literal shapes. -/
abbrev alongDims (B N M C : ℕ)
    (wf : GatherDims.WF ⟨3, ![B, N, C]⟩ ⟨3, ![B, M, 1]⟩ ⟨3, ![B, M, C]⟩ [2] [1] [0] [1] [0] 2 ![1, 1, C]) :
    GatherDims ⟨3, ![B, N, C]⟩ ⟨3, ![B, M, 1]⟩ ⟨3, ![B, M, C]⟩ where
  offsetDims := [2]
  collapsedSliceDims := [1]
  operandBatchingDims := [0]
  startIndicesBatchingDims := [0]
  startIndexMap := [1]
  indexVectorDim := 2
  sliceSizes := ![1, 1, C]
  wf := wf

/-- THE GATHER READ AT `(b, j, l)`: batch `b`'s row `idx[b, j, 0]`, read signed and clamped into `[0, N − 1]`, at `l`. -/
theorem gather_along_apply (hN : 0 < N)
    (wf : GatherDims.WF ⟨3, ![B, N, C]⟩ ⟨3, ![B, M, 1]⟩ ⟨3, ![B, M, C]⟩ [2] [1] [0] [1] [0] 2 ![1, 1, C])
    (x : (⟨3, ![B, N, C]⟩ : Shape).Idx → α) (idx : IVec ⟨3, ![B, M, 1]⟩ w) (b : Fin B) (j : Fin M) (l : Fin C) :
    Host.gather (alongDims B N M C wf) x idx (ix3 b j l)
      = x (ix3 b ⟨min (idx (ix3 b j (0 : Fin 1))).toInt.toNat (N - 1), by omega⟩ l) := by
  unfold Host.gather
  congr 1
  funext a
  refine Fin.ext ?_
  show (alongDims B N M C wf).start (ix3 b j l) idx a + (alongDims B N M C wf).batchCoord (ix3 b j l) a
      + (alongDims B N M C wf).offCoord (ix3 b j l) a = _
  have nmem {p q : Fin (⟨3, ![B, N, C]⟩ : Shape).rank} (h : p.val ≠ q.val) : p ∉ [q] :=
    fun hm => h (congrArg Fin.val (List.mem_singleton.mp hm))
  match a with
  | ⟨0, h0⟩ =>
    have h1 : (alongDims B N M C wf).start (ix3 b j l) idx ⟨0, h0⟩ = 0 := by
      unfold GatherDims.start; rw [dif_neg (nmem (show (0 : ℕ) ≠ 1 by omega))]
    have h2 : (alongDims B N M C wf).offCoord (ix3 b j l) ⟨0, h0⟩ = 0 :=
      GatherDims.offCoord_eq_zero _ _ _ (fun h => ((GatherDims.mem_sKept _ _).mp h).2 (List.mem_singleton.mpr rfl))
    have h3 : (alongDims B N M C wf).batchCoord (ix3 b j l) ⟨0, h0⟩ = b.val := by
      have hm0 : (⟨0, h0⟩ : Fin (⟨3, ![B, N, C]⟩ : Shape).rank) ∈ (alongDims B N M C wf).operandBatchingDims := List.mem_singleton.mpr rfl
      unfold GatherDims.batchCoord; rw [dif_pos hm0]; rfl
    rw [h1, h2, h3]; show 0 + b.val + 0 = b.val; omega
  | ⟨1, h1'⟩ =>
    have h2 : (alongDims B N M C wf).offCoord (ix3 b j l) ⟨1, h1'⟩ = 0 :=
      GatherDims.offCoord_eq_zero _ _ _ (fun h => ((GatherDims.mem_sKept _ _).mp h).1 (List.mem_singleton.mpr rfl))
    have h3 : (alongDims B N M C wf).batchCoord (ix3 b j l) ⟨1, h1'⟩ = 0 :=
      GatherDims.batchCoord_eq_zero _ _ _ (nmem (show (1 : ℕ) ≠ 0 by omega))
    have hm : (⟨1, h1'⟩ : Fin (⟨3, ![B, N, C]⟩ : Shape).rank) ∈ (alongDims B N M C wf).startIndexMap := List.mem_singleton.mpr rfl
    have h1 : (alongDims B N M C wf).start (ix3 b j l) idx ⟨1, h1'⟩
        = min (idx (ix3 b j (0 : Fin 1))).toInt.toNat (N - 1) := by
      unfold GatherDims.start; rw [dif_pos hm]
      have hsi : (alongDims B N M C wf).siIdx (ix3 b j l) ⟨List.idxOf (⟨1, h1'⟩ : Fin (⟨3, ![B, N, C]⟩ : Shape).rank) (alongDims B N M C wf).startIndexMap,
          List.idxOf_lt_length_iff.2 hm⟩ = ix3 b j (0 : Fin 1) := by
        funext q; refine Fin.ext ?_
        match q with
        | ⟨0, _⟩ => rfl
        | ⟨1, _⟩ => rfl
        | ⟨2, _⟩ => rfl
      rw [hsi]; rfl
    rw [h1, h2, h3]; show min _ (N - 1) + 0 + 0 = min _ (N - 1); omega
  | ⟨2, h2'⟩ =>
    have h1 : (alongDims B N M C wf).start (ix3 b j l) idx ⟨2, h2'⟩ = 0 := by
      unfold GatherDims.start; rw [dif_neg (nmem (show (2 : ℕ) ≠ 1 by omega))]
    have h3 : (alongDims B N M C wf).batchCoord (ix3 b j l) ⟨2, h2'⟩ = 0 :=
      GatherDims.batchCoord_eq_zero _ _ _ (nmem (show (2 : ℕ) ≠ 0 by omega))
    have hk : (⟨2, h2'⟩ : Fin (⟨3, ![B, N, C]⟩ : Shape).rank) ∈ (alongDims B N M C wf).sKept :=
      (GatherDims.mem_sKept _ _).mpr ⟨nmem (show (2 : ℕ) ≠ 1 by omega), nmem (show (2 : ℕ) ≠ 0 by omega)⟩
    have h2 : (alongDims B N M C wf).offCoord (ix3 b j l) ⟨2, h2'⟩ = l.val := by
      unfold GatherDims.offCoord; rw [dif_pos hk]; rfl
    rw [h1, h2, h3]; show 0 + 0 + l.val = l.val; omega

end Idealize.ShloMosaic.TakeAlong

end
-- ==== Proof.RefEq.lean ====
/-
  Under the precondition the reference computes the gather. When every entry of the index array lies in [0, 8192) — read
  as a signed word it is non-negative and at most 8191 — the reference shifts no index (`normIdx` is the index array
  with its unit axis), every index is in range (`inRange` is true everywhere, so the fill value is never taken), and the
  clamp StableHLO applies to a gather's start index changes nothing: the result at `(b, j, l)` is the data array at
  batch `b`, row `idx[b, j]`, column `l` — the function `G` of the data array and the index array.
-/
import proofs.«144003_j17798344474844_2_alg».proof.Proof.RefRun
import proofs.«144003_j17798344474844_2_alg».proof.Proof.LibTakeAlong
import proofs.«144003_j17798344474844_2_alg».proof.Proof.GatherSpec
import Idealize.ShloMosaic.Lib.Pipeline.Value

noncomputable section

namespace Cert.ReferenceIdeal.RefValue

open Cert.ReferenceIdeal Cert.ReferenceIdeal.Gen Cert.GatherSpec
open Idealize.ShloMosaic Idealize.ShloMosaic.ValueIdx Idealize.ShloMosaic.TakeAlong

variable {F : FTy → Type} [FloatOps F]

/-- A word in [0, 8192): not negative as a signed integer, at least 0, at most 8191, and read signed it is itself. -/
theorem word_facts (v : BitVec 32) (hv : v.toNat < 8192) :
    IntOp.cmpi .slt v 0#32 = 0#1 ∧ IntOp.cmpi .sge v 0#32 = 1#1 ∧ IntOp.cmpi .sle v 8191#32 = 1#1 ∧ v.toInt.toNat = v.toNat := by
  have e1 : v.slt 0#32 = false := by
    simp only [BitVec.slt, BitVec.toInt, BitVec.toNat_ofNat, decide_eq_false_iff_not]; omega
  have e2 : (0#32).sle v = true := by
    simp only [BitVec.sle, BitVec.toInt, BitVec.toNat_ofNat, decide_eq_true_eq]; omega
  have e3 : v.sle 8191#32 = true := by
    simp only [BitVec.sle, BitVec.toInt, BitVec.toNat_ofNat, decide_eq_true_eq]; omega
  have e4 : v.toInt = (v.toNat : Int) := by
    simp only [BitVec.toInt]; omega
  refine ⟨?_, ?_, ?_, ?_⟩
  · show BitVec.ofBool (v.slt 0#32) = 0#1; rw [e1]; rfl
  · show BitVec.ofBool ((0#32).sle v) = 1#1; rw [e2]; rfl
  · show BitVec.ofBool (v.sle 8191#32) = 1#1; rw [e3]; rfl
  · rw [e4]; exact Int.toNat_natCast _

/-- A reduce by `and` of an array of ones, from one, is one everywhere. -/
theorem reduce_andi_ones {s t u : Shape} {axes : List (Fin s.rank)} (x : s.Idx → BitVec 1) (init : u.Idx → BitVec 1)
    (h : s.ReducesTo axes t) (hu : 0 < u.numel) (hx : ∀ i, x i = 1#1) (hi : init (Shape.Idx.first hu) = 1#1) (j : t.Idx) :
    Host.reduce IntOp.andi x init h hu j = 1#1 := by
  unfold Host.reduce
  rw [hi]
  generalize List.filter _ _ = l
  induction l with
  | nil => rfl
  | cons a l ih => rw [List.foldl_cons, hx, show IntOp.andi 1#1 1#1 = 1#1 from by decide]; exact ih

/-- The index array with its unit axis, read at `(b, j, 0)`. -/
theorem idx3_apply (x1 : IVec S16x2048 32) (b : Fin 16) (j : Fin 2048) (u : Fin 1) : idx3 x1 (ix3 b j u) = x1 (ix2 b j) := by
  unfold idx3
  exact broadcastInDim_apply _ bcast_S16x2048_S16x2048x1_0_1 x1 (ix3 b j u) (ix2 b j) (fun a => match a with
    | ⟨0, _⟩ => by show b.val = if (16 : Nat) = 1 then 0 else b.val; rw [if_neg (by decide)]
    | ⟨1, _⟩ => by show j.val = if (2048 : Nat) = 1 then 0 else j.val; rw [if_neg (by decide)])

/-- A scalar broadcast reads the scalar. -/
theorem scalar3_apply (v : BitVec 32) (i : S16x2048x1.Idx) :
    broadcastInDim S16x2048x1 ![] bcast_S_S16x2048x1 (constantI S_ 32 v) i = v :=
  (broadcastInDim_apply _ bcast_S_S16x2048x1 (constantI S_ 32 v) i (fun a => a.elim0) (fun a => a.elim0)).trans rfl

/-- The upper bound 8191, broadcast from one entry, reads 8191. -/
theorem bound3_apply (i : S16x2048x1.Idx) :
    broadcastInDim S16x2048x1 ![0, 1, 2] bcast_S1x1x1_S16x2048x1_0_1_2
      (broadcastInDim S1x1x1 ![2] bcast_S1_S1x1x1_2 (constantI S1 32 8191#32)) i = 8191#32 := by
  rw [broadcastInDim_apply _ bcast_S1x1x1_S16x2048x1_0_1_2 _ i (ix3 (0 : Fin 1) (0 : Fin 1) (0 : Fin 1)) (fun a => by
    match a with
    | ⟨0, _⟩ => show 0 = if (1 : Nat) = 1 then 0 else _; rw [if_pos rfl]
    | ⟨1, _⟩ => show 0 = if (1 : Nat) = 1 then 0 else _; rw [if_pos rfl]
    | ⟨2, _⟩ => show 0 = if (1 : Nat) = 1 then 0 else _; rw [if_pos rfl])]
  rw [broadcastInDim_apply _ bcast_S1_S1x1x1_2 _ _ (ix1 (0 : Fin 1)) (fun a => by
    match a with
    | ⟨0, _⟩ => show 0 = if (1 : Nat) = 1 then 0 else _; rw [if_pos rfl])]
  rfl

variable (x1 : IVec S16x2048 32) (hx1 : ∀ y, (x1 y).toNat < 8192)
include hx1

/-- No index is shifted. -/
theorem normIdx_apply (b : Fin 16) (j : Fin 2048) (u : Fin 1) : normIdx x1 (ix3 b j u) = x1 (ix2 b j) := by
  unfold normIdx
  show Scalar.select (IntOp.cmpi .slt (idx3 x1 (ix3 b j u)) (broadcastInDim S16x2048x1 ![] bcast_S_S16x2048x1 (constantI S_ 32 0#32) (ix3 b j u)))
      (IntOp.addi (idx3 x1 (ix3 b j u)) _) (idx3 x1 (ix3 b j u)) = _
  rw [idx3_apply, scalar3_apply, (word_facts _ (hx1 (ix2 b j))).1]
  rfl

/-- Every index is in range. -/
theorem inRange_apply (y : S16x2048.Idx) : inRange x1 y = 1#1 := by
  unfold inRange
  refine reduce_andi_ones _ _ _ _ (fun i => ?_) rfl y
  obtain ⟨b, j, u, rfl⟩ : ∃ (b : Fin 16) (j : Fin 2048) (u : Fin 1), i = ix3 b j u := ⟨i 0, i 1, i 2, eq_ix3 i⟩
  show IntOp.andi (IntOp.cmpi .sge (normIdx x1 (ix3 b j u)) (broadcastInDim S16x2048x1 ![] bcast_S_S16x2048x1 (constantI S_ 32 0#32) (ix3 b j u)))
      (IntOp.cmpi .sle (normIdx x1 (ix3 b j u)) (broadcastInDim S16x2048x1 ![0, 1, 2] bcast_S1x1x1_S16x2048x1_0_1_2
        (broadcastInDim S1x1x1 ![2] bcast_S1_S1x1x1_2 (constantI S1 32 8191#32)) (ix3 b j u))) = 1#1
  rw [normIdx_apply x1 hx1, scalar3_apply, bound3_apply, (word_facts _ (hx1 (ix2 b j))).2.1, (word_facts _ (hx1 (ix2 b j))).2.2.1]
  decide

/-- THE REFERENCE'S RESULT IS THE GATHER. -/
theorem refOut_eq (x0 : FVec F S16x8192x256 .f32) : refOut (F := F) x0 x1 = G x0 x1 := by
  funext i
  obtain ⟨b, j, l, rfl⟩ : ∃ (b : Fin 16) (j : Fin 2048) (l : Fin 256), i = ix3 b j l := ⟨i 0, i 1, i 2, eq_ix3 i⟩
  rw [G_at]
  have hmask : broadcastInDim S16x2048x256 ![0, 1] bcast_S16x2048_S16x2048x256_0_1 (inRange x1) (ix3 b j l) = 1#1 := by
    rw [broadcastInDim_apply _ bcast_S16x2048_S16x2048x256_0_1 (inRange x1) (ix3 b j l) (ix2 b j) (fun a => match a with
      | ⟨0, _⟩ => by show b.val = if (16 : Nat) = 1 then 0 else b.val; rw [if_neg (by decide)]
      | ⟨1, _⟩ => by show j.val = if (2048 : Nat) = 1 then 0 else j.val; rw [if_neg (by decide)])]
    exact inRange_apply x1 hx1 _
  unfold refOut
  show Scalar.select (broadcastInDim S16x2048x256 ![0, 1] bcast_S16x2048_S16x2048x256_0_1 (inRange x1) (ix3 b j l))
      (Host.gather gather_S16x8192x256_S16x2048x1_S16x2048x256_2_1_0_0_1_2_11256 x0 (normIdx x1) (ix3 b j l)) _ = _
  rw [hmask]
  have hg : Host.gather gather_S16x8192x256_S16x2048x1_S16x2048x256_2_1_0_0_1_2_11256 x0 (normIdx x1) (ix3 b j l)
      = x0 (ix3 b ⟨min (normIdx x1 (ix3 b j (0 : Fin 1))).toInt.toNat (8192 - 1), by omega⟩ l) :=
    gather_along_apply (by decide) gather_S16x8192x256_S16x2048x1_S16x2048x256_2_1_0_0_1_2_11256_wf x0 (normIdx x1) b j l
  refine hg.trans ?_
  refine congrArg x0 (congrArg (fun r => ix3 b r l) (Fin.ext ?_))
  show min (normIdx x1 (ix3 b j (0 : Fin 1))).toInt.toNat (8192 - 1) = (rowOf (x1 (ix2 b j))).val
  rw [normIdx_apply x1 hx1, (word_facts _ (hx1 (ix2 b j))).2.2.2, rowOf_val _ (hx1 (ix2 b j))]
  have := hx1 (ix2 b j)
  omega

end Cert.ReferenceIdeal.RefValue

end
-- ==== Proof.PreRange.lean ====
/-
  The precondition, read back at the index array. `finite_inputs` is the conjunction of two `jnp.all`s: every entry of
  the data array is finite (`finAll`), and every entry `v` of the index array satisfies `v ≥ 0` and `v < 8192` as signed
  words (`rngAll`). From the second: every entry of the index array, read unsigned, is below 8192.
-/
import proofs.«144003_j17798344474844_2_alg».proof.Pre_finite_inputs
import Idealize.ShloMosaic.Lib.ReduceAll
import Idealize.ShloMosaic.Lib.ValueIdx

noncomputable section

namespace Cert.Pre_finite_inputs.Range

open Cert.Pre_finite_inputs Cert.Pre_finite_inputs.Facts Idealize.ShloMosaic

instance : Subsingleton S_.Idx := ⟨fun a b => funext fun d => d.elim0⟩

variable {F : FTy → Type} [FloatOps F] [Facts]

theorem ofBool_eq_one (p : Bool) : (BitVec.ofBool p = 1#1) ↔ p = true := by cases p <;> decide

/-- "Every entry of the data array is finite." -/
def finAll (x0 : FVec F S16x8192x256 .f32) : IVec S_ 1 :=
  Host.reduce IntOp.andi (cmpf .olt (Host.absf x0) (broadcastInDim S16x8192x256 ![] bcast_S_S16x8192x256 (constant S_ .f32 0x7F800000#32)))
    (constantI S_ 1 1#1) reducesTo_S16x8192x256_S_d0_1_2 h_S_
/-- The index array's entries compared with 0 and 8192, entry by entry. -/
def rngMask (x1 : IVec S16x2048 32) : IVec S16x2048 1 :=
  andi (cmpi .sge x1 (broadcastInDim S16x2048 ![] bcast_S_S16x2048 (constantI S_ 32 0#32)))
    (cmpi .slt x1 (broadcastInDim S16x2048 ![] bcast_S_S16x2048 (constantI S_ 32 8192#32)))
/-- "Every entry of the index array is at least 0 and below 8192." -/
def rngAll (x1 : IVec S16x2048 32) : IVec S_ 1 :=
  Host.reduce IntOp.andi (rngMask x1) (constantI S_ 1 1#1) reducesTo_S16x2048_S_d0_1 h_S_

theorem fn_eq (x0 : FVec F S16x8192x256 .f32) (x1 : IVec S16x2048 32) : fn (F := F) x0 x1 = andi (finAll x0) (rngAll x1) := rfl

/-- Under the precondition every entry of the index array lies in [0, 8192). -/
theorem idx_inRange (x0 : FVec F S16x8192x256 .f32) (x1 : IVec S16x2048 32) (h : fn (F := F) x0 x1 = fun _ => 1#1)
    (y : S16x2048.Idx) : (x1 y).toNat < 8192 := by
  rw [fn_eq] at h
  have e : IntOp.andi (finAll x0 ValueIdx.ix0) (rngAll x1 ValueIdx.ix0) = 1#1 := congrFun h ValueIdx.ix0
  have e9 : rngAll x1 ValueIdx.ix0 = 1#1 := (IntOp.andi_eq_one.1 e).2
  have ey : rngMask x1 y = 1#1 := Host.reduce_andi_all (rngMask x1) (constantI S_ 1 1#1) reducesTo_S16x2048_S_d0_1 h_S_ ValueIdx.ix0 e9 y
  have ey' : IntOp.andi (IntOp.cmpi .sge (x1 y) 0#32) (IntOp.cmpi .slt (x1 y) 8192#32) = 1#1 := ey
  obtain ⟨hge, hlt⟩ := IntOp.andi_eq_one.1 ey'
  have h1 : (0#32).sle (x1 y) = true := (ofBool_eq_one _).1 (show BitVec.ofBool ((0#32).sle (x1 y)) = 1#1 from hge)
  have h2 : (x1 y).slt 8192#32 = true := (ofBool_eq_one _).1 (show BitVec.ofBool ((x1 y).slt 8192#32) = 1#1 from hlt)
  simp only [BitVec.sle, BitVec.slt, decide_eq_true_eq, BitVec.toInt, BitVec.toNat_ofNat] at h1 h2
  omega

end Cert.Pre_finite_inputs.Range

end
-- ==== Proof.lean ====
/-
  The certificate of the gather kernel against `jnp.take_along_axis`.

  The kernel. `forward(x, idx)` clips the index array into [0, 8191] on the host and hands the clipped table to a
  pallas_call as a prefetched table. Grid point `(b, j)` reads the table's entries `(b, 8j), …, (b, 8j + 7)` and, for each,
  copies row `(b, entry)` of `x`, left in HBM, into the matching row of its [1, 8, 256] output tile by a DMA of its own on a
  cell of its own, starting all eight before waiting for any; the tile is then written back as block `(b, j, 0)` of the
  result. The reference gathers `x[b, idx[b, j], :]` on the host, shifting a negative index by 8192 and replacing an
  out-of-range row by a fill value.

  The frames (both instances of the kernel). The table is clipped, so every word the body loads names a row of `x`: the
  body's side conditions hold whatever the index array is. Eight copies read `x` at once — two may read one row —, so `x` is
  held as one read share per DMA cell; each copy lands in its own row of the tile, carved out while it flies. The launch
  theorem for a region with a prefetched table whose kernel reads an HBM operand by its own copies gives the run; neither
  argument array is a window's array or written by the host prefix, so both end as launched.

  The values at the ideal instance. No float arithmetic happens on either side: both results are `x` re-indexed. The
  kernel's is `x (b, clip(idx)(b, s), l)` and the reference's, when every index lies in [0, 8192), is `x (b, idx (b, s), l)`;
  there the clip is the identity. The precondition states that range of the indices (outside it the reference reads
  another row, or its fill value, while the kernel reads a clipped row), besides the finiteness of `x`, which nothing
  here uses.
-/
import proofs.«144003_j17798344474844_2_alg».proof.Defs
import proofs.«144003_j17798344474844_2_alg».proof.Proof.Gen.Kernel
import proofs.«144003_j17798344474844_2_alg».proof.Proof.Gen.KernelIdeal
import proofs.«144003_j17798344474844_2_alg».proof.Proof.Gen.ReferenceIdeal
import proofs.«144003_j17798344474844_2_alg».proof.Proof.Gen.Pre_finite_inputs
import proofs.«144003_j17798344474844_2_alg».proof.Proof.BitsFrame
import proofs.«144003_j17798344474844_2_alg».proof.Proof.IdealValue
import proofs.«144003_j17798344474844_2_alg».proof.Proof.RefEq
import proofs.«144003_j17798344474844_2_alg».proof.Proof.PreRange
import Idealize.ShloMosaic.Adequacy
import Idealize.ShloMosaic.Init

noncomputable section

namespace Cert.Proof

open Idealize.ShloMosaic Idealize.ShloMosaic.TcCoe Idealize.SL.Sem Cert.GatherSpec

/-- The word-level kernel runs and leaves its arguments as launched. -/
theorem frame_k : Cert.frame_Kernel (hKernel := Cert.Kernel.Gen.facts) (hPre_finite_inputs := Cert.Pre_finite_inputs.Gen.facts) :=
  fun m ρ _ => Cert.Kernel.Gather.frame m ρ

/-- So does the idealized kernel. -/
theorem frame_ki : Cert.frame_KernelIdeal (hKernelIdeal := Cert.KernelIdeal.Gen.facts) (hPre_finite_inputs := Cert.Pre_finite_inputs.Gen.facts) :=
  fun m ρ _ => Cert.KernelIdeal.Gather.frame m ρ

/-- The reference runs and leaves its arguments as launched: its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.RefValue.run (F := Ideal) m ρ)

/-- From memories agreeing on the arguments both programs end with the gather `x (b, idx (b, s), l)`: the kernel's
    table is the index array (the clip is the identity on [0, 8192)), and the reference neither shifts nor fills. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  have hr : ∀ (c : Dev Cert.KernelIdeal.nD) (y : Cert.KernelIdeal.S16x2048.Idx),
      ((m ((c.tc : Thread Cert.KernelIdeal.nD Cert.KernelIdeal.τ).loc Cert.KernelIdeal.main_arg1) : IVec Cert.KernelIdeal.S16x2048 32) y).toNat < 8192 :=
    fun c y => Cert.Pre_finite_inputs.Range.idx_inRange (F := Ideal) _ _ (hpre c) y
  refine ⟨fun c => G (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · refine (θ_run Cert.KernelIdeal.defs _ _).mono (fun _ h c => ⟨(h c).1.trans ?_, (h c).2⟩)
      (Cert.KernelIdeal.Gather.run (F := Ideal) m ρ)
    exact congrArg (G _) (funext fun y => Cert.KernelIdeal.Gather.tbl_of_inRange m c (hr c) y)
  · refine (θ_run Cert.ReferenceIdeal.defs _ _).mono (fun _ h c => ⟨(h c).1.trans ?_, (h c).2⟩)
      (Cert.ReferenceIdeal.RefValue.run (F := Ideal) m' ρ')
    rw [(hagree c).1, (hagree c).2]
    exact Cert.ReferenceIdeal.RefValue.refOut_eq _ (hr c) _

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
